-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S768x768 : Shape := ⟨2, ![768, 768]⟩
abbrev S768 : Shape := ⟨1, ![768]⟩
abbrev S64x768 : Shape := ⟨2, ![64, 768]⟩
abbrev S64 : Shape := ⟨1, ![64]⟩
abbrev S768x64 : Shape := ⟨2, ![768, 64]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_
  bcast_S_S768x64 : S_.BroadcastsInDim S768x64 (![] : Fin 0 → Fin S768x64.rank)
  reducesTo_S768x64_S_d0_1 : S768x64.ReducesTo [0, 1] S_

variable [Facts]

def fn_part1 {F : FTy → Type} [FloatOps F] (main_arg4 : FVec F S64 .f32) (main_arg5 : FVec F S768x64 .f32) (main_arg6 : FVec F S64 .f32) (main_v13 : IVec S_ 1) (main_v16 : IVec S64x768 1) : IVec S_ 1 :=
  let main_c_5 : IVec S_ 1 := constantI S_ 1 1#1
  let main_v17 : IVec S_ 1 := (fun x v => Host.reduce IntOp.andi x v reducesTo_S64x768_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S768x64 .f32 := Host.absf main_arg5
  let main_cst_8 : FVec F S_ .f32 := constant S_ .f32 0x7F800000#32
  let main_v25 : FVec F S768x64 .f32 := broadcastInDim S768x64 ![] bcast_S_S768x64 main_cst_8
  let main_v26 : IVec S768x64 1 := cmpf .olt main_v24 main_v25
  let main_c_9 : IVec S_ 1 := constantI S_ 1 1#1
  let main_v27 : IVec S_ 1 := (fun x v => Host.reduce IntOp.andi x v reducesTo_S768x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S32768x768 .f32) (main_arg1 : FVec F S768x768 .f32) (main_arg2 : FVec F S768 .f32) (main_arg3 : FVec F S64x768 .f32) (main_arg4 : FVec F S64 .f32) (main_arg5 : FVec F S768x64 .f32) (main_arg6 : FVec F S64 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S64x768 .f32 := Host.absf main_arg3
  let main_cst_4 : FVec F S_ .f32 := constant S_ .f32 0x7F800000#32
  let main_v15 : FVec F S64x768 .f32 := broadcastInDim S64x768 ![] bcast_S_S64x768 main_cst_4
  let main_v16 : IVec S64x768 1 := cmpf .olt main_v14 main_v15
  fn_part1 (F := F) main_arg4 main_arg5 main_arg6 main_v13 main_v16
-- ==== Kernel.lean ====
abbrev S32768x768 : Shape := ⟨2, ![32768, 768]⟩
abbrev S768x768 : Shape := ⟨2, ![768, 768]⟩
abbrev S768 : Shape := ⟨1, ![768]⟩
abbrev S64x768 : Shape := ⟨2, ![64, 768]⟩
abbrev S64 : Shape := ⟨1, ![64]⟩
abbrev S768x64 : Shape := ⟨2, ![768, 64]⟩
abbrev S768x128 : Shape := ⟨2, ![768, 128]⟩
abbrev S128 : Shape := ⟨1, ![128]⟩
abbrev S1x128 : Shape := ⟨2, ![1, 128]⟩
abbrev S1x768 : Shape := ⟨2, ![1, 768]⟩
abbrev S_ : Shape := ⟨0, ![]⟩
abbrev S64x64 : Shape := ⟨2, ![64, 64]⟩
abbrev S32768x1 : Shape := ⟨2, ![32768, 1]⟩
abbrev S32768x64 : Shape := ⟨2, ![32768, 64]⟩
abbrev S2048x768 : Shape := ⟨2, ![2048, 768]⟩
abbrev S4096x1 : Shape := ⟨2, ![4096, 1]⟩
abbrev S4096x64 : Shape := ⟨2, ![4096, 64]⟩
abbrev S2048x128 : Shape := ⟨2, ![2048, 128]⟩
abbrev S2048x64 : Shape := ⟨2, ![2048, 64]⟩
abbrev S2048x1 : Shape := ⟨2, ![2048, 1]⟩

abbrev nBuf : Space → Nat
  | .hbm => 19
  | .vmem => 13
  | .smem => 0
  | _ => 0

abbrev bufTy : (tb : Table) → Fin (tcTables nBuf tb) → BufTy
  | .hbm, ⟨0, _⟩ => ⟨S32768x768, .f32⟩
  | .hbm, ⟨1, _⟩ => ⟨S768x768, .f32⟩
  | .hbm, ⟨2, _⟩ => ⟨S768, .f32⟩
  | .hbm, ⟨3, _⟩ => ⟨S64x768, .f32⟩
  | .hbm, ⟨4, _⟩ => ⟨S64, .f32⟩
  | .hbm, ⟨5, _⟩ => ⟨S768x64, .f32⟩
  | .hbm, ⟨6, _⟩ => ⟨S64, .f32⟩
  | .hbm, ⟨7, _⟩ => ⟨S768x64, .f32⟩
  | .hbm, ⟨8, _⟩ => ⟨S768x128, .f32⟩
  | .hbm, ⟨9, _⟩ => ⟨S768x128, .bf16⟩
  | .hbm, ⟨10, _⟩ => ⟨S128, .f32⟩
  | .hbm, ⟨11, _⟩ => ⟨S1x128, .f32⟩
  | .hbm, ⟨12, _⟩ => ⟨S1x768, .f32⟩
  | .hbm, ⟨13, _⟩ => ⟨S1x768, .bf16⟩
  | .hbm, ⟨14, _⟩ => ⟨S768x768, .bf16⟩
  | .hbm, ⟨15, _⟩ => ⟨S_, .f32⟩
  | .hbm, ⟨16, _⟩ => ⟨S64x64, .f32⟩
  | .hbm, ⟨17, _⟩ => ⟨S32768x1, .f32⟩
  | .hbm, ⟨18, _⟩ => ⟨S32768x64, .f32⟩
  | .local _ .vmem, ⟨0, _⟩ => ⟨S2048x768, .f32⟩
  | .local _ .vmem, ⟨1, _⟩ => ⟨S2048x768, .f32⟩
  | .local _ .vmem, ⟨2, _⟩ => ⟨S2048x768, .f32⟩
  | .local _ .vmem, ⟨3, _⟩ => ⟨S2048x768, .f32⟩
  | .local _ .vmem, ⟨4, _⟩ => ⟨S768x768, .bf16⟩
  | .local _ .vmem, ⟨5, _⟩ => ⟨S1x768, .bf16⟩
  | .local _ .vmem, ⟨6, _⟩ => ⟨S768x128, .bf16⟩
  | .local _ .vmem, ⟨7, _⟩ => ⟨S1x128, .f32⟩
  | .local _ .vmem, ⟨8, _⟩ => ⟨S64x64, .f32⟩
  | .local _ .vmem, ⟨9, _⟩ => ⟨S4096x1, .f32⟩
  | .local _ .vmem, ⟨10, _⟩ => ⟨S4096x1, .f32⟩
  | .local _ .vmem, ⟨11, _⟩ => ⟨S4096x64, .f32⟩
  | .local _ .vmem, ⟨12, _⟩ => ⟨S4096x64, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S64x768_S768x64_1_0 : S64x768.Transposes [1, 0] S768x64
  concatenates_S768x64_S768x64_S768x128_d1 : Shape.Concatenates [S768x64, S768x64] S768x128 1
  bitsLt_bf16_f32 : FTy.bits .bf16 < FTy.bits .f32
  concatenates_S64_S64_S128_d0 : Shape.Concatenates [S64, S64] S128 0
  bcast_S128_S1x128_1 : S128.BroadcastsInDim S1x128 (![1] : Fin 1 → Fin S1x128.rank)
  bcast_S768_S1x768_1 : S768.BroadcastsInDim S1x768 (![1] : Fin 1 → Fin S1x768.rank)
  bcast_S_S64x64 : S_.BroadcastsInDim S64x64 (![] : Fin 0 → Fin S64x64.rank)
  inb_S2048x768_S2048x768_0_0 : ∀ a, (![0, 0] : Fin 2 → Nat) a + S2048x768.size a ≤ S2048x768.size a
  h_S2048x768 : 0 < S2048x768.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S2048x128_o0_0_S2048x64 : S2048x128.Slices ![0, 0] S2048x64
  slices_S2048x128_o0_64_S2048x64 : S2048x128.Slices ![0, 64] S2048x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4096x64_S2048x64_0_0 : ∀ a, (![0, 0] : Fin 2 → Nat) a + S2048x64.size a ≤ S4096x64.size a
  h_S2048x64 : 0 < S2048x64.numel
  slices_S2048x64_o0_0_S2048x1 : S2048x64.Slices ![0, 0] S2048x1
  inb_S4096x1_S2048x1_0_0 : ∀ a, (![0, 0] : Fin 2 → Nat) a + S2048x1.size a ≤ S4096x1.size a
  h_S2048x1 : 0 < S2048x1.numel
  inb_S4096x64_S2048x64_2048_0 : ∀ a, (![2048, 0] : Fin 2 → Nat) a + S2048x64.size a ≤ S4096x64.size a
  inb_S4096x1_S2048x1_2048_0 : ∀ a, (![2048, 0] : Fin 2 → Nat) a + S2048x1.size a ≤ S4096x1.size a
  dot_S2048x768_S768x768_S2048x768_1_0_0_1_n_n_wf : DotDims.WF S2048x768 S768x768 S2048x768 [1] [0] [0] [1] [] []
  dot_S2048x768_S768x128_S2048x128_1_0_0_1_n_n_wf : DotDims.WF S2048x768 S768x128 S2048x128 [1] [0] [0] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S32768x768.size a
  hwx0_0 : ∀ i : grid0.Coords, EltTy.bits .f32 = 32 ∨ (Rect.block (s := S32768x768) S2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S32768x768.size a
  hwx0_1 : ∀ i : grid0.Coords, EltTy.bits .f32 = 32 ∨ (Rect.block (s := S32768x768) S2048x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .bf16 = 32 ∨ (Rect.block (s := S1x768) S1x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x128.size a ≤ S768x128.size a
  hwx0_4 : ∀ i : grid0.Coords, EltTy.bits .bf16 = 32 ∨ (Rect.block (s := S768x128) S768x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x1.size a ≤ S32768x1.size a
  hwx0_7 : ∀ i : grid0.Coords, EltTy.bits .f32 = 32 ∨ (Rect.block (s := S32768x1) S4096x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x64.size a ≤ S32768x64.size a
  hwx0_8 : ∀ i : grid0.Coords, EltTy.bits .f32 = 32 ∨ (Rect.block (s := S32768x64) S4096x64.size (cc0_transform_8 i) (hinb0_8 i)).WholeWords (EltTy.packing .f32)

variable [Facts₀]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf
def dot_S2048x768_S768x128_S2048x128_1_0_0_1_n_n : DotDims S2048x768 S768x128 S2048x128 where
  lhsContracting := [1]
  rhsContracting := [0]
  lhsNonContracting := [0]
  rhsNonContracting := [1]
  lhsBatch := []
  rhsBatch := []
  wf := dot_S2048x768_S768x128_S2048x128_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S768x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S4096x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S4096x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x768 : Shape := ⟨2, ![32768, 768]⟩
abbrev S768x768 : Shape := ⟨2, ![768, 768]⟩
abbrev S768 : Shape := ⟨1, ![768]⟩
abbrev S64x768 : Shape := ⟨2, ![64, 768]⟩
abbrev S64 : Shape := ⟨1, ![64]⟩
abbrev S768x64 : Shape := ⟨2, ![768, 64]⟩
abbrev S1x768 : Shape := ⟨2, ![1, 768]⟩
abbrev S_ : Shape := ⟨0, ![]⟩
abbrev S32768x64 : Shape := ⟨2, ![32768, 64]⟩
abbrev S1x64 : Shape := ⟨2, ![1, 64]⟩
abbrev S32768 : Shape := ⟨1, ![32768]⟩
abbrev S32768x1 : Shape := ⟨2, ![32768, 1]⟩
abbrev S32768x1x64 : Shape := ⟨3, ![32768, 1, 64]⟩

abbrev nBuf : Space → Nat
  | .hbm => 42
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S768x768, .f32⟩
  | .hbm, ⟨2, _⟩ => ⟨S768, .f32⟩
  | .hbm, ⟨3, _⟩ => ⟨S64x768, .f32⟩
  | .hbm, ⟨4, _⟩ => ⟨S64, .f32⟩
  | .hbm, ⟨5, _⟩ => ⟨S768x64, .f32⟩
  | .hbm, ⟨6, _⟩ => ⟨S64, .f32⟩
  | .hbm, ⟨7, _⟩ => ⟨S32768x768, .f32⟩
  | .hbm, ⟨8, _⟩ => ⟨S1x768, .f32⟩
  | .hbm, ⟨9, _⟩ => ⟨S32768x768, .f32⟩
  | .hbm, ⟨10, _⟩ => ⟨S32768x768, .f32⟩
  | .hbm, ⟨11, _⟩ => ⟨S_, .f32⟩
  | .hbm, ⟨12, _⟩ => ⟨S32768x768, .f32⟩
  | .hbm, ⟨13, _⟩ => ⟨S32768x768, .f32⟩
  | .hbm, ⟨14, _⟩ => ⟨S32768x64, .f32⟩
  | .hbm, ⟨15, _⟩ => ⟨S1x64, .f32⟩
  | .hbm, ⟨16, _⟩ => ⟨S32768x64, .f32⟩
  | .hbm, ⟨17, _⟩ => ⟨S32768x64, .f32⟩
  | .hbm, ⟨18, _⟩ => ⟨S_, .f32⟩
  | .hbm, ⟨19, _⟩ => ⟨S32768, .f32⟩
  | .hbm, ⟨20, _⟩ => ⟨S_, .f32⟩
  | .hbm, ⟨21, _⟩ => ⟨S32768, .f32⟩
  | .hbm, ⟨22, _⟩ => ⟨S32768, .f32⟩
  | .hbm, ⟨23, _⟩ => ⟨S32768x1, .f32⟩
  | .hbm, ⟨24, _⟩ => ⟨S32768x64, .f32⟩
  | .hbm, ⟨25, _⟩ => ⟨S32768x64, .f32⟩
  | .hbm, ⟨26, _⟩ => ⟨S32768x64, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S32768x64, .f32⟩
  | .hbm, ⟨31, _⟩ => ⟨S32768x64, .f32⟩
  | .hbm, ⟨32, _⟩ => ⟨S768x64, .f32⟩
  | .hbm, ⟨33, _⟩ => ⟨S32768x64, .f32⟩
  | .hbm, ⟨34, _⟩ => ⟨S1x64, .f32⟩
  | .hbm, ⟨35, _⟩ => ⟨S32768x64, .f32⟩
  | .hbm, ⟨36, _⟩ => ⟨S32768x64, .f32⟩
  | .hbm, ⟨37, _⟩ => ⟨S32768x1x64, .f32⟩
  | .hbm, ⟨38, _⟩ => ⟨S32768x1x64, .f32⟩
  | .hbm, ⟨39, _⟩ => ⟨S32768x1x64, .f32⟩
  | .hbm, ⟨40, _⟩ => ⟨S_, .f32⟩
  | .hbm, ⟨41, _⟩ => ⟨S32768x1, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S768_S1x768_1 : S768.BroadcastsInDim S1x768 (![1] : Fin 1 → Fin S1x768.rank)
  bcast_S1x768_S32768x768_0_1 : S1x768.BroadcastsInDim S32768x768 (![0, 1] : Fin 2 → Fin S32768x768.rank)
  bcast_S_S32768x768 : S_.BroadcastsInDim S32768x768 (![] : Fin 0 → Fin S32768x768.rank)
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  transposes_S64x768_S768x64_1_0 : S64x768.Transposes [1, 0] S768x64
  bcast_S32768x64_S32768x1x64_0_2 : S32768x64.BroadcastsInDim S32768x1x64 (![0, 2] : Fin 2 → Fin S32768x1x64.rank)
  reducesTo_S32768x1x64_S32768x1_d2 : S32768x1x64.ReducesTo [2] S32768x1
  dot_S32768x768_S768x768_S32768x768_1_0_0_1_n_n_wf : DotDims.WF S32768x768 S768x768 S32768x768 [1] [0] [0] [1] [] []
  dot_S32768x768_S768x64_S32768x64_1_0_0_1_n_n_wf : DotDims.WF S32768x768 S768x64 S32768x64 [1] [0] [0] [1] [] []

variable [Facts₀]

def dot_S32768x768_S768x768_S32768x768_1_0_0_1_n_n : DotDims S32768x768 S768x768 S32768x768 where
  lhsContracting := [1]
  rhsContracting := [0]
  lhsNonContracting := [0]
  rhsNonContracting := [1]
  lhsBatch := []
  rhsBatch := []
  wf := dot_S32768x768_S768x768_S32768x768_1_0_0_1_n_n_wf
def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf

class Facts : Prop extends Facts₀ where

variable [Facts]
-- ==== Proof.KernelFrame.lean ====
/-
  The frame of the program: it runs to the end from any memory, faults nowhere, and leaves its argument arrays as they
  were — together with what its two result arrays hold afterwards, named through the body's pure terms.

  The program is a line of host operations (a transpose, two concatenations, three changes of float format, two
  broadcasts, a constant and its broadcast), then ONE pipelined region over a grid of 8 points with nine windows, then
  the return. Windows 0 and 1 read the SAME array, the token matrix: at point t window 0 takes rows
  [4096 t, 4096 t + 2048) and window 1 rows [4096 t + 2048, 4096 t + 4096). Windows 2 to 6 are whole small arrays
  (the weights, the biases, the all-ones matrix) fetched once. Windows 7 and 8 are the results: a block of 4096 rows
  each, written back at every point.

  Because two windows share an array, the array cannot be handed to the region at the full share once per window:
  its buffer is split into its two half shares, one per reading window (`arrays_at_entry`). Nothing is ever written
  through a half share; both windows only read.

  The body at a point loads each input block whole, computes, and stores the upper and the lower 2048 rows of each
  result block (it also loads the rows it is about to overwrite, and does not use them). So after the body a result
  block is the canon of two stores (`outMean`, `outWeights`) over the body's pure terms of the input blocks.
-/
import proofs.«101113_g83665962926118_cont_9to1c4b_418_25_alg».proof.Proof.Gen.Kernel.Launch
import proofs.«101113_g83665962926118_cont_9to1c4b_418_25_alg».proof.Proof.Gen.Kernel.Skeleton
import proofs.«101113_g83665962926118_cont_9to1c4b_418_25_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: the launch contents after the line of host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is that line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## A window's block at a point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetches it or
    not (a window fetched once keeps its index), for any proof data over these arrays whose body leaves the
    block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's rectangles and what it leaves in the result blocks -/

abbrev rIn0 : Rect S2048x768 := Rect.unit (s := S2048x768) ![0, 0] S2048x768.size inb_S2048x768_S2048x768_0_0
abbrev rIn2 : Rect S768x768 := Rect.unit (s := S768x768) ![0, 0] S768x768.size inb_S768x768_S768x768_0_0
abbrev rIn3 : Rect S1x768 := Rect.unit (s := S1x768) ![0, 0] S1x768.size inb_S1x768_S1x768_0_0
abbrev rIn4 : Rect S768x128 := Rect.unit (s := S768x128) ![0, 0] S768x128.size inb_S768x128_S768x128_0_0
abbrev rIn5 : Rect S1x128 := Rect.unit (s := S1x128) ![0, 0] S1x128.size inb_S1x128_S1x128_0_0
abbrev rIn6 : Rect S64x64 := Rect.unit (s := S64x64) ![0, 0] S64x64.size inb_S64x64_S64x64_0_0
/-- The upper and the lower half of the 4096 rows of a result block. -/
abbrev rMeanUp : Rect S4096x1 := Rect.unit (s := S4096x1) ![0, 0] S2048x1.size inb_S4096x1_S2048x1_0_0
abbrev rMeanLo : Rect S4096x1 := Rect.unit (s := S4096x1) ![2048, 0] S2048x1.size inb_S4096x1_S2048x1_2048_0
abbrev rWtsUp : Rect S4096x64 := Rect.unit (s := S4096x64) ![0, 0] S2048x64.size inb_S4096x64_S2048x64_0_0
abbrev rWtsLo : Rect S4096x64 := Rect.unit (s := S4096x64) ![2048, 0] S2048x64.size inb_S4096x64_S2048x64_2048_0

/-- The weighted-mean block after the body: rows 0..2047 from window 0's token rows, rows 2048..4095 from window 1's
    (the later store listed first). -/
def outMean (x0 : Vec F S2048x768 .f32) (x1 : Vec F S2048x768 .f32) (x2 : Vec F S768x768 .bf16) (x3 : Vec F S1x768 .bf16) (x4 : Vec F S768x128 .bf16) (x5 : Vec F S1x128 .f32) (x6 : Vec F S64x64 .f32) : Vec F S4096x1 .f32 :=
  View.canon [⟨rMeanLo, k0_pay10 (View.ld x1 rIn0) (View.ld x2 rIn2) (View.ld x3 rIn3) (View.ld x4 rIn4) (View.ld x5 rIn5) (View.ld x6 rIn6) (View.ld x6 rIn6)⟩,
    ⟨rMeanUp, k0_pay5 (View.ld x0 rIn0) (View.ld x2 rIn2) (View.ld x3 rIn3) (View.ld x4 rIn4) (View.ld x5 rIn5) (View.ld x6 rIn6) (View.ld x6 rIn6)⟩]

/-- The softmax-weights block after the body, likewise. -/
def outWeights (x0 : Vec F S2048x768 .f32) (x1 : Vec F S2048x768 .f32) (x2 : Vec F S768x768 .bf16) (x3 : Vec F S1x768 .bf16) (x4 : Vec F S768x128 .bf16) (x5 : Vec F S1x128 .f32) (x6 : Vec F S64x64 .f32) : Vec F S4096x64 .f32 :=
  View.canon [⟨rWtsLo, k0_pay9 (View.ld x1 rIn0) (View.ld x2 rIn2) (View.ld x3 rIn3) (View.ld x4 rIn4) (View.ld x5 rIn5) (View.ld x6 rIn6)⟩,
    ⟨rWtsUp, k0_pay4 (View.ld x0 rIn0) (View.ld x2 rIn2) (View.ld x3 rIn3) (View.ld x4 rIn4) (View.ld x5 rIn5) (View.ld x6 rIn6)⟩]

/-- The two halves tile the block, so the two stores cover it. -/
theorem coverMean (p1 : Vec F S2048x1 .f32) (p0 : Vec F S2048x1 .f32) (y : S4096x1.Idx) :
    ∃ pc ∈ ([⟨rMeanLo, p1⟩, ⟨rMeanUp, p0⟩] : List (View.Piece (Elt F) S4096x1 .f32)), y ∈ pc.1.set :=
  View.cover_of_tiled [⟨rMeanLo, p1⟩, ⟨rMeanUp, p0⟩] S2048x1.size (by rfl) y
theorem coverWeights (p1 : Vec F S2048x64 .f32) (p0 : Vec F S2048x64 .f32) (y : S4096x64.Idx) :
    ∃ pc ∈ ([⟨rWtsLo, p1⟩, ⟨rWtsUp, p0⟩] : List (View.Piece (Elt F) S4096x64 .f32)), y ∈ pc.1.set :=
  View.cover_of_tiled [⟨rWtsLo, p1⟩, ⟨rWtsUp, p0⟩] S2048x64.size (by rfl) y

/-! ## The body's triple -/

set_option maxHeartbeats 4000000 in
/-- The body on whole staging memrefs, the inputs' at contents `xW` and the results' at anything, runs to the
    continuation holding the inputs' as they were and the results' at `outMean` and `outWeights` of the inputs'. -/
theorem sound_kernel (c : Dev nD) (E : Set ℕ) (i : grid0.Coords)
    (arg1 : Memref sig .tc .vmem S2048x768 .f32) (harg1 : arg1.IsWhole) (arg2 : Memref sig .tc .vmem S2048x768 .f32) (harg2 : arg2.IsWhole)
    (arg3 : Memref sig .tc .vmem S768x768 .bf16) (harg3 : arg3.IsWhole) (arg4 : Memref sig .tc .vmem S1x768 .bf16) (harg4 : arg4.IsWhole)
    (arg5 : Memref sig .tc .vmem S768x128 .bf16) (harg5 : arg5.IsWhole) (arg6 : Memref sig .tc .vmem S1x128 .f32) (harg6 : arg6.IsWhole)
    (arg7 : Memref sig .tc .vmem S64x64 .f32) (harg7 : arg7.IsWhole) (arg8 : Memref sig .tc .vmem S4096x1 .f32) (harg8 : arg8.IsWhole)
    (arg9 : Memref sig .tc .vmem S4096x64 .f32) (harg9 : arg9.IsWhole)
    (x0 : Vec F S2048x768 .f32) (x1 : Vec F S2048x768 .f32) (x2 : Vec F S768x768 .bf16) (x3 : Vec F S1x768 .bf16) (x4 : Vec F S768x128 .bf16) (x5 : Vec F S1x128 .f32) (x6 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outMean x0 x1 x2 x3 x4 x5 x6)
            ∗ owns (c : Thread nD τ) arg9 fullShare (outWeights x0 x1 x2 x3 x4 x5 x6)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverMean _ _)
  iexists _; isplitr
  swap; · iexact H8
  ipureintro
  exact View.read_writes_eq_canon _ _ _ (coverWeights _ _)

/-! ## The proof data -/

/-- One core's proof data: the arrays as the region finds them; after the body at point `t` each input's buffer at
    its block and each result's at the canon of its two stores; the invariant the scoped rest; nothing owed; the token
    array's two reading windows at its two half shares, every other input at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outMean (iblk m c 0 t) (iblk m c 1 t) (iblk m c 2 t) (iblk m c 3 t) (iblk m c 4 t) (iblk m c 5 t) (iblk m c 6 t)
    | ⟨8, _⟩ => outWeights (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_mean (c : Dev nD) (t : Fin cfg0.N) : (dats m 0 c).after 7 t = outMean (iblk m c 0 t) (iblk m c 1 t) (iblk m c 2 t) (iblk m c 3 t) (iblk m c 4 t) (iblk m c 5 t) (iblk m c 6 t) := by dsimp only [dats]
theorem after_weights (c : Dev nD) (t : Fin cfg0.N) : (dats m 0 c).after 8 t = outWeights (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so the body's triple applies; the invariant and the
    core's owed tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_mean, after_weights]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: the token array split between its two windows -/

/-- The distinct buffers behind the nine windows' arrays are those of windows 1 to 8 (window 0's is window 1's). -/
theorem arr_image : Finset.univ.image (Pipeline.arrRef spec0)
    = Finset.univ.map ⟨fun i : Fin 8 => Pipeline.arrRef spec0 i.succ, by decide⟩ := by decide

/-- Eight resources conjoined one by one. -/
theorem bigSep_fin8 {M : Type} [URA M] (Φ : Fin 8 → sProp M) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), (1 : Fin 8), (2 : Fin 8), (3 : Fin 8), (4 : Fin 8), (5 : Fin 8), (6 : Fin 8), (7 : Fin 8)] (by decide) (by decide) Φ

/-- The shares: the token array's two windows hold its left and right halves, every other window the full share. -/
theorem share_in0 (c : Dev nD) : (dats m 0 c).share 0 = fullShare.left := by
  unfold Dat.share; split
  · next h => exact absurd h Bool.false_ne_true
  · dsimp only [dats]
theorem share_in1 (c : Dev nD) : (dats m 0 c).share 1 = fullShare.right := by
  unfold Dat.share; split
  · next h => exact absurd h Bool.false_ne_true
  · dsimp only [dats]
theorem share_in2 (c : Dev nD) : (dats m 0 c).share 2 = fullShare := by
  unfold Dat.share; split
  · rfl
  · dsimp only [dats]
theorem share_in3 (c : Dev nD) : (dats m 0 c).share 3 = fullShare := by
  unfold Dat.share; split
  · rfl
  · dsimp only [dats]
theorem share_in4 (c : Dev nD) : (dats m 0 c).share 4 = fullShare := by
  unfold Dat.share; split
  · rfl
  · dsimp only [dats]
theorem share_in5 (c : Dev nD) : (dats m 0 c).share 5 = fullShare := by
  unfold Dat.share; split
  · rfl
  · dsimp only [dats]
theorem share_in6 (c : Dev nD) : (dats m 0 c).share 6 = fullShare := by
  unfold Dat.share; split
  · rfl
  · dsimp only [dats]
theorem share_out7 (c : Dev nD) : (dats m 0 c).share 7 = fullShare := by
  unfold Dat.share; split
  · rfl
  · dsimp only [dats]
theorem share_out8 (c : Dev nD) : (dats m 0 c).share 8 = fullShare := by
  unfold Dat.share; split
  · rfl
  · dsimp only [dats]

/-- One window's array at entry, from its buffer held whole at the window's share at the region-entry contents. -/
theorem arr_at_entry (c : Dev nD) (w : Fin cfg0.W) (q : PosShare TreeShare) (hq : (dats m 0 c).share w = q) :
    ((((c.tc : Thread nD τ).loc (Pipeline.arrRef spec0 w)) ↦{q} V m c (Pipeline.arrRef spec0 w)) : sProp 𝕄)
      ⊢ ((cfg0.win w).arr.view.loc (c.tc : Thread nD τ) ↦[(cfg0.win w).arr.view.set]{(dats m 0 c).share w} (dats m 0 c).arrAt w 0) := by
  rw [(arr_whole0 w).set_eq_univ, hq, show (dats m 0 c).arrAt w 0 = (dats m 0 c).A w from rfl, A_eq]

/-- The buffers behind the arrays, each whole at the full share at the region-entry contents, make the proof data's
    arrays at entry: the token array's buffer is split into its two half shares, one for each of the two windows
    that read it; every other buffer is one window's, at the full share. -/
theorem arrays_at_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arr_image, bigSep_map, bigSep_W0, bigSep_fin8]
  iintro ⟨Hx, H2, H3, H4, H5, H6, H7, H8⟩
  ihave Hx' := (pointsTo_share (PosShare.mem_left_op_right fullShare)).1 $$ Hx
  icases Hx' with ⟨Hl, Hr⟩
  isplitl [Hl]; · iapply (arr_at_entry m c 0 _ (share_in0 m c)); iexact Hl
  isplitl [Hr]; · iapply (arr_at_entry m c 1 _ (share_in1 m c)); iexact Hr
  isplitl [H2]; · iapply (arr_at_entry m c 2 _ (share_in2 m c)); iexact H2
  isplitl [H3]; · iapply (arr_at_entry m c 3 _ (share_in3 m c)); iexact H3
  isplitl [H4]; · iapply (arr_at_entry m c 4 _ (share_in4 m c)); iexact H4
  isplitl [H5]; · iapply (arr_at_entry m c 5 _ (share_in5 m c)); iexact H5
  isplitl [H6]; · iapply (arr_at_entry m c 6 _ (share_in6 m c)); iexact H6
  isplitl [H7]; · iapply (arr_at_entry m c 7 _ (share_out7 m c)); iexact H7
  iapply (arr_at_entry m c 8 _ (share_out8 m c)); iexact H8

end Cert.Kernel.Frame

end
-- ==== Proof.KernelRun.lean ====
/-
  The run of the whole program: the line of host operations, then the region launched with the token array's buffer
  split between its two reading windows, then the return. Every weakly fair execution ends, without a fault, with
  each window's array at what the write-backs make of the proof data (an input array unchanged, a result array its
  blocks overwritten point by point by what the body left) and every other unscoped buffer as the region found it.
  The frame statement and the run with the two result arrays named are read off that.
-/
import proofs.«101113_g83665962926118_cont_9to1c4b_418_25_alg».proof.Proof.KernelFrame
import Idealize.ShloMosaic.Lib.Pipeline.Frame

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters, for any float values: every weakly fair execution of the program on the
    TensorCores terminates, and every final state has every window's array at what the library computes from the proof
    data and every other unscoped buffer as the region found it. -/
theorem run_main : θ_run defs (onTc (τ := τ) (main (F := F))) ⟨m, fun _ => 0, ρ⟩ (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := arrays_at_entry m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [show (dats m 0 c).Φ 0 = Pipeline.scopedRest (Ix := Unit) (Name := ℕ) (U := UR sig nD τ) (Lvl := ℕ) (Val := Elt F) spec0 c from rfl]
      iintro ⟨-, H⟩
      iexact H)
    (hout := fun c => by
      rw [show (dats m 0 c).Φ (Fin.last cfg0.N) = Pipeline.scopedRest (Ix := Unit) (Name := ℕ) (U := UR sig nD τ) (Lvl := ℕ) (Val := Elt F) spec0 c from rfl]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the program runs to the end and its seven argument arrays end as they began. The token array is read
    through windows 0 and 1 and never written; the six others are touched by no window at all (the region reads the
    host operations' copies of them). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 rfl (by decide))).trans (V_main_arg1 m c),
      ((h c).2 main_arg2 (Pipeline.mem_restRefs_of main_arg2 rfl (by decide))).trans (V_main_arg2 m c),
      ((h c).2 main_arg3 (Pipeline.mem_restRefs_of main_arg3 rfl (by decide))).trans (V_main_arg3 m c),
      ((h c).2 main_arg4 (Pipeline.mem_restRefs_of main_arg4 rfl (by decide))).trans (V_main_arg4 m c),
      ((h c).2 main_arg5 (Pipeline.mem_restRefs_of main_arg5 rfl (by decide))).trans (V_main_arg5 m c),
      ((h c).2 main_arg6 (Pipeline.mem_restRefs_of main_arg6 rfl (by decide))).trans (V_main_arg6 m c)⟩) (run_main m ρ)

/-- The same run with the two result arrays named: the weighted means are window 7's array and the softmax weights
    window 8's, each at what the write-backs of all eight points leave. -/
theorem run_results : θ_run defs (onTc (τ := τ) (main (F := F))) ⟨m, fun _ => 0, ρ⟩ (fun r => ∀ c : Dev nD,
      r.2.mem ((c.tc : Thread nD τ).loc main_v9_0) = (dats m 0 c).arrAt 7 cfg0.N
      ∧ r.2.mem ((c.tc : Thread nD τ).loc main_v9_1) = (dats m 0 c).arrAt 8 cfg0.N
      ∧ r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun _ h c => ⟨(h c).1 7, (h c).1 8, ((h c).1 0).trans (((dats m 0 c).arrAt_in 0 rfl _).trans ((A_eq m c 0).trans (V_main_arg0 m c))),
      ((h c).2 main_arg1 (Pipeline.mem_restRefs_of main_arg1 rfl (by decide))).trans (V_main_arg1 m c),
      ((h c).2 main_arg2 (Pipeline.mem_restRefs_of main_arg2 rfl (by decide))).trans (V_main_arg2 m c),
      ((h c).2 main_arg3 (Pipeline.mem_restRefs_of main_arg3 rfl (by decide))).trans (V_main_arg3 m c),
      ((h c).2 main_arg4 (Pipeline.mem_restRefs_of main_arg4 rfl (by decide))).trans (V_main_arg4 m c),
      ((h c).2 main_arg5 (Pipeline.mem_restRefs_of main_arg5 rfl (by decide))).trans (V_main_arg5 m c),
      ((h c).2 main_arg6 (Pipeline.mem_restRefs_of main_arg6 rfl (by decide))).trans (V_main_arg6 m c)⟩) (run_main m ρ)

end Cert.Kernel.Frame

end
-- ==== Proof.KernelIdealFrame.lean ====
/-
  The frame of the program: it runs to the end from any memory, faults nowhere, and leaves its argument arrays as they
  were — together with what its two result arrays hold afterwards, named through the body's pure terms.

  The program is a line of host operations (a transpose, two concatenations, three changes of float format, two
  broadcasts, a constant and its broadcast), then ONE pipelined region over a grid of 8 points with nine windows, then
  the return. Windows 0 and 1 read the SAME array, the token matrix: at point t window 0 takes rows
  [4096 t, 4096 t + 2048) and window 1 rows [4096 t + 2048, 4096 t + 4096). Windows 2 to 6 are whole small arrays
  (the weights, the biases, the all-ones matrix) fetched once. Windows 7 and 8 are the results: a block of 4096 rows
  each, written back at every point.

  Because two windows share an array, the array cannot be handed to the region at the full share once per window:
  its buffer is split into its two half shares, one per reading window (`arrays_at_entry`). Nothing is ever written
  through a half share; both windows only read.

  The body at a point loads each input block whole, computes, and stores the upper and the lower 2048 rows of each
  result block (it also loads the rows it is about to overwrite, and does not use them). So after the body a result
  block is the canon of two stores (`outMean`, `outWeights`) over the body's pure terms of the input blocks.
-/
import proofs.«101113_g83665962926118_cont_9to1c4b_418_25_alg».proof.Proof.Gen.KernelIdeal.Launch
import proofs.«101113_g83665962926118_cont_9to1c4b_418_25_alg».proof.Proof.Gen.KernelIdeal.Skeleton
import proofs.«101113_g83665962926118_cont_9to1c4b_418_25_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: the launch contents after the line of host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is that line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## A window's block at a point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetches it or
    not (a window fetched once keeps its index), for any proof data over these arrays whose body leaves the
    block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's rectangles and what it leaves in the result blocks -/

abbrev rIn0 : Rect S2048x768 := Rect.unit (s := S2048x768) ![0, 0] S2048x768.size inb_S2048x768_S2048x768_0_0
abbrev rIn2 : Rect S768x768 := Rect.unit (s := S768x768) ![0, 0] S768x768.size inb_S768x768_S768x768_0_0
abbrev rIn3 : Rect S1x768 := Rect.unit (s := S1x768) ![0, 0] S1x768.size inb_S1x768_S1x768_0_0
abbrev rIn4 : Rect S768x128 := Rect.unit (s := S768x128) ![0, 0] S768x128.size inb_S768x128_S768x128_0_0
abbrev rIn5 : Rect S1x128 := Rect.unit (s := S1x128) ![0, 0] S1x128.size inb_S1x128_S1x128_0_0
abbrev rIn6 : Rect S64x64 := Rect.unit (s := S64x64) ![0, 0] S64x64.size inb_S64x64_S64x64_0_0
/-- The upper and the lower half of the 4096 rows of a result block. -/
abbrev rMeanUp : Rect S4096x1 := Rect.unit (s := S4096x1) ![0, 0] S2048x1.size inb_S4096x1_S2048x1_0_0
abbrev rMeanLo : Rect S4096x1 := Rect.unit (s := S4096x1) ![2048, 0] S2048x1.size inb_S4096x1_S2048x1_2048_0
abbrev rWtsUp : Rect S4096x64 := Rect.unit (s := S4096x64) ![0, 0] S2048x64.size inb_S4096x64_S2048x64_0_0
abbrev rWtsLo : Rect S4096x64 := Rect.unit (s := S4096x64) ![2048, 0] S2048x64.size inb_S4096x64_S2048x64_2048_0

/-- The weighted-mean block after the body: rows 0..2047 from window 0's token rows, rows 2048..4095 from window 1's
    (the later store listed first). -/
def outMean (x0 : Vec F S2048x768 .f32) (x1 : Vec F S2048x768 .f32) (x2 : Vec F S768x768 .bf16) (x3 : Vec F S1x768 .bf16) (x4 : Vec F S768x128 .bf16) (x5 : Vec F S1x128 .f32) (x6 : Vec F S64x64 .f32) : Vec F S4096x1 .f32 :=
  View.canon [⟨rMeanLo, k0_pay10 (View.ld x1 rIn0) (View.ld x2 rIn2) (View.ld x3 rIn3) (View.ld x4 rIn4) (View.ld x5 rIn5) (View.ld x6 rIn6) (View.ld x6 rIn6)⟩,
    ⟨rMeanUp, k0_pay5 (View.ld x0 rIn0) (View.ld x2 rIn2) (View.ld x3 rIn3) (View.ld x4 rIn4) (View.ld x5 rIn5) (View.ld x6 rIn6) (View.ld x6 rIn6)⟩]

/-- The softmax-weights block after the body, likewise. -/
def outWeights (x0 : Vec F S2048x768 .f32) (x1 : Vec F S2048x768 .f32) (x2 : Vec F S768x768 .bf16) (x3 : Vec F S1x768 .bf16) (x4 : Vec F S768x128 .bf16) (x5 : Vec F S1x128 .f32) (x6 : Vec F S64x64 .f32) : Vec F S4096x64 .f32 :=
  View.canon [⟨rWtsLo, k0_pay9 (View.ld x1 rIn0) (View.ld x2 rIn2) (View.ld x3 rIn3) (View.ld x4 rIn4) (View.ld x5 rIn5) (View.ld x6 rIn6)⟩,
    ⟨rWtsUp, k0_pay4 (View.ld x0 rIn0) (View.ld x2 rIn2) (View.ld x3 rIn3) (View.ld x4 rIn4) (View.ld x5 rIn5) (View.ld x6 rIn6)⟩]

/-- The two halves tile the block, so the two stores cover it. -/
theorem coverMean (p1 : Vec F S2048x1 .f32) (p0 : Vec F S2048x1 .f32) (y : S4096x1.Idx) :
    ∃ pc ∈ ([⟨rMeanLo, p1⟩, ⟨rMeanUp, p0⟩] : List (View.Piece (Elt F) S4096x1 .f32)), y ∈ pc.1.set :=
  View.cover_of_tiled [⟨rMeanLo, p1⟩, ⟨rMeanUp, p0⟩] S2048x1.size (by rfl) y
theorem coverWeights (p1 : Vec F S2048x64 .f32) (p0 : Vec F S2048x64 .f32) (y : S4096x64.Idx) :
    ∃ pc ∈ ([⟨rWtsLo, p1⟩, ⟨rWtsUp, p0⟩] : List (View.Piece (Elt F) S4096x64 .f32)), y ∈ pc.1.set :=
  View.cover_of_tiled [⟨rWtsLo, p1⟩, ⟨rWtsUp, p0⟩] S2048x64.size (by rfl) y

/-! ## The body's triple -/

set_option maxHeartbeats 4000000 in
/-- The body on whole staging memrefs, the inputs' at contents `xW` and the results' at anything, runs to the
    continuation holding the inputs' as they were and the results' at `outMean` and `outWeights` of the inputs'. -/
theorem sound_kernel (c : Dev nD) (E : Set ℕ) (i : grid0.Coords)
    (arg1 : Memref sig .tc .vmem S2048x768 .f32) (harg1 : arg1.IsWhole) (arg2 : Memref sig .tc .vmem S2048x768 .f32) (harg2 : arg2.IsWhole)
    (arg3 : Memref sig .tc .vmem S768x768 .bf16) (harg3 : arg3.IsWhole) (arg4 : Memref sig .tc .vmem S1x768 .bf16) (harg4 : arg4.IsWhole)
    (arg5 : Memref sig .tc .vmem S768x128 .bf16) (harg5 : arg5.IsWhole) (arg6 : Memref sig .tc .vmem S1x128 .f32) (harg6 : arg6.IsWhole)
    (arg7 : Memref sig .tc .vmem S64x64 .f32) (harg7 : arg7.IsWhole) (arg8 : Memref sig .tc .vmem S4096x1 .f32) (harg8 : arg8.IsWhole)
    (arg9 : Memref sig .tc .vmem S4096x64 .f32) (harg9 : arg9.IsWhole)
    (x0 : Vec F S2048x768 .f32) (x1 : Vec F S2048x768 .f32) (x2 : Vec F S768x768 .bf16) (x3 : Vec F S1x768 .bf16) (x4 : Vec F S768x128 .bf16) (x5 : Vec F S1x128 .f32) (x6 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outMean x0 x1 x2 x3 x4 x5 x6)
            ∗ owns (c : Thread nD τ) arg9 fullShare (outWeights x0 x1 x2 x3 x4 x5 x6)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverMean _ _)
  iexists _; isplitr
  swap; · iexact H8
  ipureintro
  exact View.read_writes_eq_canon _ _ _ (coverWeights _ _)

/-! ## The proof data -/

/-- One core's proof data: the arrays as the region finds them; after the body at point `t` each input's buffer at
    its block and each result's at the canon of its two stores; the invariant the scoped rest; nothing owed; the token
    array's two reading windows at its two half shares, every other input at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outMean (iblk m c 0 t) (iblk m c 1 t) (iblk m c 2 t) (iblk m c 3 t) (iblk m c 4 t) (iblk m c 5 t) (iblk m c 6 t)
    | ⟨8, _⟩ => outWeights (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_mean (c : Dev nD) (t : Fin cfg0.N) : (dats m 0 c).after 7 t = outMean (iblk m c 0 t) (iblk m c 1 t) (iblk m c 2 t) (iblk m c 3 t) (iblk m c 4 t) (iblk m c 5 t) (iblk m c 6 t) := by dsimp only [dats]
theorem after_weights (c : Dev nD) (t : Fin cfg0.N) : (dats m 0 c).after 8 t = outWeights (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so the body's triple applies; the invariant and the
    core's owed tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_mean, after_weights]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: the token array split between its two windows -/

/-- The distinct buffers behind the nine windows' arrays are those of windows 1 to 8 (window 0's is window 1's). -/
theorem arr_image : Finset.univ.image (Pipeline.arrRef spec0)
    = Finset.univ.map ⟨fun i : Fin 8 => Pipeline.arrRef spec0 i.succ, by decide⟩ := by decide

/-- Eight resources conjoined one by one. -/
theorem bigSep_fin8 {M : Type} [URA M] (Φ : Fin 8 → sProp M) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), (1 : Fin 8), (2 : Fin 8), (3 : Fin 8), (4 : Fin 8), (5 : Fin 8), (6 : Fin 8), (7 : Fin 8)] (by decide) (by decide) Φ

/-- The shares: the token array's two windows hold its left and right halves, every other window the full share. -/
theorem share_in0 (c : Dev nD) : (dats m 0 c).share 0 = fullShare.left := by
  unfold Dat.share; split
  · next h => exact absurd h Bool.false_ne_true
  · dsimp only [dats]
theorem share_in1 (c : Dev nD) : (dats m 0 c).share 1 = fullShare.right := by
  unfold Dat.share; split
  · next h => exact absurd h Bool.false_ne_true
  · dsimp only [dats]
theorem share_in2 (c : Dev nD) : (dats m 0 c).share 2 = fullShare := by
  unfold Dat.share; split
  · rfl
  · dsimp only [dats]
theorem share_in3 (c : Dev nD) : (dats m 0 c).share 3 = fullShare := by
  unfold Dat.share; split
  · rfl
  · dsimp only [dats]
theorem share_in4 (c : Dev nD) : (dats m 0 c).share 4 = fullShare := by
  unfold Dat.share; split
  · rfl
  · dsimp only [dats]
theorem share_in5 (c : Dev nD) : (dats m 0 c).share 5 = fullShare := by
  unfold Dat.share; split
  · rfl
  · dsimp only [dats]
theorem share_in6 (c : Dev nD) : (dats m 0 c).share 6 = fullShare := by
  unfold Dat.share; split
  · rfl
  · dsimp only [dats]
theorem share_out7 (c : Dev nD) : (dats m 0 c).share 7 = fullShare := by
  unfold Dat.share; split
  · rfl
  · dsimp only [dats]
theorem share_out8 (c : Dev nD) : (dats m 0 c).share 8 = fullShare := by
  unfold Dat.share; split
  · rfl
  · dsimp only [dats]

/-- One window's array at entry, from its buffer held whole at the window's share at the region-entry contents. -/
theorem arr_at_entry (c : Dev nD) (w : Fin cfg0.W) (q : PosShare TreeShare) (hq : (dats m 0 c).share w = q) :
    ((((c.tc : Thread nD τ).loc (Pipeline.arrRef spec0 w)) ↦{q} V m c (Pipeline.arrRef spec0 w)) : sProp 𝕄)
      ⊢ ((cfg0.win w).arr.view.loc (c.tc : Thread nD τ) ↦[(cfg0.win w).arr.view.set]{(dats m 0 c).share w} (dats m 0 c).arrAt w 0) := by
  rw [(arr_whole0 w).set_eq_univ, hq, show (dats m 0 c).arrAt w 0 = (dats m 0 c).A w from rfl, A_eq]

/-- The buffers behind the arrays, each whole at the full share at the region-entry contents, make the proof data's
    arrays at entry: the token array's buffer is split into its two half shares, one for each of the two windows
    that read it; every other buffer is one window's, at the full share. -/
theorem arrays_at_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arr_image, bigSep_map, bigSep_W0, bigSep_fin8]
  iintro ⟨Hx, H2, H3, H4, H5, H6, H7, H8⟩
  ihave Hx' := (pointsTo_share (PosShare.mem_left_op_right fullShare)).1 $$ Hx
  icases Hx' with ⟨Hl, Hr⟩
  isplitl [Hl]; · iapply (arr_at_entry m c 0 _ (share_in0 m c)); iexact Hl
  isplitl [Hr]; · iapply (arr_at_entry m c 1 _ (share_in1 m c)); iexact Hr
  isplitl [H2]; · iapply (arr_at_entry m c 2 _ (share_in2 m c)); iexact H2
  isplitl [H3]; · iapply (arr_at_entry m c 3 _ (share_in3 m c)); iexact H3
  isplitl [H4]; · iapply (arr_at_entry m c 4 _ (share_in4 m c)); iexact H4
  isplitl [H5]; · iapply (arr_at_entry m c 5 _ (share_in5 m c)); iexact H5
  isplitl [H6]; · iapply (arr_at_entry m c 6 _ (share_in6 m c)); iexact H6
  isplitl [H7]; · iapply (arr_at_entry m c 7 _ (share_out7 m c)); iexact H7
  iapply (arr_at_entry m c 8 _ (share_out8 m c)); iexact H8

end Cert.KernelIdeal.Frame

end
-- ==== Proof.KernelIdealRun.lean ====
/-
  The run of the whole program: the line of host operations, then the region launched with the token array's buffer
  split between its two reading windows, then the return. Every weakly fair execution ends, without a fault, with
  each window's array at what the write-backs make of the proof data (an input array unchanged, a result array its
  blocks overwritten point by point by what the body left) and every other unscoped buffer as the region found it.
  The frame statement and the run with the two result arrays named are read off that.
-/
import proofs.«101113_g83665962926118_cont_9to1c4b_418_25_alg».proof.Proof.KernelIdealFrame
import Idealize.ShloMosaic.Lib.Pipeline.Frame

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters, for any float values: every weakly fair execution of the program on the
    TensorCores terminates, and every final state has every window's array at what the library computes from the proof
    data and every other unscoped buffer as the region found it. -/
theorem run_main : θ_run defs (onTc (τ := τ) (main (F := F))) ⟨m, fun _ => 0, ρ⟩ (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := arrays_at_entry m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [show (dats m 0 c).Φ 0 = Pipeline.scopedRest (Ix := Unit) (Name := ℕ) (U := UR sig nD τ) (Lvl := ℕ) (Val := Elt F) spec0 c from rfl]
      iintro ⟨-, H⟩
      iexact H)
    (hout := fun c => by
      rw [show (dats m 0 c).Φ (Fin.last cfg0.N) = Pipeline.scopedRest (Ix := Unit) (Name := ℕ) (U := UR sig nD τ) (Lvl := ℕ) (Val := Elt F) spec0 c from rfl]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the program runs to the end and its seven argument arrays end as they began. The token array is read
    through windows 0 and 1 and never written; the six others are touched by no window at all (the region reads the
    host operations' copies of them). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 rfl (by decide))).trans (V_main_arg1 m c),
      ((h c).2 main_arg2 (Pipeline.mem_restRefs_of main_arg2 rfl (by decide))).trans (V_main_arg2 m c),
      ((h c).2 main_arg3 (Pipeline.mem_restRefs_of main_arg3 rfl (by decide))).trans (V_main_arg3 m c),
      ((h c).2 main_arg4 (Pipeline.mem_restRefs_of main_arg4 rfl (by decide))).trans (V_main_arg4 m c),
      ((h c).2 main_arg5 (Pipeline.mem_restRefs_of main_arg5 rfl (by decide))).trans (V_main_arg5 m c),
      ((h c).2 main_arg6 (Pipeline.mem_restRefs_of main_arg6 rfl (by decide))).trans (V_main_arg6 m c)⟩) (run_main m ρ)

/-- The same run with the two result arrays named: the weighted means are window 7's array and the softmax weights
    window 8's, each at what the write-backs of all eight points leave. -/
theorem run_results : θ_run defs (onTc (τ := τ) (main (F := F))) ⟨m, fun _ => 0, ρ⟩ (fun r => ∀ c : Dev nD,
      r.2.mem ((c.tc : Thread nD τ).loc main_v9_0) = (dats m 0 c).arrAt 7 cfg0.N
      ∧ r.2.mem ((c.tc : Thread nD τ).loc main_v9_1) = (dats m 0 c).arrAt 8 cfg0.N
      ∧ r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun _ h c => ⟨(h c).1 7, (h c).1 8, ((h c).1 0).trans (((dats m 0 c).arrAt_in 0 rfl _).trans ((A_eq m c 0).trans (V_main_arg0 m c))),
      ((h c).2 main_arg1 (Pipeline.mem_restRefs_of main_arg1 rfl (by decide))).trans (V_main_arg1 m c),
      ((h c).2 main_arg2 (Pipeline.mem_restRefs_of main_arg2 rfl (by decide))).trans (V_main_arg2 m c),
      ((h c).2 main_arg3 (Pipeline.mem_restRefs_of main_arg3 rfl (by decide))).trans (V_main_arg3 m c),
      ((h c).2 main_arg4 (Pipeline.mem_restRefs_of main_arg4 rfl (by decide))).trans (V_main_arg4 m c),
      ((h c).2 main_arg5 (Pipeline.mem_restRefs_of main_arg5 rfl (by decide))).trans (V_main_arg5 m c),
      ((h c).2 main_arg6 (Pipeline.mem_restRefs_of main_arg6 rfl (by decide))).trans (V_main_arg6 m c)⟩) (run_main m ρ)

end Cert.KernelIdeal.Frame

end
-- ==== Proof.RefRun.lean ====
/-
  The reference program's run and its operations read one at a time: the generated modules, brought in here so that
  the modules about the reference's value share one import.
-/
import proofs.«101113_g83665962926118_cont_9to1c4b_418_25_alg».proof.Proof.Gen.ReferenceIdeal.Run
import proofs.«101113_g83665962926118_cont_9to1c4b_418_25_alg».proof.Proof.Gen.ReferenceIdeal.Read
-- ==== Proof.Spec.lean ====
/-
  The mathematics of one token row, over the extended reals, with no program in sight.

  A row `x : Fin 768 → EReal` passes through a hidden layer `z d = max (∑ c, x c · Wₑ c d + bₑ d) 0`; from `z` come 64
  gate logits `l k = ∑ d, z d · W_g d k + b_g k` and 64 head predictions `p k = ∑ d, z d · W_h k d + b_h k`. The two
  results of a row are the softmax weights of the logits and the weighted mean of the predictions under them.

  Two ways of writing those results are named here. The plain one divides each exponential by the sum of the
  exponentials (`plainWeight`) and the sum of exponential-times-prediction by the same sum (`plainMean`). The shifted
  one subtracts a number `s` from every logit first (`shiftedWeight`) and sums weight-times-prediction (`shiftedMean`).
  For real logits, real predictions and a real shift they agree: `e^(l - s) = e^l · e^(-s)` and the positive real
  factor `e^(-s)` cancels in each quotient. With an infinite value anywhere they need not.
-/
import Idealize.ShloMosaic.PureOps.Ideal

noncomputable section

open scoped BigOperators

namespace Cert.Spec

open Idealize.ShloMosaic

/-- The hidden layer at coordinate `d`: the row times column `d` of the weights, plus the bias, clamped below at zero. -/
def hidden (x : Fin 768 → EReal) (We : Fin 768 → Fin 768 → EReal) (be : Fin 768 → EReal) (d : Fin 768) : EReal :=
  max ((∑ c : Fin 768, x c * We c d) + be d) 0

/-- Gate logit `k` of a hidden row. -/
def logit (z : Fin 768 → EReal) (Wg : Fin 768 → Fin 64 → EReal) (bg : Fin 64 → EReal) (k : Fin 64) : EReal :=
  (∑ d : Fin 768, z d * Wg d k) + bg k

/-- Head prediction `k` of a hidden row; the head weights are stored one head per ROW. -/
def pred (z : Fin 768 → EReal) (Wh : Fin 64 → Fin 768 → EReal) (bh : Fin 64 → EReal) (k : Fin 64) : EReal :=
  (∑ d : Fin 768, z d * Wh k d) + bh k

/-- Softmax weight `k` written with no shift: the exponential over the sum of the exponentials. -/
def plainWeight (l : Fin 64 → EReal) (k : Fin 64) : EReal :=
  Ideal.div (Ideal.exp (l k)) (∑ j : Fin 64, Ideal.exp (l j))

/-- The weighted mean written with no shift: the sum of exponential times prediction over the sum of the exponentials. -/
def plainMean (l p : Fin 64 → EReal) : EReal :=
  Ideal.div (∑ j : Fin 64, Ideal.exp (l j) * p j) (∑ j : Fin 64, Ideal.exp (l j))

/-- Softmax weight `k` written with every logit shifted down by `s` first. -/
def shiftedWeight (l : Fin 64 → EReal) (s : EReal) (k : Fin 64) : EReal :=
  Ideal.div (Ideal.exp (l k - s)) (∑ j : Fin 64, Ideal.exp (l j - s))

/-- The weighted mean as the sum over the heads of shifted weight times prediction. -/
def shiftedMean (l p : Fin 64 → EReal) (s : EReal) : EReal :=
  ∑ j : Fin 64, shiftedWeight l s j * p j

end Cert.Spec

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.KernelPayload.lean ====
/-
  The kernel body's arithmetic read entry by entry, over the extended reals.

  For one block of 2048 token rows the body computes relu(x W + b) projected through a fused [768, 128] weight matrix
  whose columns 0..63 are the gate weights and whose columns 64..127 are the head weights, exponentiates the gate half,
  sums each row of exponentials (and each row of exponential times prediction) by a product with the all-ones matrix,
  and divides. Read at row r this is the specification's plain softmax weight of the row's logits and the plain
  weighted mean of the row's predictions: every step below is a re-reading at an index, and the only facts used are
  that the zero word is the number 0 and that x * 1 = x.
-/
import proofs.«101113_g83665962926118_cont_9to1c4b_418_25_alg».proof.Proof.Gen.KernelIdeal.Skeleton
import proofs.«101113_g83665962926118_cont_9to1c4b_418_25_alg».proof.Proof.Spec
import proofs.«101113_g83665962926118_cont_9to1c4b_418_25_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelPayload

open Idealize.ShloMosaic Idealize.ShloMosaic.ValueIdx Cert.KernelIdeal Cert.KernelIdeal.Gen

/-! ## Coordinates of the fused projection

The fused projection has 128 output columns: columns 0..63 carry the gate logits, columns 64..127 the head
predictions. For head j the two columns that belong to it are lo j = j and hi j = 64 + j. -/

/-- Column j of the gate half (columns 0..63). -/
def lo (j : Fin 64) : Fin 128 := ⟨j.val, by omega⟩

/-- Column 64 + j, of the head half (columns 64..127). -/
def hi (j : Fin 64) : Fin 128 := ⟨64 + j.val, by omega⟩

@[simp] theorem lo_val (j : Fin 64) : (lo j).val = j.val := rfl
@[simp] theorem hi_val (j : Fin 64) : (hi j).val = 64 + j.val := rfl

/-! ## One token row of a block, in the specification's words -/

section Row
variable (x0 : Vec Ideal S2048x768 .f32) (w : Vec Ideal S768x768 .bf16) (be : Vec Ideal S1x768 .bf16)
  (wc : Vec Ideal S768x128 .bf16) (bc : Vec Ideal S1x128 .f32)

/-- The hidden layer of token row r of the block. -/
abbrev hiddenRow (r : Fin 2048) : Fin 768 → EReal :=
  Cert.Spec.hidden (fun c => x0 (ix2 r c)) (fun c d => w (ix2 c d)) (fun d => be (ix2 (0 : Fin 1) d))

/-- The 64 gate logits of token row r: the hidden row through columns 0..63 of the fused weights. -/
abbrev logits (r : Fin 2048) : Fin 64 → EReal :=
  Cert.Spec.logit (hiddenRow x0 w be r) (fun d j => wc (ix2 d (lo j))) (fun j => bc (ix2 (0 : Fin 1) (lo j)))

/-- The 64 head predictions of token row r: the hidden row through columns 64..127 of the fused weights. -/
abbrev preds (r : Fin 2048) : Fin 64 → EReal :=
  Cert.Spec.pred (hiddenRow x0 w be r) (fun j d => wc (ix2 d (hi j))) (fun j => bc (ix2 (0 : Fin 1) (hi j)))

end Row

/-! ## The three matrix products at an entry -/

/-- Entry (r, d) of the [2048, 768] by [768, 768] product into the zero block. -/
theorem matmul_hidden_apply (A : FVec Ideal S2048x768 .bf16) (B : FVec Ideal S768x768 .bf16) (r : Fin 2048) (d : Fin 768) :
    matmul dot_S2048x768_S768x768_S2048x768_1_0_0_1_n_n none A B (constant (F := Ideal) S2048x768 .f32 0x00000000#32) (ix2 r d)
      = ∑ c : Fin 768, A (ix2 r c) * B (ix2 c d) :=
  Cert.Lib.matmul_plain_zero_apply none A B r d

/-- Entry (r, j) of the [2048, 768] by [768, 128] product into the zero block. -/
theorem matmul_fused_apply (A : FVec Ideal S2048x768 .bf16) (B : FVec Ideal S768x128 .bf16) (r : Fin 2048) (j : Fin 128) :
    matmul dot_S2048x768_S768x128_S2048x128_1_0_0_1_n_n none A B (constant (F := Ideal) S2048x128 .f32 0x00000000#32) (ix2 r j)
      = ∑ d : Fin 768, A (ix2 r d) * B (ix2 d j) :=
  Cert.Lib.matmul_plain_zero_apply none A B r j

/-- Entry (r, k) of the [2048, 64] by [64, 64] product into the zero block. -/
theorem matmul_ones_apply (A : FVec Ideal S2048x64 .f32) (B : FVec Ideal S64x64 .f32) (r : Fin 2048) (k : Fin 64) :
    matmul dot_S2048x64_S64x64_S2048x64_1_0_0_1_n_n none A B (constant (F := Ideal) S2048x64 .f32 0x00000000#32) (ix2 r k)
      = ∑ j : Fin 64, A (ix2 r j) * B (ix2 j k) :=
  Cert.Lib.matmul_plain_zero_apply none A B r k

/-- The exponential of a vector read at an index. -/
theorem exp_apply {s : Shape} {φ : FTy} (a : FVec Ideal s φ) (i : s.Idx) : exp a i = Ideal.exp (a i) := rfl

/-! ## The column slices at an entry -/

/-- Columns 0..63 of a [2048, 128] block: entry (r, k) is the block's entry (r, lo k). -/
theorem slice_lo_apply (y : FVec Ideal S2048x128 .f32) (h : S2048x128.Slices ![0, 0] S2048x64) (r : Fin 2048) (k : Fin 64) :
    extractStridedSlice S2048x64 ![0, 0] y h (ix2 r k) = y (ix2 r (lo k)) := by
  refine extractStridedSlice_apply _ y h (ix2 r k) (ix2 r (lo k)) fun a => ?_
  match a with
  | ⟨0, _⟩ => exact (Nat.zero_add _).symm
  | ⟨1, _⟩ => exact (Nat.zero_add _).symm

/-- Columns 64..127 of a [2048, 128] block: entry (r, k) is the block's entry (r, hi k). -/
theorem slice_hi_apply (y : FVec Ideal S2048x128 .f32) (h : S2048x128.Slices ![0, 64] S2048x64) (r : Fin 2048) (k : Fin 64) :
    extractStridedSlice S2048x64 ![0, 64] y h (ix2 r k) = y (ix2 r (hi k)) := by
  refine extractStridedSlice_apply _ y h (ix2 r k) (ix2 r (hi k)) fun a => ?_
  match a with
  | ⟨0, _⟩ => exact (Nat.zero_add _).symm
  | ⟨1, _⟩ => rfl

/-- Column 0 of a [2048, 64] block, kept as a [2048, 1] block: entry (r, 0) is the block's entry (r, 0). -/
theorem slice_col0_apply (y : FVec Ideal S2048x64 .f32) (h : S2048x64.Slices ![0, 0] S2048x1) (r : Fin 2048) :
    extractStridedSlice S2048x1 ![0, 0] y h (ix2 r (0 : Fin 1)) = y (ix2 r (0 : Fin 64)) := by
  refine extractStridedSlice_apply _ y h (ix2 r (0 : Fin 1)) (ix2 r (0 : Fin 64)) fun a => ?_
  match a with
  | ⟨0, _⟩ => exact (Nat.zero_add _).symm
  | ⟨1, _⟩ => rfl

/-! ## The first half's payloads at an entry -/

section Pay
variable (x0 : Vec Ideal S2048x768 .f32) (w : Vec Ideal S768x768 .bf16) (be : Vec Ideal S1x768 .bf16)
  (wc : Vec Ideal S768x128 .bf16) (bc : Vec Ideal S1x128 .f32) (o1 o2 : Vec Ideal S64x64 .f32)

/-- The fused projection of the hidden row, plus its bias: entry (r, j) of the [2048, 128] block. Rounding to the
    narrow type and back is the identity on the extended reals, and the clamp's zero word is the number 0. -/
theorem pay1_apply (r : Fin 2048) (j : Fin 128) :
    k0_pay1 (F := Ideal) x0 w be wc bc (ix2 r j)
      = (∑ d : Fin 768, hiddenRow x0 w be r d * wc (ix2 d j)) + bc (ix2 (0 : Fin 1) j) := by
  unfold k0_pay1
  rw [addf_apply, matmul_fused_apply, broadcastTo_1b_ab_apply]
  simp only [shapeCast_self, truncf_apply, maximumf_apply, addf_apply, matmul_hidden_apply, broadcastTo_1b_ab_apply,
    extf_apply, broadcast_apply, Ideal.ofBits_def, Ideal.ofBits_zero_f32]
  rfl

/-- The exponential of gate logit k of row r. -/
theorem pay2_apply (r : Fin 2048) (k : Fin 64) :
    k0_pay2 (F := Ideal) x0 w be wc bc (ix2 r k) = Ideal.exp (logits x0 w be wc bc r k) := by
  unfold k0_pay2
  rw [exp_apply, slice_lo_apply, pay1_apply]
  rfl

/-- The product with the all-ones matrix puts the row's sum of exponentials in every column. -/
theorem pay3_apply (h1 : ∀ i, o1 i = 1) (r : Fin 2048) (k : Fin 64) :
    k0_pay3 (F := Ideal) x0 w be wc bc o1 (ix2 r k) = ∑ j : Fin 64, Ideal.exp (logits x0 w be wc bc r j) := by
  unfold k0_pay3
  rw [matmul_ones_apply]
  simp only [shapeCast_self, h1, mul_one, pay2_apply]

/-- The stored weights: each exponential over the row's sum of exponentials. -/
theorem pay4_apply (h1 : ∀ i, o1 i = 1) (r : Fin 2048) (k : Fin 64) :
    k0_pay4 (F := Ideal) x0 w be wc bc o1 (ix2 r k) = Cert.Spec.plainWeight (logits x0 w be wc bc r) k := by
  unfold k0_pay4
  rw [divf_apply, pay2_apply, pay3_apply x0 w be wc bc o1 h1]
  rfl

/-- The stored mean: the sum of exponential times prediction over the row's sum of exponentials. -/
theorem pay5_apply (h1 : ∀ i, o1 i = 1) (h2 : ∀ i, o2 i = 1) (r : Fin 2048) :
    k0_pay5 (F := Ideal) x0 w be wc bc o1 o2 (ix2 r (0 : Fin 1))
      = Cert.Spec.plainMean (logits x0 w be wc bc r) (preds x0 w be wc bc r) := by
  unfold k0_pay5
  rw [divf_apply, slice_col0_apply, slice_col0_apply, matmul_ones_apply, pay3_apply x0 w be wc bc o1 h1]
  simp only [shapeCast_self, h2, mul_one, mulf_apply, pay2_apply, slice_hi_apply, pay1_apply]
  rfl

end Pay
/-! ## The second half's payloads at an entry

The second 2048 rows go through the same arithmetic, so the same readings hold word for word. -/

section PaySecond
variable (x0 : Vec Ideal S2048x768 .f32) (w : Vec Ideal S768x768 .bf16) (be : Vec Ideal S1x768 .bf16)
  (wc : Vec Ideal S768x128 .bf16) (bc : Vec Ideal S1x128 .f32) (o1 o2 : Vec Ideal S64x64 .f32)

/-- The fused projection of the hidden row, plus its bias: entry (r, j) of the [2048, 128] block. Rounding to the
    narrow type and back is the identity on the extended reals, and the clamp's zero word is the number 0. -/
theorem pay6_apply (r : Fin 2048) (j : Fin 128) :
    k0_pay6 (F := Ideal) x0 w be wc bc (ix2 r j)
      = (∑ d : Fin 768, hiddenRow x0 w be r d * wc (ix2 d j)) + bc (ix2 (0 : Fin 1) j) := by
  unfold k0_pay6
  rw [addf_apply, matmul_fused_apply, broadcastTo_1b_ab_apply]
  simp only [shapeCast_self, truncf_apply, maximumf_apply, addf_apply, matmul_hidden_apply, broadcastTo_1b_ab_apply,
    extf_apply, broadcast_apply, Ideal.ofBits_def, Ideal.ofBits_zero_f32]
  rfl

/-- The exponential of gate logit k of row r. -/
theorem pay7_apply (r : Fin 2048) (k : Fin 64) :
    k0_pay7 (F := Ideal) x0 w be wc bc (ix2 r k) = Ideal.exp (logits x0 w be wc bc r k) := by
  unfold k0_pay7
  rw [exp_apply, slice_lo_apply, pay6_apply]
  rfl

/-- The product with the all-ones matrix puts the row's sum of exponentials in every column. -/
theorem pay8_apply (h1 : ∀ i, o1 i = 1) (r : Fin 2048) (k : Fin 64) :
    k0_pay8 (F := Ideal) x0 w be wc bc o1 (ix2 r k) = ∑ j : Fin 64, Ideal.exp (logits x0 w be wc bc r j) := by
  unfold k0_pay8
  rw [matmul_ones_apply]
  simp only [shapeCast_self, h1, mul_one, pay7_apply]

/-- The stored weights: each exponential over the row's sum of exponentials. -/
theorem pay9_apply (h1 : ∀ i, o1 i = 1) (r : Fin 2048) (k : Fin 64) :
    k0_pay9 (F := Ideal) x0 w be wc bc o1 (ix2 r k) = Cert.Spec.plainWeight (logits x0 w be wc bc r) k := by
  unfold k0_pay9
  rw [divf_apply, pay7_apply, pay8_apply x0 w be wc bc o1 h1]
  rfl

/-- The stored mean: the sum of exponential times prediction over the row's sum of exponentials. -/
theorem pay10_apply (h1 : ∀ i, o1 i = 1) (h2 : ∀ i, o2 i = 1) (r : Fin 2048) :
    k0_pay10 (F := Ideal) x0 w be wc bc o1 o2 (ix2 r (0 : Fin 1))
      = Cert.Spec.plainMean (logits x0 w be wc bc r) (preds x0 w be wc bc r) := by
  unfold k0_pay10
  rw [divf_apply, slice_col0_apply, slice_col0_apply, matmul_ones_apply, pay8_apply x0 w be wc bc o1 h1]
  simp only [shapeCast_self, h2, mul_one, mulf_apply, pay7_apply, slice_hi_apply, pay6_apply]
  rfl

end PaySecond

end Cert.KernelPayload

end
-- ==== Proof.KernelRows.lean ====
/-
  One token row as the kernel sees it, over the extended reals, with no program in sight.

  The kernel reads a token row from the [32768, 768] token matrix, the hidden layer's weights as a [768, 768] array and
  its bias as a [1, 768] row, and the two output layers FUSED: one [768, 128] array whose columns 0..63 are the gate
  weights and 64..127 the head weights, and one [1, 128] row of the two biases laid end to end. `lo j` and `hi j`
  name column `j` of the first and of the second half. The row's hidden layer, gate logits and head predictions are then
  the specification's, read through these arrays.
-/
import proofs.«101113_g83665962926118_cont_9to1c4b_418_25_alg».proof.Proof.Spec
import Idealize.ShloMosaic.Lib.ValueIdx

noncomputable section

namespace Cert.KernelRows

open Idealize.ShloMosaic Idealize.ShloMosaic.ValueIdx

/-- Column `j` of the first 64 of 128 columns. -/
def lo (j : Fin 64) : Fin 128 := ⟨j.val, by omega⟩
/-- Column `j` of the last 64 of 128 columns. -/
def hi (j : Fin 64) : Fin 128 := ⟨64 + j.val, by omega⟩
@[simp] theorem lo_val (j : Fin 64) : (lo j).val = j.val := rfl
@[simp] theorem hi_val (j : Fin 64) : (hi j).val = 64 + j.val := rfl

variable (X : (⟨2, ![32768, 768]⟩ : Shape).Idx → EReal) (W : (⟨2, ![768, 768]⟩ : Shape).Idx → EReal)
  (B : (⟨2, ![1, 768]⟩ : Shape).Idx → EReal) (WC : (⟨2, ![768, 128]⟩ : Shape).Idx → EReal)
  (BC : (⟨2, ![1, 128]⟩ : Shape).Idx → EReal)

/-- The hidden layer of token row `n`. -/
abbrev hiddenRow (n : Fin 32768) : Fin 768 → EReal :=
  Cert.Spec.hidden (fun c => X (ix2 n c)) (fun c d => W (ix2 c d)) (fun d => B (ix2 (0 : Fin 1) d))

/-- Its gate logits: the hidden row against the first 64 columns of the fused weights, plus the first 64 biases. -/
abbrev logits (n : Fin 32768) : Fin 64 → EReal :=
  Cert.Spec.logit (hiddenRow X W B n) (fun d j => WC (ix2 d (lo j))) (fun j => BC (ix2 (0 : Fin 1) (lo j)))

/-- Its head predictions: the same against the last 64 columns and biases. -/
abbrev preds (n : Fin 32768) : Fin 64 → EReal :=
  Cert.Spec.pred (hiddenRow X W B n) (fun j d => WC (ix2 d (hi j))) (fun j => BC (ix2 (0 : Fin 1) (hi j)))

end Cert.KernelRows

end
-- ==== Proof.BlockReads.lean ====
/-
  What each input window holds at a grid point, read off the arrays as the region finds them.

  The grid has 8 points. At point t the first window over the token matrix holds its rows 4096 t … 4096 t + 2047 (its
  block index along the rows is 2 t and a block is 2048 rows), the second window rows 4096 t + 2048 … 4096 t + 4095
  (block index 2 t + 1); both hold all 768 columns. Each of the five other input windows holds a whole small array: its
  block index is 0 on both axes and its block is the array. A block's entry at coordinates (r, a) is the array's entry
  at, per axis, block index × block size + the coordinate.
-/
import proofs.«101113_g83665962926118_cont_9to1c4b_418_25_alg».proof.Proof.KernelIdealFrame
import Idealize.ShloMosaic.Lib.ValueIdx
import Idealize.ShloMosaic.Lib.Pipeline.Value

set_option maxRecDepth 16384

noncomputable section

namespace Cert.BlockReads

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- A grid point is below 8. -/
theorem point_lt (t : Fin cfg0.N) : t.val < 8 := by have h := t.isLt; have e : cfg0.N = 8 := N_0; omega

/-- Row r of the upper half of point t's 4096 token rows. -/
def rowUp (t : Fin cfg0.N) (r : Fin 2048) : Fin 32768 :=
  ⟨4096 * t.val + r.val, by have := point_lt t; have := r.isLt; omega⟩

/-- Row r of the lower half of point t's 4096 token rows. -/
def rowLo (t : Fin cfg0.N) (r : Fin 2048) : Fin 32768 :=
  ⟨4096 * t.val + 2048 + r.val, by have := point_lt t; have := r.isLt; omega⟩

@[simp] theorem rowUp_val (t : Fin cfg0.N) (r : Fin 2048) : (rowUp t r).val = 4096 * t.val + r.val := rfl
@[simp] theorem rowLo_val (t : Fin cfg0.N) (r : Fin 2048) : (rowLo t r).val = 4096 * t.val + 2048 + r.val := rfl

/-- The block indices of the two token windows, decided over the grid: 2 t and 2 t + 1 along the rows, 0 along the
    columns. -/
theorem idx_tokens : ∀ t : Fin cfg0.N, win0_0.index t (0 : Fin 2) = 2 * t.val ∧ win0_0.index t (1 : Fin 2) = 0
    ∧ win0_1.index t (0 : Fin 2) = 2 * t.val + 1 ∧ win0_1.index t (1 : Fin 2) = 0 :=
  (by decide +kernel : ∀ t : Fin grid0.N, _)

/-- The block indices of the five whole-array windows, decided over the grid: 0 on both axes. -/
theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- THE UPPER TOKEN ROWS: entry (r, a) of the first token window's block at t is the token matrix at (4096 t + r, a). -/
theorem tokens_up (c : Dev nD) (t : Fin cfg0.N) (r : Fin 2048) (a : Fin 768) :
    iblk m c 0 t (ix2 r a) = (V m c main_arg0 : S32768x768.Idx → Elt F .f32) (ix2 (rowUp t r) a) := by
  obtain ⟨e0, e1, -, -⟩ := idx_tokens t
  show (V m c main_arg0 : S32768x768.Idx → Elt F .f32) (((cfg0.win 0).blk t).view.emb (ix2 r a)) = _
  refine congrArg (V m c main_arg0 : S32768x768.Idx → Elt F .f32) (funext fun b => Fin.ext ?_)
  match b with
  | ⟨0, _⟩ => show win0_0.index t (0 : Fin 2) * 2048 + 1 * r.val = 4096 * t.val + r.val; omega
  | ⟨1, _⟩ => show win0_0.index t (1 : Fin 2) * 768 + 1 * a.val = a.val; omega

/-- THE LOWER TOKEN ROWS: entry (r, a) of the second token window's block at t is the token matrix at
    (4096 t + 2048 + r, a). -/
theorem tokens_lo (c : Dev nD) (t : Fin cfg0.N) (r : Fin 2048) (a : Fin 768) :
    iblk m c 1 t (ix2 r a) = (V m c main_arg0 : S32768x768.Idx → Elt F .f32) (ix2 (rowLo t r) a) := by
  obtain ⟨-, -, e0, e1⟩ := idx_tokens t
  show (V m c main_arg0 : S32768x768.Idx → Elt F .f32) (((cfg0.win 1).blk t).view.emb (ix2 r a)) = _
  refine congrArg (V m c main_arg0 : S32768x768.Idx → Elt F .f32) (funext fun b => Fin.ext ?_)
  match b with
  | ⟨0, _⟩ => show win0_1.index t (0 : Fin 2) * 2048 + 1 * r.val = 4096 * t.val + 2048 + r.val; omega
  | ⟨1, _⟩ => show win0_1.index t (1 : Fin 2) * 768 + 1 * a.val = a.val; omega

/-- The third window's block is the whole [768, 768] array. -/
theorem whole2 (c : Dev nD) (t : Fin cfg0.N) :
    (iblk m c 2 t : S768x768.Idx → Elt F .bf16) = (V m c main_v7 : S768x768.Idx → Elt F .bf16) := by
  obtain ⟨e0, e1, -⟩ := idx_whole t
  funext j
  show (V m c main_v7 : S768x768.Idx → Elt F .bf16) (((cfg0.win 2).blk t).view.emb j) = _
  refine congrArg (V m c main_v7 : S768x768.Idx → Elt F .bf16) (funext fun b => Fin.ext ?_)
  match b with
  | ⟨0, _⟩ => show win0_2.index t (0 : Fin 2) * 768 + 1 * (j 0).val = (j 0).val; omega
  | ⟨1, _⟩ => show win0_2.index t (1 : Fin 2) * 768 + 1 * (j 1).val = (j 1).val; omega

/-- The fourth window's block is the whole [1, 768] row. -/
theorem whole3 (c : Dev nD) (t : Fin cfg0.N) :
    (iblk m c 3 t : S1x768.Idx → Elt F .bf16) = (V m c main_v6 : S1x768.Idx → Elt F .bf16) := by
  obtain ⟨-, -, e0, e1, -⟩ := idx_whole t
  funext j
  show (V m c main_v6 : S1x768.Idx → Elt F .bf16) (((cfg0.win 3).blk t).view.emb j) = _
  refine congrArg (V m c main_v6 : S1x768.Idx → Elt F .bf16) (funext fun b => Fin.ext ?_)
  match b with
  | ⟨0, _⟩ => show win0_3.index t (0 : Fin 2) * 1 + 1 * (j 0).val = (j 0).val; omega
  | ⟨1, _⟩ => show win0_3.index t (1 : Fin 2) * 768 + 1 * (j 1).val = (j 1).val; omega

/-- The fifth window's block is the whole [768, 128] array. -/
theorem whole4 (c : Dev nD) (t : Fin cfg0.N) :
    (iblk m c 4 t : S768x128.Idx → Elt F .bf16) = (V m c main_v2 : S768x128.Idx → Elt F .bf16) := by
  obtain ⟨-, -, -, -, e0, e1, -⟩ := idx_whole t
  funext j
  show (V m c main_v2 : S768x128.Idx → Elt F .bf16) (((cfg0.win 4).blk t).view.emb j) = _
  refine congrArg (V m c main_v2 : S768x128.Idx → Elt F .bf16) (funext fun b => Fin.ext ?_)
  match b with
  | ⟨0, _⟩ => show win0_4.index t (0 : Fin 2) * 768 + 1 * (j 0).val = (j 0).val; omega
  | ⟨1, _⟩ => show win0_4.index t (1 : Fin 2) * 128 + 1 * (j 1).val = (j 1).val; omega

/-- The sixth window's block is the whole [1, 128] row. -/
theorem whole5 (c : Dev nD) (t : Fin cfg0.N) :
    (iblk m c 5 t : S1x128.Idx → Elt F .f32) = (V m c main_v4 : S1x128.Idx → Elt F .f32) := by
  obtain ⟨-, -, -, -, -, -, e0, e1, -⟩ := idx_whole t
  funext j
  show (V m c main_v4 : S1x128.Idx → Elt F .f32) (((cfg0.win 5).blk t).view.emb j) = _
  refine congrArg (V m c main_v4 : S1x128.Idx → Elt F .f32) (funext fun b => Fin.ext ?_)
  match b with
  | ⟨0, _⟩ => show win0_5.index t (0 : Fin 2) * 1 + 1 * (j 0).val = (j 0).val; omega
  | ⟨1, _⟩ => show win0_5.index t (1 : Fin 2) * 128 + 1 * (j 1).val = (j 1).val; omega

/-- The seventh window's block is the whole [64, 64] array. -/
theorem whole6 (c : Dev nD) (t : Fin cfg0.N) :
    (iblk m c 6 t : S64x64.Idx → Elt F .f32) = (V m c main_v8 : S64x64.Idx → Elt F .f32) := by
  obtain ⟨-, -, -, -, -, -, -, -, e0, e1⟩ := idx_whole t
  funext j
  show (V m c main_v8 : S64x64.Idx → Elt F .f32) (((cfg0.win 6).blk t).view.emb j) = _
  refine congrArg (V m c main_v8 : S64x64.Idx → Elt F .f32) (funext fun b => Fin.ext ?_)
  match b with
  | ⟨0, _⟩ => show win0_6.index t (0 : Fin 2) * 64 + 1 * (j 0).val = (j 0).val; omega
  | ⟨1, _⟩ => show win0_6.index t (1 : Fin 2) * 64 + 1 * (j 1).val = (j 1).val; omega

end Cert.BlockReads

end
-- ==== Proof.ResultCover.lean ====
/-
  The blocks of the two result arrays tile them.

  The region runs over a grid of 8 points. Each of the two result windows is written back at every point, and the
  block of point `t` is rows `[4096 t, 4096 t + 4096)` of the result array — all of its columns (one column for the
  weighted means, 64 for the softmax weights): along the rows the block index is `t`, along the columns it is `0`, and
  a block is 4096 rows by the array's full width. Since `8 · 4096 = 32768` is the number of rows, every index of a
  result array lies in exactly one block, that of point `row / 4096`. So the blocks written back cover the array, which
  is what is needed to read the whole array after the run off the blocks written back.
-/
import proofs.«101113_g83665962926118_cont_9to1c4b_418_25_alg».proof.Proof.KernelIdealFrame
import Idealize.ShloMosaic.Lib.ValueIdx
import Idealize.ShloMosaic.Lib.Pipeline.Value

noncomputable section

namespace Cert.ResultCover

open Cert.KernelIdeal Cert.KernelIdeal.Gen
open Idealize.ShloMosaic Idealize.ShloMosaic.ValueIdx

/-! ## The block index of a result window at a point -/

/-- The weighted-mean window's block index at point `t`: `t` along the rows, `0` along the columns. -/
theorem idx7 : ∀ t : Fin cfg0.N, win0_7.index t (0 : Fin 2) = t.val ∧ win0_7.index t (1 : Fin 2) = 0 :=
  (by decide +kernel : ∀ t : Fin grid0.N, _)

/-- The softmax-weights window's block index at point `t`, likewise. -/
theorem idx8 : ∀ t : Fin cfg0.N, win0_8.index t (0 : Fin 2) = t.val ∧ win0_8.index t (1 : Fin 2) = 0 :=
  (by decide +kernel : ∀ t : Fin grid0.N, _)

/-! ## Which indices a block holds -/

/-- An index of the weighted-mean array is in point `t`'s block iff each coordinate is in the block's range on its axis. -/
theorem mem_blk7_axes (t : Fin cfg0.N) (i : S32768x1.Idx) :
    i ∈ ((cfg0.win 7).blk t).view.set
      ↔ ∀ a : Fin 2, win0_7.index t a * S4096x1.size a ≤ (i a).val ∧ (i a).val < win0_7.index t a * S4096x1.size a + S4096x1.size a := by
  show i ∈ ((View.whole main_v9_0).slice (win0_7.rect t)).set ↔ _
  rw [View.set_slice_whole, Rect.mem_set_unit]
  exact Iff.rfl

/-- The same for the softmax-weights array. -/
theorem mem_blk8_axes (t : Fin cfg0.N) (i : S32768x64.Idx) :
    i ∈ ((cfg0.win 8).blk t).view.set
      ↔ ∀ a : Fin 2, win0_8.index t a * S4096x64.size a ≤ (i a).val ∧ (i a).val < win0_8.index t a * S4096x64.size a + S4096x64.size a := by
  show i ∈ ((View.whole main_v9_1).slice (win0_8.rect t)).set ↔ _
  rw [View.set_slice_whole, Rect.mem_set_unit]
  exact Iff.rfl

/-- Point `t`'s block of the weighted-mean array is rows `[4096 t, 4096 t + 4096)`. -/
theorem mem_blk7 (t : Fin cfg0.N) (i : S32768x1.Idx) :
    i ∈ ((cfg0.win 7).blk t).view.set ↔ 4096 * t.val ≤ (i 0).val ∧ (i 0).val < 4096 * t.val + 4096 := by
  rw [mem_blk7_axes]
  obtain ⟨e0, e1⟩ := idx7 t
  constructor
  · intro h
    have b0 : win0_7.index t (0 : Fin 2) * 4096 ≤ (i 0).val ∧ (i 0).val < win0_7.index t (0 : Fin 2) * 4096 + 4096 := h 0
    omega
  · intro h a
    match a with
    | ⟨0, _⟩ =>
      show win0_7.index t (0 : Fin 2) * 4096 ≤ (i 0).val ∧ (i 0).val < win0_7.index t (0 : Fin 2) * 4096 + 4096
      omega
    | ⟨1, _⟩ =>
      show win0_7.index t (1 : Fin 2) * 1 ≤ (i 1).val ∧ (i 1).val < win0_7.index t (1 : Fin 2) * 1 + 1
      have hi1 : (i 1).val < 1 := (i 1).isLt
      omega

/-- Point `t`'s block of the softmax-weights array is rows `[4096 t, 4096 t + 4096)`. -/
theorem mem_blk8 (t : Fin cfg0.N) (i : S32768x64.Idx) :
    i ∈ ((cfg0.win 8).blk t).view.set ↔ 4096 * t.val ≤ (i 0).val ∧ (i 0).val < 4096 * t.val + 4096 := by
  rw [mem_blk8_axes]
  obtain ⟨e0, e1⟩ := idx8 t
  constructor
  · intro h
    have b0 : win0_8.index t (0 : Fin 2) * 4096 ≤ (i 0).val ∧ (i 0).val < win0_8.index t (0 : Fin 2) * 4096 + 4096 := h 0
    omega
  · intro h a
    match a with
    | ⟨0, _⟩ =>
      show win0_8.index t (0 : Fin 2) * 4096 ≤ (i 0).val ∧ (i 0).val < win0_8.index t (0 : Fin 2) * 4096 + 4096
      omega
    | ⟨1, _⟩ =>
      show win0_8.index t (1 : Fin 2) * 64 ≤ (i 1).val ∧ (i 1).val < win0_8.index t (1 : Fin 2) * 64 + 64
      have hi1 : (i 1).val < 64 := (i 1).isLt
      omega

/-! ## The blocks cover the arrays -/

/-- The point whose block holds row `r` of a 32768-row array: `r / 4096`. -/
def pointOf (r : Nat) (hr : r < 32768) : Fin cfg0.N := ⟨r / 4096, show r / 4096 < grid0.N by rw [N_0]; omega⟩

theorem pointOf_val (r : Nat) (hr : r < 32768) : (pointOf r hr).val = r / 4096 := rfl

/-- Every index of the weighted-mean array is in the block of a point that writes it back. -/
theorem covered7 (i : S32768x1.Idx) :
    ∃ t : Fin cfg0.N, (cfg0.win 7).flush t = true ∧ i ∈ ((cfg0.win 7).blk t).view.set := by
  have hi0 : (i 0).val < 32768 := (i 0).isLt
  refine ⟨pointOf (i 0).val hi0, flush0_7 _, ?_⟩
  rw [mem_blk7, pointOf_val]
  omega

/-- Every index of the softmax-weights array is in the block of a point that writes it back. -/
theorem covered8 (i : S32768x64.Idx) :
    ∃ t : Fin cfg0.N, (cfg0.win 8).flush t = true ∧ i ∈ ((cfg0.win 8).blk t).view.set := by
  have hi0 : (i 0).val < 32768 := (i 0).isLt
  refine ⟨pointOf (i 0).val hi0, flush0_8 _, ?_⟩
  rw [mem_blk8, pointOf_val]
  omega

/-- The same, over the index type of the window's array on a core. -/
theorem cover7 (c : Dev nD) : ∀ i : ((cfg0.win 7).arr.view.loc (c.tc : Thread nD τ)).2.ty.Idx,
    ∃ t : Fin cfg0.N, (cfg0.win 7).flush t = true ∧ i ∈ ((cfg0.win 7).blk t).view.set :=
  fun i => covered7 i

theorem cover8 (c : Dev nD) : ∀ i : ((cfg0.win 8).arr.view.loc (c.tc : Thread nD τ)).2.ty.Idx,
    ∃ t : Fin cfg0.N, (cfg0.win 8).flush t = true ∧ i ∈ ((cfg0.win 8).blk t).view.set :=
  fun i => covered8 i

/-! ## Where a block-local index sits in the array -/

/-- Row `y` of point `t`'s block is below the array's 32768 rows. -/
theorem row_lt (t : Fin cfg0.N) (y : Nat) (hy : y < 4096) : 4096 * t.val + y < 32768 := by
  have ht : t.val < grid0.N := t.isLt
  rw [N_0] at ht
  omega

/-- Row `y` of point `t`'s block, as a row of the array: `4096 t + y`. -/
def rowOf (t : Fin cfg0.N) (y : Fin 4096) : Fin 32768 := ⟨4096 * t.val + y.val, row_lt t y.val y.isLt⟩

theorem rowOf_val (t : Fin cfg0.N) (y : Fin 4096) : (rowOf t y).val = 4096 * t.val + y.val := rfl

/-- A row `r` of the upper 2048 rows of the block. -/
theorem rowOf_upper (t : Fin cfg0.N) (r : Fin 2048) :
    rowOf t ⟨r.val, by omega⟩ = ⟨4096 * t.val + r.val, row_lt t r.val (by omega)⟩ := rfl

/-- A row `2048 + r` of the lower 2048 rows of the block. -/
theorem rowOf_lower (t : Fin cfg0.N) (r : Fin 2048) :
    rowOf t ⟨2048 + r.val, by omega⟩
      = ⟨4096 * t.val + 2048 + r.val, by have := row_lt t (2048 + r.val) (by omega); omega⟩ :=
  Fin.ext (by show 4096 * t.val + (2048 + r.val) = 4096 * t.val + 2048 + r.val; omega)

/-- Row `r`, column `k` of point `t`'s block of the weighted-mean array is row `4096 t + r`, column `k` of the array. -/
theorem emb7_val (t : Fin cfg0.N) (j : S4096x1.Idx) :
    ((((cfg0.win 7).blk t).view.emb j) 0).val = 4096 * t.val + (j 0).val
      ∧ ((((cfg0.win 7).blk t).view.emb j) 1).val = (j 1).val := by
  obtain ⟨e0, e1⟩ := idx7 t
  constructor
  · show win0_7.index t (0 : Fin 2) * 4096 + 1 * (j 0).val = 4096 * t.val + (j 0).val
    omega
  · show win0_7.index t (1 : Fin 2) * 1 + 1 * (j 1).val = (j 1).val
    omega

/-- The same for the softmax-weights array. -/
theorem emb8_val (t : Fin cfg0.N) (j : S4096x64.Idx) :
    ((((cfg0.win 8).blk t).view.emb j) 0).val = 4096 * t.val + (j 0).val
      ∧ ((((cfg0.win 8).blk t).view.emb j) 1).val = (j 1).val := by
  obtain ⟨e0, e1⟩ := idx8 t
  constructor
  · show win0_8.index t (0 : Fin 2) * 4096 + 1 * (j 0).val = 4096 * t.val + (j 0).val
    omega
  · show win0_8.index t (1 : Fin 2) * 64 + 1 * (j 1).val = (j 1).val
    omega

/-- Entry `(y, 0)` of point `t`'s block of the weighted-mean array is entry `(4096 t + y, 0)` of the array. -/
theorem emb7 (t : Fin cfg0.N) (y : Fin 4096) :
    ((cfg0.win 7).blk t).view.emb (ix2 y (0 : Fin 1)) = ix2 (rowOf t y) (0 : Fin 1) := by
  obtain ⟨e0, e1⟩ := emb7_val t (ix2 y (0 : Fin 1))
  funext a; apply Fin.ext
  match a with
  | ⟨0, _⟩ => exact e0
  | ⟨1, _⟩ => exact e1

/-- Entry `(y, k)` of point `t`'s block of the softmax-weights array is entry `(4096 t + y, k)` of the array. -/
theorem emb8 (t : Fin cfg0.N) (y : Fin 4096) (k : Fin 64) :
    ((cfg0.win 8).blk t).view.emb (ix2 y k) = ix2 (rowOf t y) k := by
  obtain ⟨e0, e1⟩ := emb8_val t (ix2 y k)
  funext a; apply Fin.ext
  match a with
  | ⟨0, _⟩ => exact e0
  | ⟨1, _⟩ => exact e1

end Cert.ResultCover

end
-- ==== Proof.FinalArrays.lean ====
/-
  From the blocks written back to the two result arrays.

  The region runs over 8 grid points. At point t the body fills a block of 4096 rows of each result: the upper 2048
  rows from the token rows 4096 t .. 4096 t + 2047, the lower 2048 rows from the token rows 4096 t + 2048 ..
  4096 t + 4095, and the block is written back as rows 4096 t .. 4096 t + 4095 of the result array. The eight blocks
  tile the 32768 rows. So after the run row n of the weights array is the plain softmax weights of the gate logits
  of token row n, and row n of the means array is the plain weighted mean of that row's head predictions.

  The steps: a result block entry by entry (the later of two non-overlapping stores does not hide the earlier one's
  rows); the same entry in the words of the arrays' own rows, once each input block is read as rows of its array;
  what a point writes back is therefore a block of ONE function of the arrays; the blocks cover the array.
-/
import proofs.«101113_g83665962926118_cont_9to1c4b_418_25_alg».proof.Proof.KernelIdealFrame
import proofs.«101113_g83665962926118_cont_9to1c4b_418_25_alg».proof.Proof.KernelPayload
import proofs.«101113_g83665962926118_cont_9to1c4b_418_25_alg».proof.Proof.KernelRows
import proofs.«101113_g83665962926118_cont_9to1c4b_418_25_alg».proof.Proof.BlockReads
import proofs.«101113_g83665962926118_cont_9to1c4b_418_25_alg».proof.Proof.ResultCover
import Idealize.ShloMosaic.Lib.Pipeline.Value
import Idealize.ShloMosaic.Lib.ValueIdx

noncomputable section

open scoped BigOperators

namespace Cert.FinalArrays

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

/-! ## A result block after the body, entry by entry

The body stores the upper 2048 rows of a result block from the first token block and the lower 2048 rows from the
second. The later store (the lower rows) is listed first; an entry of the upper rows is not under it, so it keeps the
earlier store's payload. -/

theorem hz : (![0, 0] : Fin 2 → Nat) = fun _ => 0 := funext fun a => by fin_cases a <;> rfl

/-- Two stores, read under the later one: its payload. -/
theorem canon_two_first {Val : EltTy → Type} [∀ e, Nonempty (Val e)] {s : Shape} {e : EltTy} (r1 r2 : Rect s)
    (w1 : r1.shape.Idx → Val e) (w2 : r2.shape.Idx → Val e) (x : r1.shape.Idx) :
    View.canon [(⟨r1, w1⟩ : View.Piece Val s e), ⟨r2, w2⟩] (r1.emb x) = w1 x :=
  View.canon_cons_emb r1 w1 _ x

/-- Two stores, read under the earlier one off the later one: the earlier one's payload. -/
theorem canon_two_second {Val : EltTy → Type} [∀ e, Nonempty (Val e)] {s : Shape} {e : EltTy} (r1 r2 : Rect s)
    (w1 : r1.shape.Idx → Val e) (w2 : r2.shape.Idx → Val e) (x : r2.shape.Idx) (h : r2.emb x ∉ r1.set) :
    View.canon [(⟨r1, w1⟩ : View.Piece Val s e), ⟨r2, w2⟩] (r2.emb x) = w2 x :=
  (View.canon_cons_of_not_mem (⟨r1, w1⟩ : View.Piece Val s e) [⟨r2, w2⟩] h).trans (View.canon_cons_emb r2 w2 [] x)

/-- A row of the upper half of the weights block is not among the lower rows. -/
theorem wtsUp_not_mem_lo (r : Fin 2048) (k : Fin 64) : rWtsUp.emb (ix2 r k) ∉ rWtsLo.set := fun h => by
  have h0 := ((Rect.mem_set_unit (s := S4096x64) (off := ![2048, 0]) (size := S2048x64.size)
    (inb := inb_S4096x64_S2048x64_2048_0) (i := rWtsUp.emb (ix2 r k))).mp h 0).1
  have e : (2048 : Nat) ≤ 0 + 1 * r.val := h0
  have := r.isLt
  omega

/-- A row of the upper half of the means block is not among the lower rows. -/
theorem meanUp_not_mem_lo (r : Fin 2048) (k : Fin 1) : rMeanUp.emb (ix2 r k) ∉ rMeanLo.set := fun h => by
  have h0 := ((Rect.mem_set_unit (s := S4096x1) (off := ![2048, 0]) (size := S2048x1.size)
    (inb := inb_S4096x1_S2048x1_2048_0) (i := rMeanUp.emb (ix2 r k))).mp h 0).1
  have e : (2048 : Nat) ≤ 0 + 1 * r.val := h0
  have := r.isLt
  omega

section BlockGen
variable {F : FTy → Type} [FloatOps F]
variable (x0 x1 : Vec F S2048x768 .f32) (x2 : Vec F S768x768 .bf16) (x3 : Vec F S1x768 .bf16)
  (x4 : Vec F S768x128 .bf16) (x5 : Vec F S1x128 .f32) (x6 : Vec F S64x64 .f32)

/-- Row r of the upper half of the weights block is the first half's stored payload at row r. -/
theorem outWeights_up_pay (r : Fin 2048) (k : Fin 64) :
    outWeights x0 x1 x2 x3 x4 x5 x6 (rWtsUp.emb (ix2 r k)) = k0_pay4 x0 x2 x3 x4 x5 x6 (ix2 r k) := by
  unfold outWeights
  refine (canon_two_second rWtsLo rWtsUp _ _ (ix2 r k) (wtsUp_not_mem_lo r k)).trans ?_
  simp only [View.ld_unit_zero (S := S2048x768) hz, View.ld_unit_zero (S := S768x768) hz, View.ld_unit_zero (S := S1x768) hz,
    View.ld_unit_zero (S := S768x128) hz, View.ld_unit_zero (S := S1x128) hz, View.ld_unit_zero (S := S64x64) hz]

/-- Row r of the lower half of the weights block is the second half's stored payload at row r. -/
theorem outWeights_lo_pay (r : Fin 2048) (k : Fin 64) :
    outWeights x0 x1 x2 x3 x4 x5 x6 (rWtsLo.emb (ix2 r k)) = k0_pay9 x1 x2 x3 x4 x5 x6 (ix2 r k) := by
  unfold outWeights
  refine (canon_two_first rWtsLo rWtsUp _ _ (ix2 r k)).trans ?_
  simp only [View.ld_unit_zero (S := S2048x768) hz, View.ld_unit_zero (S := S768x768) hz, View.ld_unit_zero (S := S1x768) hz,
    View.ld_unit_zero (S := S768x128) hz, View.ld_unit_zero (S := S1x128) hz, View.ld_unit_zero (S := S64x64) hz]

/-- Row r of the upper half of the means block is the first half's stored payload at row r. -/
theorem outMean_up_pay (r : Fin 2048) (k : Fin 1) :
    outMean x0 x1 x2 x3 x4 x5 x6 (rMeanUp.emb (ix2 r k)) = k0_pay5 x0 x2 x3 x4 x5 x6 x6 (ix2 r k) := by
  unfold outMean
  refine (canon_two_second rMeanLo rMeanUp _ _ (ix2 r k) (meanUp_not_mem_lo r k)).trans ?_
  simp only [View.ld_unit_zero (S := S2048x768) hz, View.ld_unit_zero (S := S768x768) hz, View.ld_unit_zero (S := S1x768) hz,
    View.ld_unit_zero (S := S768x128) hz, View.ld_unit_zero (S := S1x128) hz, View.ld_unit_zero (S := S64x64) hz]

/-- Row r of the lower half of the means block is the second half's stored payload at row r. -/
theorem outMean_lo_pay (r : Fin 2048) (k : Fin 1) :
    outMean x0 x1 x2 x3 x4 x5 x6 (rMeanLo.emb (ix2 r k)) = k0_pay10 x1 x2 x3 x4 x5 x6 x6 (ix2 r k) := by
  unfold outMean
  refine (canon_two_first rMeanLo rMeanUp _ _ (ix2 r k)).trans ?_
  simp only [View.ld_unit_zero (S := S2048x768) hz, View.ld_unit_zero (S := S768x768) hz, View.ld_unit_zero (S := S1x768) hz,
    View.ld_unit_zero (S := S768x128) hz, View.ld_unit_zero (S := S1x128) hz, View.ld_unit_zero (S := S64x64) hz]

end BlockGen

/-! ## A result block in the arrays' own rows

Let the first token block hold rows base .. base + 2047 of the token matrix, the second rows base + 2048 .. base + 4095,
and the other five blocks be the whole small arrays. Then row y of the weights block is the plain softmax weights of the
logits of token row base + y, and row y of the means block the plain weighted mean of that row's predictions. -/

section Rows
variable (X : (⟨2, ![32768, 768]⟩ : Shape).Idx → EReal) (W : (⟨2, ![768, 768]⟩ : Shape).Idx → EReal)
  (B : (⟨2, ![1, 768]⟩ : Shape).Idx → EReal) (WC : (⟨2, ![768, 128]⟩ : Shape).Idx → EReal)
  (BC : (⟨2, ![1, 128]⟩ : Shape).Idx → EReal)

/-- A block row that is row n of the token matrix has that row's logits. -/
theorem logits_of_block (x : Vec Ideal S2048x768 .f32) (r : Fin 2048) (n : Fin 32768)
    (hx : ∀ a : Fin 768, x (ix2 r a) = X (ix2 n a)) :
    Cert.KernelPayload.logits x W B WC BC r = Cert.KernelRows.logits X W B WC BC n := by
  have e : (fun a : Fin 768 => x (ix2 r a)) = fun a : Fin 768 => X (ix2 n a) := funext hx
  show Cert.Spec.logit (Cert.Spec.hidden (fun a : Fin 768 => x (ix2 r a)) _ _) _ _
    = Cert.Spec.logit (Cert.Spec.hidden (fun a : Fin 768 => X (ix2 n a)) _ _) _ _
  rw [e]
  rfl

/-- A block row that is row n of the token matrix has that row's predictions. -/
theorem preds_of_block (x : Vec Ideal S2048x768 .f32) (r : Fin 2048) (n : Fin 32768)
    (hx : ∀ a : Fin 768, x (ix2 r a) = X (ix2 n a)) :
    Cert.KernelPayload.preds x W B WC BC r = Cert.KernelRows.preds X W B WC BC n := by
  have e : (fun a : Fin 768 => x (ix2 r a)) = fun a : Fin 768 => X (ix2 n a) := funext hx
  show Cert.Spec.pred (Cert.Spec.hidden (fun a : Fin 768 => x (ix2 r a)) _ _) _ _
    = Cert.Spec.pred (Cert.Spec.hidden (fun a : Fin 768 => X (ix2 n a)) _ _) _ _
  rw [e]
  rfl

variable (x0 x1 : Vec Ideal S2048x768 .f32) (x6 : Vec Ideal S64x64 .f32)
  (up lo : Fin 2048 → Fin 32768) (base : Nat)

/-- Entry (y, k) of the weights block. -/
theorem block_weights (h6 : ∀ i, x6 i = (1 : EReal))
    (hup : ∀ r, (up r).val = base + r.val) (hlo : ∀ r, (lo r).val = base + 2048 + r.val)
    (h0 : ∀ r a, x0 (ix2 r a) = X (ix2 (up r) a)) (h1 : ∀ r a, x1 (ix2 r a) = X (ix2 (lo r) a))
    (y : S4096x64.Idx) (n : Fin 32768) (k : Fin 64) (hn : n.val = base + (y 0).val) (hk : k.val = (y 1).val) :
    outWeights x0 x1 W B WC BC x6 y = Cert.Spec.plainWeight (Cert.KernelRows.logits X W B WC BC n) k := by
  have hk' : (y 1 : Fin 64) = k := Fin.ext hk.symm
  have hy0 : (y 0).val < 4096 := (y 0).isLt
  by_cases hy : (y 0).val < 2048
  · have hy' : y = rWtsUp.emb (ix2 (⟨(y 0).val, hy⟩ : Fin 2048) (y 1)) := by
      funext a; apply Fin.ext
      match a with
      | ⟨0, _⟩ => show (y 0).val = 0 + 1 * (y 0).val; omega
      | ⟨1, _⟩ => show (y 1).val = 0 + 1 * (y 1).val; omega
    have hn' : up ⟨(y 0).val, hy⟩ = n := Fin.ext (by rw [hup, hn])
    have key := outWeights_up_pay x0 x1 W B WC BC x6 ⟨(y 0).val, hy⟩ (y 1)
    rw [← hy'] at key
    rw [key, Cert.KernelPayload.pay4_apply x0 W B WC BC x6 h6 ⟨(y 0).val, hy⟩ (y 1),
      logits_of_block X W B WC BC x0 ⟨(y 0).val, hy⟩ n (fun a => by rw [h0, hn']), hk']
  · have hlt : (y 0).val - 2048 < 2048 := by omega
    have hy' : y = rWtsLo.emb (ix2 (⟨(y 0).val - 2048, hlt⟩ : Fin 2048) (y 1)) := by
      funext a; apply Fin.ext
      match a with
      | ⟨0, _⟩ => show (y 0).val = 2048 + 1 * ((y 0).val - 2048); omega
      | ⟨1, _⟩ => show (y 1).val = 0 + 1 * (y 1).val; omega
    have hn' : lo ⟨(y 0).val - 2048, hlt⟩ = n := Fin.ext (by rw [hlo, hn]; show base + 2048 + ((y 0).val - 2048) = _; omega)
    have key := outWeights_lo_pay x0 x1 W B WC BC x6 ⟨(y 0).val - 2048, hlt⟩ (y 1)
    rw [← hy'] at key
    rw [key, Cert.KernelPayload.pay9_apply x1 W B WC BC x6 h6 ⟨(y 0).val - 2048, hlt⟩ (y 1),
      logits_of_block X W B WC BC x1 ⟨(y 0).val - 2048, hlt⟩ n (fun a => by rw [h1, hn']), hk']

/-- Entry (y, 0) of the means block. -/
theorem block_mean (h6 : ∀ i, x6 i = (1 : EReal))
    (hup : ∀ r, (up r).val = base + r.val) (hlo : ∀ r, (lo r).val = base + 2048 + r.val)
    (h0 : ∀ r a, x0 (ix2 r a) = X (ix2 (up r) a)) (h1 : ∀ r a, x1 (ix2 r a) = X (ix2 (lo r) a))
    (y : S4096x1.Idx) (n : Fin 32768) (hn : n.val = base + (y 0).val) :
    outMean x0 x1 W B WC BC x6 y
      = Cert.Spec.plainMean (Cert.KernelRows.logits X W B WC BC n) (Cert.KernelRows.preds X W B WC BC n) := by
  have hy0 : (y 0).val < 4096 := (y 0).isLt
  by_cases hy : (y 0).val < 2048
  · have hy' : y = rMeanUp.emb (ix2 (⟨(y 0).val, hy⟩ : Fin 2048) (0 : Fin 1)) := by
      funext a; apply Fin.ext
      match a with
      | ⟨0, _⟩ => show (y 0).val = 0 + 1 * (y 0).val; omega
      | ⟨1, _⟩ => show (y 1).val = 0 + 1 * 0; have := (y 1).isLt; have e : S4096x1.size 1 = 1 := rfl; omega
    have hn' : up ⟨(y 0).val, hy⟩ = n := Fin.ext (by rw [hup, hn])
    have key := outMean_up_pay x0 x1 W B WC BC x6 ⟨(y 0).val, hy⟩ (0 : Fin 1)
    rw [← hy'] at key
    rw [key, Cert.KernelPayload.pay5_apply x0 W B WC BC x6 x6 h6 h6 ⟨(y 0).val, hy⟩,
      logits_of_block X W B WC BC x0 ⟨(y 0).val, hy⟩ n (fun a => by rw [h0, hn']),
      preds_of_block X W B WC BC x0 ⟨(y 0).val, hy⟩ n (fun a => by rw [h0, hn'])]
  · have hlt : (y 0).val - 2048 < 2048 := by omega
    have hy' : y = rMeanLo.emb (ix2 (⟨(y 0).val - 2048, hlt⟩ : Fin 2048) (0 : Fin 1)) := by
      funext a; apply Fin.ext
      match a with
      | ⟨0, _⟩ => show (y 0).val = 2048 + 1 * ((y 0).val - 2048); omega
      | ⟨1, _⟩ => show (y 1).val = 0 + 1 * 0; have := (y 1).isLt; have e : S4096x1.size 1 = 1 := rfl; omega
    have hn' : lo ⟨(y 0).val - 2048, hlt⟩ = n := Fin.ext (by rw [hlo, hn]; show base + 2048 + ((y 0).val - 2048) = _; omega)
    have key := outMean_lo_pay x0 x1 W B WC BC x6 ⟨(y 0).val - 2048, hlt⟩ (0 : Fin 1)
    rw [← hy'] at key
    rw [key, Cert.KernelPayload.pay10_apply x1 W B WC BC x6 x6 h6 h6 ⟨(y 0).val - 2048, hlt⟩,
      logits_of_block X W B WC BC x1 ⟨(y 0).val - 2048, hlt⟩ n (fun a => by rw [h1, hn']),
      preds_of_block X W B WC BC x1 ⟨(y 0).val - 2048, hlt⟩ n (fun a => by rw [h1, hn'])]

end Rows

/-! ## The two result arrays after the run -/

section Final
variable (m : (ℓ : Loc nD τ sig) → Buf (Elt Ideal) ℓ) (c : Dev nD)

/-- The softmax weights of every token row: what the weights array ends holding. -/
def weightsArr : S32768x64.Idx → EReal := fun i =>
  Cert.Spec.plainWeight (Cert.KernelRows.logits (V m c main_arg0) (V m c main_v7) (V m c main_v6) (V m c main_v2) (V m c main_v4) (i 0)) (i 1)

/-- The weighted mean of every token row: what the means array ends holding. -/
def meanArr : S32768x1.Idx → EReal := fun i =>
  Cert.Spec.plainMean (Cert.KernelRows.logits (V m c main_arg0) (V m c main_v7) (V m c main_v6) (V m c main_v2) (V m c main_v4) (i 0))
    (Cert.KernelRows.preds (V m c main_arg0) (V m c main_v7) (V m c main_v6) (V m c main_v2) (V m c main_v4) (i 0))

/-- The all-ones block at a point, from the all-ones array. -/
theorem ones_blk (hones : ∀ i, V (F := Ideal) m c main_v8 i = (1 : EReal)) (t : Fin cfg0.N) :
    ∀ i, (iblk m c 6 t : S64x64.Idx → EReal) i = (1 : EReal) := fun i =>
  (congrFun (Cert.BlockReads.whole6 m c t) i).trans (hones i)

/-- What point t writes back to the weights array is block t of the softmax weights of every row. -/
theorem flushed_weights (hones : ∀ i, V (F := Ideal) m c main_v8 i = (1 : EReal)) (t : Fin cfg0.N) :
    (dats m 0 c).flushed 8 t = ((cfg0.win 8).blk t).view.read (Elt Ideal) (weightsArr m c) := by
  show (cfg0.win 8).cut (grid0.coords t) ((dats m 0 c).after 8 t) = _
  rw [after_weights, Cert.BlockReads.whole2 m c t, Cert.BlockReads.whole3 m c t, Cert.BlockReads.whole4 m c t,
    Cert.BlockReads.whole5 m c t]
  funext j
  show outWeights (iblk m c 0 t) (iblk m c 1 t) (V m c main_v7) (V m c main_v6) (V m c main_v2) (V m c main_v4) (iblk m c 6 t) j
    = Cert.Spec.plainWeight (Cert.KernelRows.logits (V m c main_arg0) (V m c main_v7) (V m c main_v6) (V m c main_v2) (V m c main_v4)
        ((((cfg0.win 8).blk t).view.emb j) 0)) ((((cfg0.win 8).blk t).view.emb j) 1)
  exact block_weights (V m c main_arg0) (V m c main_v7) (V m c main_v6) (V m c main_v2) (V m c main_v4)
    (iblk m c 0 t) (iblk m c 1 t) (iblk m c 6 t) (Cert.BlockReads.rowUp t) (Cert.BlockReads.rowLo t) (4096 * t.val)
    (ones_blk m c hones t) (fun r => rfl) (fun r => rfl)
    (fun r a => Cert.BlockReads.tokens_up m c t r a) (fun r a => Cert.BlockReads.tokens_lo m c t r a)
    j _ _ (Cert.ResultCover.emb8_val t j).1 (Cert.ResultCover.emb8_val t j).2

/-- What point t writes back to the means array is block t of the weighted mean of every row. -/
theorem flushed_mean (hones : ∀ i, V (F := Ideal) m c main_v8 i = (1 : EReal)) (t : Fin cfg0.N) :
    (dats m 0 c).flushed 7 t = ((cfg0.win 7).blk t).view.read (Elt Ideal) (meanArr m c) := by
  show (cfg0.win 7).cut (grid0.coords t) ((dats m 0 c).after 7 t) = _
  rw [after_mean, Cert.BlockReads.whole2 m c t, Cert.BlockReads.whole3 m c t, Cert.BlockReads.whole4 m c t,
    Cert.BlockReads.whole5 m c t]
  funext j
  show outMean (iblk m c 0 t) (iblk m c 1 t) (V m c main_v7) (V m c main_v6) (V m c main_v2) (V m c main_v4) (iblk m c 6 t) j
    = Cert.Spec.plainMean (Cert.KernelRows.logits (V m c main_arg0) (V m c main_v7) (V m c main_v6) (V m c main_v2) (V m c main_v4)
        ((((cfg0.win 7).blk t).view.emb j) 0))
      (Cert.KernelRows.preds (V m c main_arg0) (V m c main_v7) (V m c main_v6) (V m c main_v2) (V m c main_v4)
        ((((cfg0.win 7).blk t).view.emb j) 0))
  exact block_mean (V m c main_arg0) (V m c main_v7) (V m c main_v6) (V m c main_v2) (V m c main_v4)
    (iblk m c 0 t) (iblk m c 1 t) (iblk m c 6 t) (Cert.BlockReads.rowUp t) (Cert.BlockReads.rowLo t) (4096 * t.val)
    (ones_blk m c hones t) (fun r => rfl) (fun r => rfl)
    (fun r a => Cert.BlockReads.tokens_up m c t r a) (fun r a => Cert.BlockReads.tokens_lo m c t r a)
    j _ (Cert.ResultCover.emb7_val t j).1

/-- The weights array after the run, as one function of the arrays the region finds. -/
theorem weights_array (hones : ∀ i, V (F := Ideal) m c main_v8 i = (1 : EReal)) :
    (dats m 0 c).arrAt 8 cfg0.N = weightsArr m c :=
  (dats m 0 c).arrAt_eq_of_cover 8 (weightsArr m c) (fun t _ => flushed_weights m c hones t) (Cert.ResultCover.cover8 c)

/-- The means array after the run, as one function of the arrays the region finds. -/
theorem mean_array (hones : ∀ i, V (F := Ideal) m c main_v8 i = (1 : EReal)) :
    (dats m 0 c).arrAt 7 cfg0.N = meanArr m c :=
  (dats m 0 c).arrAt_eq_of_cover 7 (meanArr m c) (fun t _ => flushed_mean m c hones t) (Cert.ResultCover.cover7 c)

/-- After the run, entry (n, k) of the weights array is the plain softmax weight k of token row n's logits. -/
theorem final_weights (hones : ∀ i, V (F := Ideal) m c main_v8 i = (1 : EReal)) (n : Fin 32768) (k : Fin 64) :
    (dats (F := Ideal) m 0 c).arrAt 8 cfg0.N (ix2 n k)
      = Cert.Spec.plainWeight (Cert.KernelRows.logits (V m c main_arg0) (V m c main_v7) (V m c main_v6) (V m c main_v2) (V m c main_v4) n) k :=
  congrFun (weights_array m c hones) (ix2 n k)

/-- After the run, entry (n, 0) of the means array is the plain weighted mean of token row n's predictions. -/
theorem final_mean (hones : ∀ i, V (F := Ideal) m c main_v8 i = (1 : EReal)) (n : Fin 32768) :
    (dats (F := Ideal) m 0 c).arrAt 7 cfg0.N (ix2 n (0 : Fin 1))
      = Cert.Spec.plainMean (Cert.KernelRows.logits (V m c main_arg0) (V m c main_v7) (V m c main_v6) (V m c main_v2) (V m c main_v4) n)
          (Cert.KernelRows.preds (V m c main_arg0) (V m c main_v7) (V m c main_v6) (V m c main_v2) (V m c main_v4) n) :=
  congrFun (mean_array m c hones) (ix2 n (0 : Fin 1))

end Final

end Cert.FinalArrays

end
-- ==== Proof.EntryValues.lean ====
/-
  What the region finds in the five buffers that the line of host operations wrote before it: each one as the
  operations' composed pure term of the argument arrays' launch contents.

  The hidden weights and the hidden bias (the latter first made a one-row matrix) are rounded to bf16; the two output
  weight matrices are put side by side — the second one transposed first — into one matrix of 128 columns and rounded
  to bf16; the two output biases are put end to end into one vector of 128 entries and made a one-row matrix; and the
  constant one is spread over a 64 by 64 matrix.
-/
import proofs.«101113_g83665962926118_cont_9to1c4b_418_25_alg».proof.Proof.KernelIdealFrame
import Idealize.ShloMosaic.Lib.StableHlo.Run

set_option maxRecDepth 16384

noncomputable section

namespace Cert.EntryValues

open Cert.KernelIdeal Cert.KernelIdeal.Gen Cert.KernelIdeal.Frame
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- The hidden weights, rounded to bf16. -/
theorem V_main_v7 (c : Dev nD) :
    (V m c main_v7 : FVec F S768x768 .bf16)
      = truncf .bf16 (m ((c : Thread nD τ).loc main_arg1)) bitsLt_bf16_f32 := by
  dsimp only [V, hostOps0]; after_results

/-- The hidden bias as a one-row matrix, rounded to bf16. -/
theorem V_main_v6 (c : Dev nD) :
    (V m c main_v6 : FVec F S1x768 .bf16)
      = truncf .bf16 (broadcastInDim S1x768 ![1] bcast_S768_S1x768_1 (m ((c : Thread nD τ).loc main_arg2))) bitsLt_bf16_f32 := by
  dsimp only [V, hostOps0]; after_results

/-- The two output weight matrices side by side (the second transposed first), rounded to bf16. -/
theorem V_main_v2 (c : Dev nD) :
    (V m c main_v2 : FVec F S768x128 .bf16)
      = truncf .bf16 (concatenate S768x128 1
          [⟨S768x64, m ((c : Thread nD τ).loc main_arg5)⟩,
           ⟨S768x64, transpose S768x64 [1, 0] (m ((c : Thread nD τ).loc main_arg3)) transposes_S64x768_S768x64_1_0⟩]
          concatenates_S768x64_S768x64_S768x128_d1) bitsLt_bf16_f32 := by
  dsimp only [V, hostOps0]; after_results

/-- The two output biases end to end, as a one-row matrix. -/
theorem V_main_v4 (c : Dev nD) :
    (V m c main_v4 : FVec F S1x128 .f32)
      = broadcastInDim S1x128 ![1] bcast_S128_S1x128_1
          (concatenate S128 0 [⟨S64, m ((c : Thread nD τ).loc main_arg6)⟩, ⟨S64, m ((c : Thread nD τ).loc main_arg4)⟩]
            concatenates_S64_S64_S128_d0) := by
  dsimp only [V, hostOps0]; after_results

/-- The constant one spread over a 64 by 64 matrix. -/
theorem V_main_v8 (c : Dev nD) :
    (V m c main_v8 : FVec F S64x64 .f32)
      = broadcastInDim S64x64 ![] bcast_S_S64x64 (constant (F := F) S_ .f32 0x3F800000#32) := by
  dsimp only [V, hostOps0]; after_results

end Cert.EntryValues

end
-- ==== Proof.LibConcatContraction.lean ====
/-
  A contraction over a concatenated axis.

  Lay two [M, d] arrays X, Y side by side along the columns, and two [d, N] arrays U, W one above the other along the
  rows. Contracting the [M, d + d] array against the [d + d, N] array over the long axis gives, at entry (a, b),

      ∑ k < d + d, [X | Y] (a, k) · [U ; W] (k, b)  =  ∑ k < d, X (a, k) · U (k, b)  +  ∑ k < d, Y (a, k) · W (k, b):

  the first d terms read the first pieces, the last d terms the second pieces. Only the commutative-monoid laws of the
  sum are used, so the identity holds over the extended reals with no finiteness assumption.
-/
import Idealize.ShloMosaic.Lib.Pipeline.Value
import Idealize.ShloMosaic.Lib.ValueIdx

noncomputable section

namespace Cert.Lib

open Idealize.ShloMosaic Idealize.ShloMosaic.ValueIdx

variable {α : Type}

/-- Two [M, d] arrays side by side along the columns: column `k < d` of the long array is the first array's column `k`. -/
theorem concat_cols_left {M d D : Nat} (X Y : (⟨2, ![M, d]⟩ : Shape).Idx → α)
    (h : Shape.Concatenates [⟨2, ![M, d]⟩, ⟨2, ![M, d]⟩] ⟨2, ![M, D]⟩ 1) (a : Fin M) (k : Fin d) (k' : Fin D)
    (hk : k'.val = k.val) :
    concatenate ⟨2, ![M, D]⟩ 1 [⟨⟨2, ![M, d]⟩, X⟩, ⟨⟨2, ![M, d]⟩, Y⟩] h (ix2 a k') = X (ix2 a k) :=
  concatenate_pair_apply_left 1 X Y h (ix2 a k') rfl (ix2 a k) fun b => by
    match b with
    | ⟨0, _⟩ => rfl
    | ⟨1, _⟩ => exact hk.symm

/-- … and column `d + k` is the second array's column `k`. -/
theorem concat_cols_right {M d D : Nat} (X Y : (⟨2, ![M, d]⟩ : Shape).Idx → α)
    (h : Shape.Concatenates [⟨2, ![M, d]⟩, ⟨2, ![M, d]⟩] ⟨2, ![M, D]⟩ 1) (a : Fin M) (k : Fin d) (k' : Fin D)
    (hk : k'.val = d + k.val) :
    concatenate ⟨2, ![M, D]⟩ 1 [⟨⟨2, ![M, d]⟩, X⟩, ⟨⟨2, ![M, d]⟩, Y⟩] h (ix2 a k') = Y (ix2 a k) :=
  concatenate_pair_apply_right 1 X Y h (ix2 a k') rfl rfl (ix2 a k)
    (fun b hb => by
      match b, hb with
      | ⟨0, _⟩, _ => rfl
      | ⟨1, _⟩, hb => exact absurd rfl hb)
    (by show k.val + d = k'.val; omega)

/-- Two [d, N] arrays one above the other along the rows: row `k < d` of the tall array is the first array's row `k`. -/
theorem concat_rows_left {d D N : Nat} (U W : (⟨2, ![d, N]⟩ : Shape).Idx → α)
    (h : Shape.Concatenates [⟨2, ![d, N]⟩, ⟨2, ![d, N]⟩] ⟨2, ![D, N]⟩ 0) (b : Fin N) (k : Fin d) (k' : Fin D)
    (hk : k'.val = k.val) :
    concatenate ⟨2, ![D, N]⟩ 0 [⟨⟨2, ![d, N]⟩, U⟩, ⟨⟨2, ![d, N]⟩, W⟩] h (ix2 k' b) = U (ix2 k b) :=
  concatenate_pair_apply_left 0 U W h (ix2 k' b) rfl (ix2 k b) fun ax => by
    match ax with
    | ⟨0, _⟩ => exact hk.symm
    | ⟨1, _⟩ => rfl

/-- … and row `d + k` is the second array's row `k`. -/
theorem concat_rows_right {d D N : Nat} (U W : (⟨2, ![d, N]⟩ : Shape).Idx → α)
    (h : Shape.Concatenates [⟨2, ![d, N]⟩, ⟨2, ![d, N]⟩] ⟨2, ![D, N]⟩ 0) (b : Fin N) (k : Fin d) (k' : Fin D)
    (hk : k'.val = d + k.val) :
    concatenate ⟨2, ![D, N]⟩ 0 [⟨⟨2, ![d, N]⟩, U⟩, ⟨⟨2, ![d, N]⟩, W⟩] h (ix2 k' b) = W (ix2 k b) :=
  concatenate_pair_apply_right 0 U W h (ix2 k' b) rfl rfl (ix2 k b)
    (fun ax hax => by
      match ax, hax with
      | ⟨0, _⟩, hax => exact absurd rfl hax
      | ⟨1, _⟩, _ => rfl)
    (by show k.val + d = k'.val; omega)

/-- The contraction of `[X | Y]` against `[U ; W]` over the long axis is the contraction of `X` against `U` plus that of
    `Y` against `W`, entry by entry, in any commutative additive monoid with a product. -/
theorem sum_concat_contraction {β : Type} [AddCommMonoid β] [Mul β] {M d D N : Nat} (hD : D = d + d)
    (X Y : (⟨2, ![M, d]⟩ : Shape).Idx → β) (U W : (⟨2, ![d, N]⟩ : Shape).Idx → β)
    (hx : Shape.Concatenates [⟨2, ![M, d]⟩, ⟨2, ![M, d]⟩] ⟨2, ![M, D]⟩ 1)
    (hw : Shape.Concatenates [⟨2, ![d, N]⟩, ⟨2, ![d, N]⟩] ⟨2, ![D, N]⟩ 0) (a : Fin M) (b : Fin N) :
    ∑ k : Fin D, concatenate ⟨2, ![M, D]⟩ 1 [⟨⟨2, ![M, d]⟩, X⟩, ⟨⟨2, ![M, d]⟩, Y⟩] hx (ix2 a k)
        * concatenate ⟨2, ![D, N]⟩ 0 [⟨⟨2, ![d, N]⟩, U⟩, ⟨⟨2, ![d, N]⟩, W⟩] hw (ix2 k b)
      = ∑ k : Fin d, X (ix2 a k) * U (ix2 k b) + ∑ k : Fin d, Y (ix2 a k) * W (ix2 k b) := by
  subst hD
  rw [Fin.sum_univ_add]
  congr 1
  · refine Finset.sum_congr rfl fun k _ => ?_
    rw [concat_cols_left X Y hx a k (Fin.castAdd d k) rfl, concat_rows_left U W hw b k (Fin.castAdd d k) rfl]
  · refine Finset.sum_congr rfl fun k _ => ?_
    rw [concat_cols_right X Y hx a k (Fin.natAdd d k) rfl, concat_rows_right U W hw b k (Fin.natAdd d k) rfl]

end Cert.Lib

end
-- ==== Proof.HostPrefix.lean ====
/-
  The arrays the host prepares before the one pipelined region, read entry by entry.

  Ten host operations turn the six parameter arrays into the operands of the region. The gate weights `W_g` [768, 64]
  and the transposed head weights `W_hᵀ` [768, 64] are laid side by side along the columns into one [768, 128] array:
  its column `j < 64` is column `j` of `W_g`, and its column `64 + j` is row `j` of `W_h` (the transpose swaps the two
  coordinates). The two biases `b_g`, `b_h` [64] are laid end to end into one [128] vector and given a leading axis of
  extent one: entry `j` is `b_g j`, entry `64 + j` is `b_h j`. The hidden bias [768] is given a leading axis of extent
  one. The constant one is spread over a [64, 64] array. A narrowing change of number format is the identity on
  extended reals, so the three casts change nothing.
-/
import proofs.«101113_g83665962926118_cont_9to1c4b_418_25_alg».proof.Proof.Gen.KernelIdeal
import proofs.«101113_g83665962926118_cont_9to1c4b_418_25_alg».proof.Proof.LibConcatContraction
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.HostPrefix

open Idealize.ShloMosaic Idealize.ShloMosaic.ValueIdx Cert.KernelIdeal Cert.KernelIdeal.Gen

/-- Column `j` of the first half of a 128-wide axis. -/
def lo (j : Fin 64) : Fin 128 := ⟨j.val, by omega⟩
/-- Column `64 + j`, in the second half. -/
def hi (j : Fin 64) : Fin 128 := ⟨64 + j.val, by omega⟩

/-! ## The combined weights -/

/-- Column `j` of the combined weights is column `j` of the gate weights. -/
theorem wcomb_lo (Wg : (⟨S768x64, .f32⟩ : BufTy).Contents (Elt Ideal)) (Wh : (⟨S64x768, .f32⟩ : BufTy).Contents (Elt Ideal))
    (d : Fin 768) (j : Fin 64) :
    truncf (F := Ideal) .bf16 (concatenate S768x128 1 [⟨S768x64, Wg⟩, ⟨S768x64, transpose S768x64 [1, 0] Wh transposes_S64x768_S768x64_1_0⟩] concatenates_S768x64_S768x64_S768x128_d1) bitsLt_bf16_f32 (ix2 d (lo j))
      = Wg (ix2 d j) := by
  rw [truncf_apply]
  exact Cert.Lib.concat_cols_left Wg _ concatenates_S768x64_S768x64_S768x128_d1 d j (lo j) rfl

/-- Column `64 + j` of the combined weights is row `j` of the head weights. -/
theorem wcomb_hi (Wg : (⟨S768x64, .f32⟩ : BufTy).Contents (Elt Ideal)) (Wh : (⟨S64x768, .f32⟩ : BufTy).Contents (Elt Ideal))
    (d : Fin 768) (j : Fin 64) :
    truncf (F := Ideal) .bf16 (concatenate S768x128 1 [⟨S768x64, Wg⟩, ⟨S768x64, transpose S768x64 [1, 0] Wh transposes_S64x768_S768x64_1_0⟩] concatenates_S768x64_S768x64_S768x128_d1) bitsLt_bf16_f32 (ix2 d (hi j))
      = Wh (ix2 j d) := by
  rw [truncf_apply,
    Cert.Lib.concat_cols_right Wg _ concatenates_S768x64_S768x64_S768x128_d1 d j (hi j) rfl]
  exact transpose_apply [1, 0] Wh transposes_S64x768_S768x64_1_0 (ix2 d j) (ix2 j d) (fun b => match b with
    | ⟨0, _⟩ => rfl
    | ⟨1, _⟩ => rfl)

/-! ## The combined bias -/

/-- The two biases end to end: entry `j` is the gate bias's. -/
theorem bconcat_lo (bg bh : (⟨S64, .f32⟩ : BufTy).Contents (Elt Ideal)) (j : Fin 64) :
    concatenate S128 0 [⟨S64, bg⟩, ⟨S64, bh⟩] concatenates_S64_S64_S128_d0 (ix1 (lo j)) = bg (ix1 j) :=
  concatenate_pair_apply_left 0 bg bh concatenates_S64_S64_S128_d0 (ix1 (lo j)) rfl (ix1 j) fun b => by
    match b with
    | ⟨0, _⟩ => rfl

/-- … and entry `64 + j` is the head bias's. -/
theorem bconcat_hi (bg bh : (⟨S64, .f32⟩ : BufTy).Contents (Elt Ideal)) (j : Fin 64) :
    concatenate S128 0 [⟨S64, bg⟩, ⟨S64, bh⟩] concatenates_S64_S64_S128_d0 (ix1 (hi j)) = bh (ix1 j) :=
  concatenate_pair_apply_right 0 bg bh concatenates_S64_S64_S128_d0 (ix1 (hi j)) rfl rfl (ix1 j)
    (fun b hb => by
      match b, hb with
      | ⟨0, _⟩, hb => exact absurd rfl hb)
    (by show j.val + 64 = 64 + j.val; omega)

/-- A [128] vector given a leading axis of extent one: entry `(0, k)` is entry `k`. -/
theorem row128_apply (v : (⟨S128, .f32⟩ : BufTy).Contents (Elt Ideal)) (k : Fin 128) :
    broadcastInDim S1x128 ![1] bcast_S128_S1x128_1 v (ix2 (0 : Fin 1) k) = v (ix1 k) :=
  broadcastInDim_apply _ bcast_S128_S1x128_1 v (ix2 (0 : Fin 1) k) (ix1 k) (fun a => match a with
    | ⟨0, _⟩ => by show k.val = if (128 : Nat) = 1 then 0 else k.val; rw [if_neg (by decide)])

/-- Entry `(0, j)` of the combined bias row is the gate bias's entry `j`. -/
theorem bcomb_lo (bg bh : (⟨S64, .f32⟩ : BufTy).Contents (Elt Ideal)) (j : Fin 64) :
    broadcastInDim S1x128 ![1] bcast_S128_S1x128_1 (concatenate S128 0 [⟨S64, bg⟩, ⟨S64, bh⟩] concatenates_S64_S64_S128_d0) (ix2 (0 : Fin 1) (lo j))
      = bg (ix1 j) := by
  rw [row128_apply, bconcat_lo]

/-- Entry `(0, 64 + j)` of the combined bias row is the head bias's entry `j`. -/
theorem bcomb_hi (bg bh : (⟨S64, .f32⟩ : BufTy).Contents (Elt Ideal)) (j : Fin 64) :
    broadcastInDim S1x128 ![1] bcast_S128_S1x128_1 (concatenate S128 0 [⟨S64, bg⟩, ⟨S64, bh⟩] concatenates_S64_S64_S128_d0) (ix2 (0 : Fin 1) (hi j))
      = bh (ix1 j) := by
  rw [row128_apply, bconcat_hi]

/-! ## The hidden layer's bias and weights, and the ones -/

/-- Entry `(0, d)` of the hidden bias row is the bias's entry `d`. -/
theorem bext_row (be : (⟨S768, .f32⟩ : BufTy).Contents (Elt Ideal)) (d : Fin 768) :
    truncf (F := Ideal) .bf16 (broadcastInDim S1x768 ![1] bcast_S768_S1x768_1 be) bitsLt_bf16_f32 (ix2 (0 : Fin 1) d) = be (ix1 d) := by
  rw [truncf_apply]
  exact broadcastInDim_apply _ bcast_S768_S1x768_1 be (ix2 (0 : Fin 1) d) (ix1 d) (fun a => match a with
    | ⟨0, _⟩ => by show d.val = if (768 : Nat) = 1 then 0 else d.val; rw [if_neg (by decide)])

/-- The cast of the hidden weights is the identity. -/
theorem wext_cast_eq (We : (⟨S768x768, .f32⟩ : BufTy).Contents (Elt Ideal)) :
    truncf (F := Ideal) .bf16 We bitsLt_bf16_f32 = We := rfl

/-- … entry by entry. -/
theorem wext_cast (We : (⟨S768x768, .f32⟩ : BufTy).Contents (Elt Ideal)) (c d : Fin 768) :
    truncf (F := Ideal) .bf16 We bitsLt_bf16_f32 (ix2 c d) = We (ix2 c d) := rfl

/-- The constant one spread over the [64, 64] array is one everywhere. -/
theorem ones_apply (i : S64x64.Idx) :
    broadcastInDim S64x64 ![] bcast_S_S64x64 (constant (F := Ideal) S_ .f32 0x3F800000#32) i = 1 := by
  rw [broadcastInDim_apply _ bcast_S_S64x64 (constant (F := Ideal) S_ .f32 0x3F800000#32) i ix0 (fun a => a.elim0),
    constant_apply]
  exact Ideal.ofBits_one_f32

end Cert.HostPrefix

end
-- ==== Proof.LibOnlineSoftmax.lean ====
/-
  A softmax-weighted mean computed in ONE sweep over column tiles with a running shift, in real numbers, and the
  few facts that carry real values through the extended reals. No program in sight.

  The sweep keeps, per row, a shift `m`, a normaliser `l` and a weighted sum `acc`. What matters is not which
  number the shift is but the two products `l · e^m` and `acc · e^m`: after the tiles seen so far they are the
  plain sums `∑ e^(λ c)` and `∑ e^(λ c) · w c` over the columns seen (`online_norm_step`, `online_acc_step`: moving
  the shift from `m` to ANY real `m'` multiplies the old terms by `e^(m - m')`, and `e^(m - m') · e^(m')= e^m`). So at
  the end `acc / l` is the quotient of the two plain sums (`online_quot`), and that quotient is also what a softmax
  taken with any shift `M`, weighted by `w` and summed, gives (`softmax_mean_shift`): the exponentials' common factor
  `e^(-M)` cancels. The weights here have the form `((τ - 2·u c) + q c) / 1024`, written on the sweep's side as
  `((τ·∑p - 2·∑p·u) + ∑p·q) · (1/1024)` with the row constant `τ` and the factor taken out of the sums.

  For the extended reals: a finite sum of reals is the real sum (`coe_sum`), a quotient of reals by a nonzero real is
  the real quotient (`div_coe_coe`), and a maximum folded from `-∞` over a nonempty finite family of reals is a real
  (`fold_max_real`), as is its maximum with `-∞` or with a real (`max_bot_real`, `max_coe_real`).

  Imports only the ideal instance's operations.
-/
import Idealize.ShloMosaic.PureOps.Ideal

noncomputable section

open scoped BigOperators

namespace Cert.Lib

open Idealize.ShloMosaic

/-! ## Real values inside the extended reals -/

/-- The real sum, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real over a nonzero real, divided at the ideal instance, is the real quotient. -/
theorem div_coe_coe (a b : ℝ) (hb : b ≠ 0) : Ideal.div (a : EReal) (b : EReal) = ((a / b : ℝ) : EReal) := by
  rw [Ideal.div_coe hb, ← EReal.coe_mul, mul_one_div]

/-- The maximum folded from `-∞` over a finite family of reals is `-∞` on the empty family and a real otherwise. -/
theorem fold_max_bot_or_real {ι : Type*} (s : Finset ι) (f : ι → ℝ) :
    (s.fold max (⊥ : EReal) (fun i => (f i : EReal)) = ⊥ ∧ s = ∅) ∨ ∃ r : ℝ, s.fold max (⊥ : EReal) (fun i => (f i : EReal)) = (r : EReal) := by
  classical
  induction s using Finset.induction_on with
  | empty => exact Or.inl ⟨Finset.fold_empty, rfl⟩
  | insert a s ha ih =>
    refine Or.inr ?_
    rw [Finset.fold_insert ha]
    rcases ih with ⟨h, _⟩ | ⟨r, h⟩
    · exact ⟨f a, by rw [h, max_eq_left bot_le]⟩
    · exact ⟨max (f a) r, by rw [h]; exact (EReal.coe_strictMono.monotone.map_max).symm⟩

/-- Over a nonempty family it is a real. -/
theorem fold_max_real {ι : Type*} (s : Finset ι) (hs : s.Nonempty) (f : ι → ℝ) :
    ∃ r : ℝ, s.fold max (⊥ : EReal) (fun i => (f i : EReal)) = (r : EReal) := by
  rcases fold_max_bot_or_real s f with ⟨_, h⟩ | h
  · exact absurd h hs.ne_empty
  · exact h

theorem max_bot_real (r : ℝ) : ∃ r' : ℝ, max (⊥ : EReal) (r : EReal) = (r' : EReal) := ⟨r, max_eq_right bot_le⟩
theorem max_coe_real (a r : ℝ) : ∃ r' : ℝ, max (a : EReal) (r : EReal) = (r' : EReal) := ⟨max a r, (EReal.coe_strictMono.monotone.map_max).symm⟩

/-! ## One step of the sweep, in real numbers -/

variable {Q : Type*} [Fintype Q]

/-- The normaliser: after the step its product with `e^(m')` has gained the new tile's plain exponentials. -/
theorem online_norm_step (m m' l S : ℝ) (lam : Q → ℝ) (h : l * Real.exp m = S) :
    (Real.exp (m - m') * l + ∑ q, Real.exp (lam q - m')) * Real.exp m' = S + ∑ q, Real.exp (lam q) := by
  have e1 : Real.exp (m - m') * Real.exp m' = Real.exp m := by rw [← Real.exp_add]; congr 1; ring
  have e2 : ∀ q, Real.exp (lam q - m') * Real.exp m' = Real.exp (lam q) := fun q => by
    rw [← Real.exp_add]; congr 1; ring
  rw [add_mul, Finset.sum_mul, mul_right_comm, e1, mul_comm, h]
  exact congrArg (S + ·) (Finset.sum_congr rfl fun q _ => e2 q)

/-- The weighted sum: the same, with the weights `((τ - 2·u q) + cq q) / 1024` taken apart as the sweep writes them. -/
theorem online_acc_step (m m' acc S τ : ℝ) (lam u cq : Q → ℝ) (h : acc * Real.exp m = S) :
    (Real.exp (m - m') * acc
        + ((τ * (∑ q, Real.exp (lam q - m')) - 2 * ∑ q, Real.exp (lam q - m') * u q) + ∑ q, Real.exp (lam q - m') * cq q)
          * (1 / 1024)) * Real.exp m'
      = S + ∑ q, Real.exp (lam q) * (((τ - 2 * u q) + cq q) / 1024) := by
  have e1 : Real.exp (m - m') * Real.exp m' = Real.exp m := by rw [← Real.exp_add]; congr 1; ring
  have e2 : ∀ q, Real.exp (lam q) = Real.exp (lam q - m') * Real.exp m' := fun q => by
    rw [← Real.exp_add]; congr 1; ring
  rw [add_mul, mul_right_comm, e1, mul_comm (Real.exp m), h]
  refine congrArg (S + ·) ?_
  simp only [Finset.mul_sum, Finset.sum_mul, ← Finset.sum_sub_distrib, ← Finset.sum_add_distrib]
  refine Finset.sum_congr rfl fun q _ => ?_
  rw [e2 q]; ring

/-- At the end the quotient of the two running values is the quotient of the two plain sums. -/
theorem online_quot (m l acc S1 S2 : ℝ) (h1 : l * Real.exp m = S1) (h2 : acc * Real.exp m = S2) : acc / l = S2 / S1 := by
  rw [← h1, ← h2, mul_div_mul_right _ _ (Real.exp_ne_zero m)]

/-- A softmax taken with any shift, weighted and summed, is the same quotient. -/
theorem softmax_mean_shift (M : ℝ) (lam w : Q → ℝ) :
    ∑ c, w c * (Real.exp (lam c - M) / ∑ c', Real.exp (lam c' - M)) = (∑ c, Real.exp (lam c) * w c) / ∑ c, Real.exp (lam c) := by
  have e : ∀ c, Real.exp (lam c - M) = Real.exp (lam c) * Real.exp (-M) := fun c => by
    rw [← Real.exp_add]; congr 1
  simp only [e, ← Finset.sum_mul]
  rw [Finset.sum_div]
  refine Finset.sum_congr rfl fun c _ => ?_
  rw [mul_div_mul_right _ _ (Real.exp_ne_zero _)]; ring

end Cert.Lib

end
-- ==== Proof.RefValue.lean ====
/-
  The reference program's two results, read one entry at a time, are the specification's shifted softmax weights and
  shifted weighted mean.

  For a token row the reference computes the hidden row (a product with the extractor's weights, a bias, a clamp at
  zero), from it the gate logits and the head predictions, and takes the softmax of the logits the stable way: it
  folds the row's maximum from the bottom element, takes the maximum of that with the bottom element once more,
  subtracts the outcome from every logit, exponentiates, sums the row and divides. The number subtracted is named
  shift here. The second result is the sum over the heads of weight times prediction.

  Every statement below is a re-reading of the program index by index; no entry is asked to be finite. The one fact
  about finiteness is that the shift of a row of real logits is a real.
-/
import proofs.«101113_g83665962926118_cont_9to1c4b_418_25_alg».proof.Proof.RefRun
import proofs.«101113_g83665962926118_cont_9to1c4b_418_25_alg».proof.Proof.Spec
import proofs.«101113_g83665962926118_cont_9to1c4b_418_25_alg».proof.Proof.LibOnlineSoftmax
import Idealize.ShloMosaic.Lib.ValueIdx

noncomputable section

open scoped BigOperators

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (X : (⟨S32768x768, .f32⟩ : BufTy).Contents (Elt Ideal)) (We : (⟨S768x768, .f32⟩ : BufTy).Contents (Elt Ideal))
  (be : (⟨S768, .f32⟩ : BufTy).Contents (Elt Ideal)) (Wh : (⟨S64x768, .f32⟩ : BufTy).Contents (Elt Ideal))
  (bh : (⟨S64, .f32⟩ : BufTy).Contents (Elt Ideal)) (Wg : (⟨S768x64, .f32⟩ : BufTy).Contents (Elt Ideal))
  (bg : (⟨S64, .f32⟩ : BufTy).Contents (Elt Ideal))

/-! ## The three rows of a token, as the specification writes them -/

/-- The hidden row of token n. -/
abbrev Z (n : Fin 32768) : Fin 768 → EReal :=
  Cert.Spec.hidden (fun c => X (ix2 n c)) (fun c d => We (ix2 c d)) (fun d => be (ix1 d))

/-- The gate logits of token n. -/
abbrev L (n : Fin 32768) : Fin 64 → EReal :=
  Cert.Spec.logit (Z X We be n) (fun d k => Wg (ix2 d k)) (fun k => bg (ix1 k))

/-- The head predictions of token n. -/
abbrev Pd (n : Fin 32768) : Fin 64 → EReal :=
  Cert.Spec.pred (Z X We be n) (fun j d => Wh (ix2 j d)) (fun k => bh (ix1 k))

/-- The number subtracted from the logits of token n: the bottom element against the row's maximum folded from the
    bottom element. -/
def shift (n : Fin 32768) : EReal :=
  max ⊥ ((Finset.univ : Finset (Fin 64)).fold max ⊥ (L X We be Wg bg n))

/-! ## Index equations: the program's composed index functions at coordinates -/

theorem lidx_v0 (n : Fin 32768) (d c : Fin 768) : lidx_main_v0 (ix2 n d) c = ix2 n c :=
  funext fun a => Fin.ext (by match a with | ⟨0, _⟩ => rfl | ⟨1, _⟩ => rfl)
theorem ridx_v0 (n : Fin 32768) (d c : Fin 768) : ridx_main_v0 (ix2 n d) c = ix2 c d :=
  funext fun a => Fin.ext (by match a with | ⟨0, _⟩ => rfl | ⟨1, _⟩ => rfl)
theorem idx_v1_v2 (n : Fin 32768) (d : Fin 768) : idx_main_v1 (idx_main_v2 (ix2 n d)) = ix1 d :=
  funext fun a => Fin.ext (by match a with | ⟨0, _⟩ => rfl)
theorem lidx_v5 (n : Fin 32768) (k : Fin 64) (d : Fin 768) : lidx_main_v5 (ix2 n k) d = ix2 n d :=
  funext fun a => Fin.ext (by match a with | ⟨0, _⟩ => rfl | ⟨1, _⟩ => rfl)
theorem ridx_v5 (n : Fin 32768) (k : Fin 64) (d : Fin 768) : ridx_main_v5 (ix2 n k) d = ix2 d k :=
  funext fun a => Fin.ext (by match a with | ⟨0, _⟩ => rfl | ⟨1, _⟩ => rfl)
theorem idx_v6_v7 (n : Fin 32768) (k : Fin 64) : idx_main_v6 (idx_main_v7 (ix2 n k)) = ix1 k :=
  funext fun a => Fin.ext (by match a with | ⟨0, _⟩ => rfl)
theorem idx_v12_v13 (n : Fin 32768) (k : Fin 64) : idx_main_v12 (idx_main_v13 (ix2 n k)) = ix1 n :=
  funext fun a => Fin.ext (by match a with | ⟨0, _⟩ => rfl)
theorem idx_v16 (n : Fin 32768) (j : Fin 64) : idx_main_v16 (ix1 n) j = ix2 n j :=
  funext fun a => Fin.ext (by match a with | ⟨0, _⟩ => rfl | ⟨1, _⟩ => rfl)
theorem idx_v17_v18 (n : Fin 32768) (k : Fin 64) : idx_main_v17 (idx_main_v18 (ix2 n k)) = ix1 n :=
  funext fun a => Fin.ext (by match a with | ⟨0, _⟩ => rfl)
theorem lidx_v21 (n : Fin 32768) (k : Fin 64) (d : Fin 768) : lidx_main_v21 (ix2 n k) d = ix2 n d :=
  funext fun a => Fin.ext (by match a with | ⟨0, _⟩ => rfl | ⟨1, _⟩ => rfl)
theorem idx_v20_ridx_v21 (n : Fin 32768) (k : Fin 64) (d : Fin 768) : idx_main_v20 (ridx_main_v21 (ix2 n k) d) = ix2 k d :=
  funext fun a => Fin.ext (by match a with | ⟨0, _⟩ => rfl | ⟨1, _⟩ => rfl)
theorem idx_v22_v23 (n : Fin 32768) (k : Fin 64) : idx_main_v22 (idx_main_v23 (ix2 n k)) = ix1 k :=
  funext fun a => Fin.ext (by match a with | ⟨0, _⟩ => rfl)
theorem idx_v25_v28 (n : Fin 32768) (j : Fin 64) : idx_main_v25 (idx_main_v28 (ix2 n (0 : Fin 1)) j) = ix2 n j :=
  funext fun a => Fin.ext (by match a with | ⟨0, _⟩ => rfl | ⟨1, _⟩ => rfl)
theorem idx_v26_v28 (n : Fin 32768) (j : Fin 64) : idx_main_v26 (idx_main_v28 (ix2 n (0 : Fin 1)) j) = ix2 n j :=
  funext fun a => Fin.ext (by match a with | ⟨0, _⟩ => rfl | ⟨1, _⟩ => rfl)

/-- The word of minus infinity is the bottom element. -/
theorem ofBits_neg_inf_f32 : Ideal.ofBits .f32 0xFF800000#32 = (⊥ : EReal) := by simp [Ideal.ofBits, Ideal.ieee]

/-! ## The stages at coordinates -/

/-- The clamped hidden layer at (n, d) is the specification's hidden row. -/
theorem hidden_apply (n : Fin 32768) (d : Fin 768) :
    val_main_v4 (F := Ideal) X We be (ix2 n d) = Z X We be n d := by
  rw [val_main_v4_apply, val_main_v3_apply, val_main_v0_apply, val_main_v2_apply, val_main_v1_apply,
    val_main_call0_v0_apply, val_main_call0_cst_apply]
  simp only [lidx_v0, ridx_v0, idx_v1_v2, Ideal.addf_def, Ideal.maximumf_def, Ideal.ofBits_def, Ideal.ofBits_zero_f32]
  rfl

/-- The gate's sum plus bias at (n, k) is the specification's logit. -/
theorem logit_apply (n : Fin 32768) (k : Fin 64) :
    val_main_v8 (F := Ideal) X We be Wg bg (ix2 n k) = L X We be Wg bg n k := by
  rw [val_main_v8_apply, val_main_v5_apply, val_main_v7_apply, val_main_v6_apply]
  simp only [lidx_v5, ridx_v5, idx_v6_v7, hidden_apply, Ideal.addf_def]
  rfl

/-- A maximum-reduce of any array over its second axis, from the word of minus infinity, read at row n: the fold of the
    maximum from the bottom element over the row's entries. -/
theorem rowmax_of (y : (⟨S32768x64, .f32⟩ : BufTy).Contents (Elt Ideal)) (n : Fin 32768) :
    Host.reduce (FloatOps.maximumf (F := Ideal) (φ := .f32)) y (val_main_cst (F := Ideal)) reducesTo_S32768x64_S32768_d1 h_S_ (ix1 n)
      = (Finset.univ : Finset (Fin 64)).fold max ⊥ (fun k => y (ix2 n k)) := by
  have hr : S32768x64.Reduces [1] S32768 := by decide
  refine (Host.reduce_eq_fold_single (FloatOps.maximumf (F := Ideal) (φ := .f32)) y (val_main_cst (F := Ideal)) reducesTo_S32768x64_S32768_d1 hr h_S_ (ix1 n)).trans ?_
  show (Finset.univ : Finset (Fin 64)).fold max (Ideal.ofBits .f32 0xFF800000#32) (fun k : Fin 64 => y (hr.lift (ix1 n) k)) = _
  rw [ofBits_neg_inf_f32]
  refine congrArg (fun f => Finset.fold max (⊥ : EReal) f (Finset.univ : Finset (Fin 64))) (funext fun k => ?_)
  exact congrArg y (funext fun a => Fin.ext (by match a with | ⟨0, _⟩ => rfl | ⟨1, _⟩ => rfl))

/-- The row maximum the program folds, at n. -/
theorem rowmax_apply (n : Fin 32768) :
    val_main_v9 (F := Ideal) X We be Wg bg (ix1 n) = (Finset.univ : Finset (Fin 64)).fold max ⊥ (L X We be Wg bg n) := by
  unfold val_main_v9
  rw [rowmax_of]
  simp only [logit_apply]

/-- The number the program subtracts from row n's logits is the shift. -/
theorem shift_apply (n : Fin 32768) :
    val_main_v11 (F := Ideal) X We be Wg bg (ix1 n) = shift X We be Wg bg n := by
  rw [val_main_v11_apply, val_main_v10_apply, val_main_cst_0_apply, rowmax_apply]
  simp only [Ideal.maximumf_def, Ideal.ofBits_def, ofBits_neg_inf_f32]
  rfl

/-- The exponential of the shifted logit at (n, k). -/
theorem expshift_apply (n : Fin 32768) (k : Fin 64) :
    val_main_v15 (F := Ideal) X We be Wg bg (ix2 n k) = Ideal.exp (L X We be Wg bg n k - shift X We be Wg bg n) := by
  rw [val_main_v15_apply, val_main_v14_apply, val_main_v13_apply, val_main_v12_apply, idx_v12_v13, shift_apply, logit_apply]
  simp only [Ideal.hostUnary_exp_def, Ideal.subf_def]

/-- The row sum of the exponentials at n. -/
theorem norm_apply (n : Fin 32768) :
    val_main_v16 (F := Ideal) X We be Wg bg (ix1 n) = ∑ j : Fin 64, Ideal.exp (L X We be Wg bg n j - shift X We be Wg bg n) := by
  rw [val_main_v16_apply, val_main_cst_1_apply]
  simp only [idx_v16, expshift_apply, Ideal.ofBits_def, Ideal.ofBits_zero_f32, zero_add]

/-- THE WEIGHTS: entry (n, k) of the reference's second result is the shifted softmax weight k of row n's logits. -/
theorem ref_weights_apply (n : Fin 32768) (k : Fin 64) :
    val_main_v19 (F := Ideal) X We be Wg bg (ix2 n k)
      = Cert.Spec.shiftedWeight (L X We be Wg bg n) (shift X We be Wg bg n) k := by
  rw [val_main_v19_apply, val_main_v18_apply, val_main_v17_apply, idx_v17_v18, norm_apply, expshift_apply]
  simp only [Ideal.hostDivf_def]
  rfl

/-- The head's sum plus bias at (n, k) is the specification's prediction. -/
theorem pred_apply (n : Fin 32768) (k : Fin 64) :
    val_main_v24 (F := Ideal) X We be Wh bh (ix2 n k) = Pd X We be Wh bh n k := by
  rw [val_main_v24_apply, val_main_v21_apply, val_main_v23_apply, val_main_v22_apply]
  simp only [val_main_v20_apply, lidx_v21, idx_v20_ridx_v21, idx_v22_v23, hidden_apply, Ideal.addf_def]
  rfl

/-- THE MEAN: entry (n, 0) of the reference's first result is the shifted weighted mean of row n's predictions. -/
theorem ref_mean_apply (n : Fin 32768) :
    val_main_v28 (F := Ideal) X We be Wh bh Wg bg (ix2 n (0 : Fin 1))
      = Cert.Spec.shiftedMean (L X We be Wg bg n) (Pd X We be Wh bh n) (shift X We be Wg bg n) := by
  rw [val_main_v28_apply, val_main_cst_2_apply]
  simp only [val_main_v27_apply, val_main_v26_apply, val_main_v25_apply, idx_v25_v28, idx_v26_v28, ref_weights_apply,
    pred_apply, Ideal.mulf_def, Ideal.ofBits_def, Ideal.ofBits_zero_f32, zero_add]
  rfl

/-- The shift of a row of real logits is a real. -/
theorem shift_real (n : Fin 32768) (h : ∀ k, ∃ r : ℝ, L X We be Wg bg n k = (r : EReal)) :
    ∃ r : ℝ, shift X We be Wg bg n = (r : EReal) := by
  choose f hf using h
  obtain ⟨r, hr⟩ := Cert.Lib.fold_max_real (Finset.univ : Finset (Fin 64)) Finset.univ_nonempty f
  have e : L X We be Wg bg n = fun k => (f k : EReal) := funext hf
  unfold shift
  rw [e, hr]
  exact Cert.Lib.max_bot_real r

end Cert.RefValue

end
-- ==== Proof.RealRows.lean ====
/-
  Real rows stay real, and for real rows the two ways of writing a softmax agree.

  Over the extended reals the distributive law and cancellation fail at the infinities, so the plain softmax
  (each exponential over the sum of the exponentials) and the shifted softmax (every logit lowered by a number `s`
  first) are equal only when the logits, the predictions and the shift are real numbers. For reals the argument is
  the usual one: `e^(l - s) = e^l · e^(-s)`, the sum of the shifted exponentials is `(∑ e^l) · e^(-s)`, and the positive
  real factor `e^(-s)` cancels in each quotient. The sum of the 64 exponentials is a sum of positive reals over a
  nonempty family, hence positive, hence a nonzero divisor, so each quotient taken in the extended reals is the
  real quotient.

  Realness passes through the layers: a finite sum of products of reals is a real, a real plus a real is a real, and
  the maximum of a real with zero is a real. So a real input row with real weights and biases has a real hidden row,
  real gate logits and real head predictions.
-/
import proofs.«101113_g83665962926118_cont_9to1c4b_418_25_alg».proof.Proof.Spec
import proofs.«101113_g83665962926118_cont_9to1c4b_418_25_alg».proof.Proof.LibOnlineSoftmax

noncomputable section

open scoped BigOperators

namespace Cert.RealRows

open Idealize.ShloMosaic

/-! ## Exponentials of reals and their sums -/

/-- The exponential of a real difference, taken in the extended reals, is the real exponential. -/
theorem exp_sub_coe (a s : ℝ) : Ideal.exp ((a : EReal) - (s : EReal)) = ((Real.exp (a - s) : ℝ) : EReal) := by
  rw [← EReal.coe_sub, Ideal.exp_coe]

/-- The sum of the exponentials of real logits is the real sum. -/
theorem sum_exp_coe (l : Fin 64 → ℝ) :
    ∑ j : Fin 64, Ideal.exp ((l j : ℝ) : EReal) = ((∑ j : Fin 64, Real.exp (l j) : ℝ) : EReal) := by
  rw [Cert.Lib.coe_sum]
  exact Finset.sum_congr rfl fun j _ => Ideal.exp_coe _

/-- The same with every logit lowered by a real shift. -/
theorem sum_exp_sub_coe (l : Fin 64 → ℝ) (s : ℝ) :
    ∑ j : Fin 64, Ideal.exp ((l j : EReal) - (s : EReal)) = ((∑ j : Fin 64, Real.exp (l j - s) : ℝ) : EReal) := by
  rw [Cert.Lib.coe_sum]
  exact Finset.sum_congr rfl fun j _ => exp_sub_coe (l j) s

/-- A sum of 64 real exponentials is positive. -/
theorem sum_exp_pos (l : Fin 64 → ℝ) : 0 < ∑ j : Fin 64, Real.exp (l j) :=
  Finset.sum_pos (fun j _ => Real.exp_pos _) Finset.univ_nonempty

theorem sum_exp_ne_zero (l : Fin 64 → ℝ) : (∑ j : Fin 64, Real.exp (l j)) ≠ 0 := (sum_exp_pos l).ne'

/-! ## The weights and the mean as real quotients -/

/-- The plain weight of real logits is the real quotient. -/
theorem plainWeight_coe (l : Fin 64 → ℝ) (k : Fin 64) :
    Cert.Spec.plainWeight (fun j => (l j : EReal)) k = ((Real.exp (l k) / ∑ j : Fin 64, Real.exp (l j) : ℝ) : EReal) := by
  unfold Cert.Spec.plainWeight
  rw [sum_exp_coe, Ideal.exp_coe, Cert.Lib.div_coe_coe _ _ (sum_exp_ne_zero l)]

/-- The shifted weight of real logits with a real shift is the real quotient of the shifted exponentials. -/
theorem shiftedWeight_coe (l : Fin 64 → ℝ) (s : ℝ) (k : Fin 64) :
    Cert.Spec.shiftedWeight (fun j => (l j : EReal)) (s : EReal) k
      = ((Real.exp (l k - s) / ∑ j : Fin 64, Real.exp (l j - s) : ℝ) : EReal) := by
  unfold Cert.Spec.shiftedWeight
  rw [sum_exp_sub_coe, exp_sub_coe, Cert.Lib.div_coe_coe _ _ (sum_exp_ne_zero fun j => l j - s)]

/-- In real numbers the shift cancels in each weight. -/
theorem real_weight_shift (l : Fin 64 → ℝ) (s : ℝ) (k : Fin 64) :
    Real.exp (l k - s) / ∑ j : Fin 64, Real.exp (l j - s) = Real.exp (l k) / ∑ j : Fin 64, Real.exp (l j) := by
  have e : ∀ c, Real.exp (l c - s) = Real.exp (l c) * Real.exp (-s) := fun c => by
    rw [← Real.exp_add]; congr 1
  simp only [e, ← Finset.sum_mul]
  rw [mul_div_mul_right _ _ (Real.exp_ne_zero _)]

/-- For real logits and a real shift the shifted weight is the plain weight. -/
theorem shiftedWeight_eq_plain (l : Fin 64 → ℝ) (s : ℝ) (k : Fin 64) :
    Cert.Spec.shiftedWeight (fun j => (l j : EReal)) (s : EReal) k = Cert.Spec.plainWeight (fun j => (l j : EReal)) k := by
  rw [shiftedWeight_coe, plainWeight_coe, real_weight_shift]

/-- The plain mean of real predictions under real logits is the real quotient. -/
theorem plainMean_coe (l p : Fin 64 → ℝ) :
    Cert.Spec.plainMean (fun j => (l j : EReal)) (fun j => (p j : EReal))
      = (((∑ j : Fin 64, Real.exp (l j) * p j) / ∑ j : Fin 64, Real.exp (l j) : ℝ) : EReal) := by
  unfold Cert.Spec.plainMean
  have h : ∑ j : Fin 64, Ideal.exp ((l j : ℝ) : EReal) * ((p j : ℝ) : EReal)
      = ((∑ j : Fin 64, Real.exp (l j) * p j : ℝ) : EReal) := by
    rw [Cert.Lib.coe_sum]
    exact Finset.sum_congr rfl fun j _ => by rw [Ideal.exp_coe, EReal.coe_mul]
  rw [h, sum_exp_coe, Cert.Lib.div_coe_coe _ _ (sum_exp_ne_zero l)]

/-- The shifted mean of real predictions under real logits with a real shift is the real sum of weight times prediction. -/
theorem shiftedMean_coe (l p : Fin 64 → ℝ) (s : ℝ) :
    Cert.Spec.shiftedMean (fun j => (l j : EReal)) (fun j => (p j : EReal)) (s : EReal)
      = ((∑ j : Fin 64, p j * (Real.exp (l j - s) / ∑ j' : Fin 64, Real.exp (l j' - s)) : ℝ) : EReal) := by
  unfold Cert.Spec.shiftedMean
  rw [Cert.Lib.coe_sum]
  exact Finset.sum_congr rfl fun j _ => by rw [shiftedWeight_coe, ← EReal.coe_mul, mul_comm]

/-- For real logits, real predictions and a real shift the shifted mean is the plain mean. -/
theorem shiftedMean_eq_plain (l p : Fin 64 → ℝ) (s : ℝ) :
    Cert.Spec.shiftedMean (fun j => (l j : EReal)) (fun j => (p j : EReal)) (s : EReal)
      = Cert.Spec.plainMean (fun j => (l j : EReal)) (fun j => (p j : EReal)) := by
  rw [shiftedMean_coe, plainMean_coe, Cert.Lib.softmax_mean_shift]

/-! ## The same with the realness given as a hypothesis -/

/-- Logits and shift that are real: the shifted weight is the plain weight. -/
theorem shiftedWeight_eq_plain_of_real (l : Fin 64 → EReal) (s : EReal) (k : Fin 64)
    (hl : ∀ j, ∃ r : ℝ, l j = (r : EReal)) (hs : ∃ r : ℝ, s = (r : EReal)) :
    Cert.Spec.shiftedWeight l s k = Cert.Spec.plainWeight l k := by
  choose l' hl' using hl
  obtain ⟨s', rfl⟩ := hs
  obtain rfl : l = fun j => (l' j : EReal) := funext hl'
  exact shiftedWeight_eq_plain l' s' k

/-- Logits, predictions and shift that are real: the shifted mean is the plain mean. -/
theorem shiftedMean_eq_plain_of_real (l p : Fin 64 → EReal) (s : EReal)
    (hl : ∀ j, ∃ r : ℝ, l j = (r : EReal)) (hp : ∀ j, ∃ r : ℝ, p j = (r : EReal)) (hs : ∃ r : ℝ, s = (r : EReal)) :
    Cert.Spec.shiftedMean l p s = Cert.Spec.plainMean l p := by
  choose l' hl' using hl
  choose p' hp' using hp
  obtain ⟨s', rfl⟩ := hs
  obtain rfl : l = fun j => (l' j : EReal) := funext hl'
  obtain rfl : p = fun j => (p' j : EReal) := funext hp'
  exact shiftedMean_eq_plain l' p' s'

/-! ## Realness through the layers -/

/-- A finite sum of products of reals, plus a real, is a real. -/
theorem affine_real {n : ℕ} (a b : Fin n → EReal) (c : EReal)
    (ha : ∀ i, ∃ r : ℝ, a i = (r : EReal)) (hb : ∀ i, ∃ r : ℝ, b i = (r : EReal)) (hc : ∃ r : ℝ, c = (r : EReal)) :
    ∃ r : ℝ, (∑ i : Fin n, a i * b i) + c = (r : EReal) := by
  choose a' ha' using ha
  choose b' hb' using hb
  obtain ⟨c', rfl⟩ := hc
  refine ⟨(∑ i : Fin n, a' i * b' i) + c', ?_⟩
  rw [EReal.coe_add, Cert.Lib.coe_sum]
  congr 1
  exact Finset.sum_congr rfl fun i _ => by rw [ha' i, hb' i, EReal.coe_mul]

/-- A real row with real weights and a real bias has a real hidden row. -/
theorem hidden_real (x : Fin 768 → EReal) (We : Fin 768 → Fin 768 → EReal) (be : Fin 768 → EReal)
    (hx : ∀ c, ∃ r : ℝ, x c = (r : EReal)) (hW : ∀ c d, ∃ r : ℝ, We c d = (r : EReal))
    (hb : ∀ d, ∃ r : ℝ, be d = (r : EReal)) :
    ∀ d, ∃ r : ℝ, Cert.Spec.hidden x We be d = (r : EReal) := by
  intro d
  obtain ⟨r, hr⟩ := affine_real x (fun c => We c d) (be d) hx (fun c => hW c d) (hb d)
  refine ⟨max r 0, ?_⟩
  unfold Cert.Spec.hidden
  rw [hr, ← EReal.coe_zero]
  exact (EReal.coe_strictMono.monotone.map_max).symm

/-- A real hidden row with real gate weights and a real bias has real gate logits. -/
theorem logit_real (z : Fin 768 → EReal) (Wg : Fin 768 → Fin 64 → EReal) (bg : Fin 64 → EReal)
    (hz : ∀ d, ∃ r : ℝ, z d = (r : EReal)) (hW : ∀ d k, ∃ r : ℝ, Wg d k = (r : EReal))
    (hb : ∀ k, ∃ r : ℝ, bg k = (r : EReal)) :
    ∀ k, ∃ r : ℝ, Cert.Spec.logit z Wg bg k = (r : EReal) := fun k =>
  affine_real z (fun d => Wg d k) (bg k) hz (fun d => hW d k) (hb k)

/-- A real hidden row with real head weights (one head per row) and a real bias has real head predictions. -/
theorem pred_real (z : Fin 768 → EReal) (Wh : Fin 64 → Fin 768 → EReal) (bh : Fin 64 → EReal)
    (hz : ∀ d, ∃ r : ℝ, z d = (r : EReal)) (hW : ∀ k d, ∃ r : ℝ, Wh k d = (r : EReal))
    (hb : ∀ k, ∃ r : ℝ, bh k = (r : EReal)) :
    ∀ k, ∃ r : ℝ, Cert.Spec.pred z Wh bh k = (r : EReal) := fun k =>
  affine_real z (fun d => Wh k d) (bh k) hz (fun d => hW k d) (hb k)

end Cert.RealRows

end
-- ==== Proof.RowBridge.lean ====
/-
  One token row written two ways: through the fused arrays with the plain softmax, and through the seven argument
  arrays with the shifted softmax. For real entries the two are the same numbers.

  The first way reads the token matrix, the hidden weights, the hidden bias as a one-row matrix, and the two output
  layers fused into one [768, 128] array and one [1, 128] bias row: the first 64 columns are the gate, the last 64 the
  heads. The second way reads the gate and the heads from their own arrays, the heads stored one per row. When each
  fused entry IS the argument entry it stands for, the hidden row, the gate logits and the head predictions are the
  same functions term by term. When moreover every argument entry is a real number, the hidden row, the logits, the
  predictions and the shift subtracted before exponentiating are real, and for real rows the positive factor the shift
  contributes cancels in each quotient: the shifted weight is the plain weight and the shifted mean the plain mean.
-/
import proofs.«101113_g83665962926118_cont_9to1c4b_418_25_alg».proof.Proof.RefValue
import proofs.«101113_g83665962926118_cont_9to1c4b_418_25_alg».proof.Proof.RealRows
import proofs.«101113_g83665962926118_cont_9to1c4b_418_25_alg».proof.Proof.KernelRows

noncomputable section

open scoped BigOperators

namespace Cert.RowBridge

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The rows agree when the fused entries are the arguments' entries -/

/-- The hidden rows agree. -/
theorem hidden_eq (X : (⟨S32768x768, .f32⟩ : BufTy).Contents (Elt Ideal)) (We : (⟨S768x768, .f32⟩ : BufTy).Contents (Elt Ideal))
    (be : (⟨S768, .f32⟩ : BufTy).Contents (Elt Ideal))
    (XA : (⟨2, ![32768, 768]⟩ : Shape).Idx → EReal) (W : (⟨2, ![768, 768]⟩ : Shape).Idx → EReal)
    (B : (⟨2, ![1, 768]⟩ : Shape).Idx → EReal) (n : Fin 32768)
    (hX : ∀ i, XA i = X i) (hW : ∀ c d : Fin 768, W (ix2 c d) = We (ix2 c d))
    (hB : ∀ d : Fin 768, B (ix2 (0 : Fin 1) d) = be (ix1 d)) :
    Cert.KernelRows.hiddenRow XA W B n = Cert.RefValue.Z X We be n := by
  unfold Cert.KernelRows.hiddenRow Cert.RefValue.Z
  simp only [hX, hW, hB]

/-- The gate logits agree. -/
theorem logits_eq (X : (⟨S32768x768, .f32⟩ : BufTy).Contents (Elt Ideal)) (We : (⟨S768x768, .f32⟩ : BufTy).Contents (Elt Ideal))
    (be : (⟨S768, .f32⟩ : BufTy).Contents (Elt Ideal)) (Wg : (⟨S768x64, .f32⟩ : BufTy).Contents (Elt Ideal))
    (bg : (⟨S64, .f32⟩ : BufTy).Contents (Elt Ideal))
    (XA : (⟨2, ![32768, 768]⟩ : Shape).Idx → EReal) (W : (⟨2, ![768, 768]⟩ : Shape).Idx → EReal)
    (B : (⟨2, ![1, 768]⟩ : Shape).Idx → EReal) (WC : (⟨2, ![768, 128]⟩ : Shape).Idx → EReal)
    (BC : (⟨2, ![1, 128]⟩ : Shape).Idx → EReal) (n : Fin 32768)
    (hX : ∀ i, XA i = X i) (hW : ∀ c d : Fin 768, W (ix2 c d) = We (ix2 c d))
    (hB : ∀ d : Fin 768, B (ix2 (0 : Fin 1) d) = be (ix1 d))
    (hWClo : ∀ (d : Fin 768) (j : Fin 64), WC (ix2 d (Cert.KernelRows.lo j)) = Wg (ix2 d j))
    (hBClo : ∀ j : Fin 64, BC (ix2 (0 : Fin 1) (Cert.KernelRows.lo j)) = bg (ix1 j)) :
    Cert.KernelRows.logits XA W B WC BC n = Cert.RefValue.L X We be Wg bg n := by
  unfold Cert.KernelRows.logits Cert.RefValue.L
  rw [hidden_eq X We be XA W B n hX hW hB]
  simp only [hWClo, hBClo]

/-- The head predictions agree. -/
theorem preds_eq (X : (⟨S32768x768, .f32⟩ : BufTy).Contents (Elt Ideal)) (We : (⟨S768x768, .f32⟩ : BufTy).Contents (Elt Ideal))
    (be : (⟨S768, .f32⟩ : BufTy).Contents (Elt Ideal)) (Wh : (⟨S64x768, .f32⟩ : BufTy).Contents (Elt Ideal))
    (bh : (⟨S64, .f32⟩ : BufTy).Contents (Elt Ideal))
    (XA : (⟨2, ![32768, 768]⟩ : Shape).Idx → EReal) (W : (⟨2, ![768, 768]⟩ : Shape).Idx → EReal)
    (B : (⟨2, ![1, 768]⟩ : Shape).Idx → EReal) (WC : (⟨2, ![768, 128]⟩ : Shape).Idx → EReal)
    (BC : (⟨2, ![1, 128]⟩ : Shape).Idx → EReal) (n : Fin 32768)
    (hX : ∀ i, XA i = X i) (hW : ∀ c d : Fin 768, W (ix2 c d) = We (ix2 c d))
    (hB : ∀ d : Fin 768, B (ix2 (0 : Fin 1) d) = be (ix1 d))
    (hWChi : ∀ (d : Fin 768) (j : Fin 64), WC (ix2 d (Cert.KernelRows.hi j)) = Wh (ix2 j d))
    (hBChi : ∀ j : Fin 64, BC (ix2 (0 : Fin 1) (Cert.KernelRows.hi j)) = bh (ix1 j)) :
    Cert.KernelRows.preds XA W B WC BC n = Cert.RefValue.Pd X We be Wh bh n := by
  unfold Cert.KernelRows.preds Cert.RefValue.Pd
  rw [hidden_eq X We be XA W B n hX hW hB]
  simp only [hWChi, hBChi]

/-! ## Real arguments give real rows -/

/-- The hidden row of real arguments is real. -/
theorem Z_real (X : (⟨S32768x768, .f32⟩ : BufTy).Contents (Elt Ideal)) (We : (⟨S768x768, .f32⟩ : BufTy).Contents (Elt Ideal))
    (be : (⟨S768, .f32⟩ : BufTy).Contents (Elt Ideal)) (n : Fin 32768)
    (rX : ∀ i, ∃ r : ℝ, X i = (r : EReal)) (rWe : ∀ i, ∃ r : ℝ, We i = (r : EReal)) (rbe : ∀ i, ∃ r : ℝ, be i = (r : EReal)) :
    ∀ d, ∃ r : ℝ, Cert.RefValue.Z X We be n d = (r : EReal) :=
  Cert.RealRows.hidden_real _ _ _ (fun c => rX (ix2 n c)) (fun c d => rWe (ix2 c d)) (fun d => rbe (ix1 d))

/-- The gate logits of real arguments are real. -/
theorem L_real (X : (⟨S32768x768, .f32⟩ : BufTy).Contents (Elt Ideal)) (We : (⟨S768x768, .f32⟩ : BufTy).Contents (Elt Ideal))
    (be : (⟨S768, .f32⟩ : BufTy).Contents (Elt Ideal)) (Wg : (⟨S768x64, .f32⟩ : BufTy).Contents (Elt Ideal))
    (bg : (⟨S64, .f32⟩ : BufTy).Contents (Elt Ideal)) (n : Fin 32768)
    (rX : ∀ i, ∃ r : ℝ, X i = (r : EReal)) (rWe : ∀ i, ∃ r : ℝ, We i = (r : EReal)) (rbe : ∀ i, ∃ r : ℝ, be i = (r : EReal))
    (rWg : ∀ i, ∃ r : ℝ, Wg i = (r : EReal)) (rbg : ∀ i, ∃ r : ℝ, bg i = (r : EReal)) :
    ∀ k, ∃ r : ℝ, Cert.RefValue.L X We be Wg bg n k = (r : EReal) :=
  Cert.RealRows.logit_real _ _ _ (Z_real X We be n rX rWe rbe) (fun d k => rWg (ix2 d k)) (fun k => rbg (ix1 k))

/-- The head predictions of real arguments are real. -/
theorem Pd_real (X : (⟨S32768x768, .f32⟩ : BufTy).Contents (Elt Ideal)) (We : (⟨S768x768, .f32⟩ : BufTy).Contents (Elt Ideal))
    (be : (⟨S768, .f32⟩ : BufTy).Contents (Elt Ideal)) (Wh : (⟨S64x768, .f32⟩ : BufTy).Contents (Elt Ideal))
    (bh : (⟨S64, .f32⟩ : BufTy).Contents (Elt Ideal)) (n : Fin 32768)
    (rX : ∀ i, ∃ r : ℝ, X i = (r : EReal)) (rWe : ∀ i, ∃ r : ℝ, We i = (r : EReal)) (rbe : ∀ i, ∃ r : ℝ, be i = (r : EReal))
    (rWh : ∀ i, ∃ r : ℝ, Wh i = (r : EReal)) (rbh : ∀ i, ∃ r : ℝ, bh i = (r : EReal)) :
    ∀ k, ∃ r : ℝ, Cert.RefValue.Pd X We be Wh bh n k = (r : EReal) :=
  Cert.RealRows.pred_real _ _ _ (Z_real X We be n rX rWe rbe) (fun k d => rWh (ix2 k d)) (fun k => rbh (ix1 k))

/-! ## The two results of a row -/

/-- THE WEIGHTS: the plain softmax weight k of the fused row's logits is entry (n, k) of the reference's weights. -/
theorem weights_bridge (X : (⟨S32768x768, .f32⟩ : BufTy).Contents (Elt Ideal)) (We : (⟨S768x768, .f32⟩ : BufTy).Contents (Elt Ideal))
    (be : (⟨S768, .f32⟩ : BufTy).Contents (Elt Ideal)) (Wh : (⟨S64x768, .f32⟩ : BufTy).Contents (Elt Ideal))
    (bh : (⟨S64, .f32⟩ : BufTy).Contents (Elt Ideal)) (Wg : (⟨S768x64, .f32⟩ : BufTy).Contents (Elt Ideal))
    (bg : (⟨S64, .f32⟩ : BufTy).Contents (Elt Ideal))
    (XA : (⟨2, ![32768, 768]⟩ : Shape).Idx → EReal) (W : (⟨2, ![768, 768]⟩ : Shape).Idx → EReal)
    (B : (⟨2, ![1, 768]⟩ : Shape).Idx → EReal) (WC : (⟨2, ![768, 128]⟩ : Shape).Idx → EReal)
    (BC : (⟨2, ![1, 128]⟩ : Shape).Idx → EReal) (n : Fin 32768) (k : Fin 64)
    (hX : ∀ i, XA i = X i) (hW : ∀ c d : Fin 768, W (ix2 c d) = We (ix2 c d))
    (hB : ∀ d : Fin 768, B (ix2 (0 : Fin 1) d) = be (ix1 d))
    (hWClo : ∀ (d : Fin 768) (j : Fin 64), WC (ix2 d (Cert.KernelRows.lo j)) = Wg (ix2 d j))
    (hWChi : ∀ (d : Fin 768) (j : Fin 64), WC (ix2 d (Cert.KernelRows.hi j)) = Wh (ix2 j d))
    (hBClo : ∀ j : Fin 64, BC (ix2 (0 : Fin 1) (Cert.KernelRows.lo j)) = bg (ix1 j))
    (hBChi : ∀ j : Fin 64, BC (ix2 (0 : Fin 1) (Cert.KernelRows.hi j)) = bh (ix1 j))
    (rX : ∀ i, ∃ r : ℝ, X i = (r : EReal)) (rWe : ∀ i, ∃ r : ℝ, We i = (r : EReal)) (rbe : ∀ i, ∃ r : ℝ, be i = (r : EReal))
    (rWh : ∀ i, ∃ r : ℝ, Wh i = (r : EReal)) (rbh : ∀ i, ∃ r : ℝ, bh i = (r : EReal))
    (rWg : ∀ i, ∃ r : ℝ, Wg i = (r : EReal)) (rbg : ∀ i, ∃ r : ℝ, bg i = (r : EReal)) :
    Cert.Spec.plainWeight (Cert.KernelRows.logits XA W B WC BC n) k
      = val_main_v19 (F := Ideal) X We be Wg bg (ix2 n k) := by
  have rL := L_real X We be Wg bg n rX rWe rbe rWg rbg
  rw [logits_eq X We be Wg bg XA W B WC BC n hX hW hB hWClo hBClo, Cert.RefValue.ref_weights_apply]
  exact (Cert.RealRows.shiftedWeight_eq_plain_of_real _ _ k rL (Cert.RefValue.shift_real X We be Wg bg n rL)).symm

/-- THE MEAN: the plain weighted mean of the fused row's predictions is entry (n, 0) of the reference's mean. -/
theorem mean_bridge (X : (⟨S32768x768, .f32⟩ : BufTy).Contents (Elt Ideal)) (We : (⟨S768x768, .f32⟩ : BufTy).Contents (Elt Ideal))
    (be : (⟨S768, .f32⟩ : BufTy).Contents (Elt Ideal)) (Wh : (⟨S64x768, .f32⟩ : BufTy).Contents (Elt Ideal))
    (bh : (⟨S64, .f32⟩ : BufTy).Contents (Elt Ideal)) (Wg : (⟨S768x64, .f32⟩ : BufTy).Contents (Elt Ideal))
    (bg : (⟨S64, .f32⟩ : BufTy).Contents (Elt Ideal))
    (XA : (⟨2, ![32768, 768]⟩ : Shape).Idx → EReal) (W : (⟨2, ![768, 768]⟩ : Shape).Idx → EReal)
    (B : (⟨2, ![1, 768]⟩ : Shape).Idx → EReal) (WC : (⟨2, ![768, 128]⟩ : Shape).Idx → EReal)
    (BC : (⟨2, ![1, 128]⟩ : Shape).Idx → EReal) (n : Fin 32768)
    (hX : ∀ i, XA i = X i) (hW : ∀ c d : Fin 768, W (ix2 c d) = We (ix2 c d))
    (hB : ∀ d : Fin 768, B (ix2 (0 : Fin 1) d) = be (ix1 d))
    (hWClo : ∀ (d : Fin 768) (j : Fin 64), WC (ix2 d (Cert.KernelRows.lo j)) = Wg (ix2 d j))
    (hWChi : ∀ (d : Fin 768) (j : Fin 64), WC (ix2 d (Cert.KernelRows.hi j)) = Wh (ix2 j d))
    (hBClo : ∀ j : Fin 64, BC (ix2 (0 : Fin 1) (Cert.KernelRows.lo j)) = bg (ix1 j))
    (hBChi : ∀ j : Fin 64, BC (ix2 (0 : Fin 1) (Cert.KernelRows.hi j)) = bh (ix1 j))
    (rX : ∀ i, ∃ r : ℝ, X i = (r : EReal)) (rWe : ∀ i, ∃ r : ℝ, We i = (r : EReal)) (rbe : ∀ i, ∃ r : ℝ, be i = (r : EReal))
    (rWh : ∀ i, ∃ r : ℝ, Wh i = (r : EReal)) (rbh : ∀ i, ∃ r : ℝ, bh i = (r : EReal))
    (rWg : ∀ i, ∃ r : ℝ, Wg i = (r : EReal)) (rbg : ∀ i, ∃ r : ℝ, bg i = (r : EReal)) :
    Cert.Spec.plainMean (Cert.KernelRows.logits XA W B WC BC n) (Cert.KernelRows.preds XA W B WC BC n)
      = val_main_v28 (F := Ideal) X We be Wh bh Wg bg (ix2 n (0 : Fin 1)) := by
  have rL := L_real X We be Wg bg n rX rWe rbe rWg rbg
  have rP := Pd_real X We be Wh bh n rX rWe rbe rWh rbh
  rw [logits_eq X We be Wg bg XA W B WC BC n hX hW hB hWClo hBClo,
    preds_eq X We be Wh bh XA W B WC BC n hX hW hB hWChi hBChi, Cert.RefValue.ref_mean_apply]
  exact (Cert.RealRows.shiftedMean_eq_plain_of_real _ _ _ rL rP (Cert.RefValue.shift_real X We be Wg bg n rL)).symm

end Cert.RowBridge

end
-- ==== Proof.FiniteInputs.lean ====
/-
  Every float input of the kernel is finite: the precondition compares the absolute value of every
  entry of every argument array with +∞ and takes the conjunction of all the comparisons.  Over the
  extended reals, |x| < +∞ says exactly that x is neither +∞ nor -∞, that is, x is a real number.
-/
import proofs.«101113_g83665962926118_cont_9to1c4b_418_25_alg».proof.Defs
import proofs.«101113_g83665962926118_cont_9to1c4b_418_25_alg».proof.Proof.Gen.Pre_finite_inputs
import Idealize.ShloMosaic.Lib.ReduceAll
import Idealize.ShloMosaic.Lib.ValueIdx
import Idealize.ShloMosaic.Lib.IdealHost

noncomputable section

namespace Cert.FiniteInputs

open Idealize.ShloMosaic Idealize.SL.Sem
open Cert.Pre_finite_inputs

/-- The shape with no axes has exactly one index. -/
instance subsingleton_scalar_idx : Subsingleton S_.Idx := ⟨fun a b => funext fun d => d.elim0⟩

/-- The f32 word `0x7F800000` is the extended real +∞. -/
theorem ofBits_inf_f32 : Ideal.ofBits .f32 0x7F800000#32 = (⊤ : EReal) := by
  simp [Ideal.ofBits, Ideal.ieee]

/-- An extended real whose absolute value `max x (-x)` lies strictly below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- If the conjunction over all entries of `|a| < +∞` is true, every entry of `a` is a real number. -/
theorem real_of_all_finite {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf a) (broadcastInDim s ![] hb (constant S_ .f32 0x7F800000#32))) init hr hu j = 1#1)
    (i : s.Idx) : ∃ r : ℝ, a i = (r : EReal) := by
  have h1 := Host.reduce_andi_all _ init hr hu j e i
  rw [ValueIdx.cmpf_apply, ValueIdx.broadcastInDim_scalar_apply, ValueIdx.constant_apply, ofBits_inf_f32] at h1
  have h2 : max (a i) (-(a i)) < (⊤ : EReal) := by
    have h3 : Ideal.cmp .olt (max (a i) (-(a i))) (⊤ : EReal) = 1#1 := h1
    unfold Ideal.cmp at h3
    by_contra hn
    simp [hn] at h3
  exact real_of_abs_lt_top _ h2

/-- From the precondition: every entry of each of the seven argument arrays is a real number. -/
theorem args_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal)) := by
  have h0 := congrFun (h c) ValueIdx.ix0
  dsimp only [Cert.Pre_finite_inputs.fn, Cert.Pre_finite_inputs.fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all_finite _ _ _ _ _ _ e0, real_of_all_finite _ _ _ _ _ _ e1,
    real_of_all_finite _ _ _ _ _ _ e2, real_of_all_finite _ _ _ _ _ _ e3,
    real_of_all_finite _ _ _ _ _ _ e4, real_of_all_finite _ _ _ _ _ _ e5,
    real_of_all_finite _ _ _ _ _ _ e6⟩

/-- Every entry of argument array 0 is a real number. -/
theorem arg0_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S32768x768.Idx) :
    ∃ r : ℝ, m ((c.tc : Thread Cert.KernelIdeal.nD Cert.KernelIdeal.τ).loc Cert.KernelIdeal.main_arg0) i = (r : EReal) :=
  (args_real m h c).1 i

/-- Every entry of argument array 1 is a real number. -/
theorem arg1_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S768x768.Idx) :
    ∃ r : ℝ, m ((c.tc : Thread Cert.KernelIdeal.nD Cert.KernelIdeal.τ).loc Cert.KernelIdeal.main_arg1) i = (r : EReal) :=
  (args_real m h c).2.1 i

/-- Every entry of argument array 2 is a real number. -/
theorem arg2_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S768.Idx) :
    ∃ r : ℝ, m ((c.tc : Thread Cert.KernelIdeal.nD Cert.KernelIdeal.τ).loc Cert.KernelIdeal.main_arg2) i = (r : EReal) :=
  (args_real m h c).2.2.1 i

/-- Every entry of argument array 3 is a real number. -/
theorem arg3_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S64x768.Idx) :
    ∃ r : ℝ, m ((c.tc : Thread Cert.KernelIdeal.nD Cert.KernelIdeal.τ).loc Cert.KernelIdeal.main_arg3) i = (r : EReal) :=
  (args_real m h c).2.2.2.1 i

/-- Every entry of argument array 4 is a real number. -/
theorem arg4_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S64.Idx) :
    ∃ r : ℝ, m ((c.tc : Thread Cert.KernelIdeal.nD Cert.KernelIdeal.τ).loc Cert.KernelIdeal.main_arg4) i = (r : EReal) :=
  (args_real m h c).2.2.2.2.1 i

/-- Every entry of argument array 5 is a real number. -/
theorem arg5_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S768x64.Idx) :
    ∃ r : ℝ, m ((c.tc : Thread Cert.KernelIdeal.nD Cert.KernelIdeal.τ).loc Cert.KernelIdeal.main_arg5) i = (r : EReal) :=
  (args_real m h c).2.2.2.2.2.1 i

/-- Every entry of argument array 6 is a real number. -/
theorem arg6_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S64.Idx) :
    ∃ r : ℝ, m ((c.tc : Thread Cert.KernelIdeal.nD Cert.KernelIdeal.τ).loc Cert.KernelIdeal.main_arg6) i = (r : EReal) :=
  (args_real m h c).2.2.2.2.2.2 i

end Cert.FiniteInputs

end
-- ==== Proof.Algebraic.lean ====
/-
  The two programs compute the same two arrays, for finite inputs.

  Row n of the kernel's result arrays is, after the eight write-backs, the plain softmax weights and the plain weighted
  mean of the row's logits and predictions read through the arrays the region finds: the token matrix as launched, and
  the host operations' copies of the weights — the hidden weights and bias cast to bf16 (the identity on extended
  reals), the two output layers fused side by side, the two output biases end to end, and a matrix of ones. Reading
  those copies entry by entry gives back the argument arrays' entries, so the row's logits and predictions are the
  reference's. The reference shifts the logits by their row maximum before the exponential; for real logits the shift
  cancels. The precondition makes every argument entry real, hence every logit and prediction.
-/
import proofs.«101113_g83665962926118_cont_9to1c4b_418_25_alg».proof.Defs
import proofs.«101113_g83665962926118_cont_9to1c4b_418_25_alg».proof.Proof.KernelIdealRun
import proofs.«101113_g83665962926118_cont_9to1c4b_418_25_alg».proof.Proof.FinalArrays
import proofs.«101113_g83665962926118_cont_9to1c4b_418_25_alg».proof.Proof.EntryValues
import proofs.«101113_g83665962926118_cont_9to1c4b_418_25_alg».proof.Proof.HostPrefix
import proofs.«101113_g83665962926118_cont_9to1c4b_418_25_alg».proof.Proof.RowBridge
import proofs.«101113_g83665962926118_cont_9to1c4b_418_25_alg».proof.Proof.FiniteInputs
import proofs.«101113_g83665962926118_cont_9to1c4b_418_25_alg».proof.Proof.RefRun

set_option maxRecDepth 16384

noncomputable section

namespace Cert.Proof.Algebraic

open Idealize.ShloMosaic Idealize.ShloMosaic.ValueIdx Idealize.ShloMosaic.TcCoe Idealize.SL.Sem

section Rows

variable (m : (ℓ : Loc Cert.KernelIdeal.nD Cert.KernelIdeal.τ Cert.KernelIdeal.sig) → Buf (Elt Ideal) ℓ)
  (c : Dev Cert.KernelIdeal.nD)

/-! The region-entry copies, read entry by entry, are the arguments' entries. -/

theorem tokens_entry (i : Cert.KernelIdeal.S32768x768.Idx) :
    Cert.KernelIdeal.Frame.V (F := Ideal) m c Cert.KernelIdeal.main_arg0 i
      = m ((c.tc : Thread Cert.KernelIdeal.nD Cert.KernelIdeal.τ).loc Cert.KernelIdeal.main_arg0) i :=
  congrFun (Cert.KernelIdeal.Frame.V_main_arg0 (F := Ideal) m c) i

theorem hidden_weights_entry (a d : Fin 768) :
    Cert.KernelIdeal.Frame.V (F := Ideal) m c Cert.KernelIdeal.main_v7 (ix2 a d)
      = m ((c.tc : Thread Cert.KernelIdeal.nD Cert.KernelIdeal.τ).loc Cert.KernelIdeal.main_arg1) (ix2 a d) :=
  (congrFun (Cert.EntryValues.V_main_v7 (F := Ideal) m c) (ix2 a d)).trans (Cert.HostPrefix.wext_cast _ a d)

theorem hidden_bias_entry (d : Fin 768) :
    Cert.KernelIdeal.Frame.V (F := Ideal) m c Cert.KernelIdeal.main_v6 (ix2 (0 : Fin 1) d)
      = m ((c.tc : Thread Cert.KernelIdeal.nD Cert.KernelIdeal.τ).loc Cert.KernelIdeal.main_arg2) (ix1 d) :=
  (congrFun (Cert.EntryValues.V_main_v6 (F := Ideal) m c) (ix2 (0 : Fin 1) d)).trans (Cert.HostPrefix.bext_row _ d)

theorem fused_weights_gate (d : Fin 768) (j : Fin 64) :
    Cert.KernelIdeal.Frame.V (F := Ideal) m c Cert.KernelIdeal.main_v2 (ix2 d (Cert.KernelRows.lo j))
      = m ((c.tc : Thread Cert.KernelIdeal.nD Cert.KernelIdeal.τ).loc Cert.KernelIdeal.main_arg5) (ix2 d j) :=
  (congrFun (Cert.EntryValues.V_main_v2 (F := Ideal) m c) (ix2 d (Cert.KernelRows.lo j))).trans (Cert.HostPrefix.wcomb_lo _ _ d j)

theorem fused_weights_heads (d : Fin 768) (j : Fin 64) :
    Cert.KernelIdeal.Frame.V (F := Ideal) m c Cert.KernelIdeal.main_v2 (ix2 d (Cert.KernelRows.hi j))
      = m ((c.tc : Thread Cert.KernelIdeal.nD Cert.KernelIdeal.τ).loc Cert.KernelIdeal.main_arg3) (ix2 j d) :=
  (congrFun (Cert.EntryValues.V_main_v2 (F := Ideal) m c) (ix2 d (Cert.KernelRows.hi j))).trans (Cert.HostPrefix.wcomb_hi _ _ d j)

theorem fused_bias_gate (j : Fin 64) :
    Cert.KernelIdeal.Frame.V (F := Ideal) m c Cert.KernelIdeal.main_v4 (ix2 (0 : Fin 1) (Cert.KernelRows.lo j))
      = m ((c.tc : Thread Cert.KernelIdeal.nD Cert.KernelIdeal.τ).loc Cert.KernelIdeal.main_arg6) (ix1 j) :=
  (congrFun (Cert.EntryValues.V_main_v4 (F := Ideal) m c) (ix2 (0 : Fin 1) (Cert.KernelRows.lo j))).trans (Cert.HostPrefix.bcomb_lo _ _ j)

theorem fused_bias_heads (j : Fin 64) :
    Cert.KernelIdeal.Frame.V (F := Ideal) m c Cert.KernelIdeal.main_v4 (ix2 (0 : Fin 1) (Cert.KernelRows.hi j))
      = m ((c.tc : Thread Cert.KernelIdeal.nD Cert.KernelIdeal.τ).loc Cert.KernelIdeal.main_arg4) (ix1 j) :=
  (congrFun (Cert.EntryValues.V_main_v4 (F := Ideal) m c) (ix2 (0 : Fin 1) (Cert.KernelRows.hi j))).trans (Cert.HostPrefix.bcomb_hi _ _ j)

theorem ones_entry (i : Cert.KernelIdeal.S64x64.Idx) :
    Cert.KernelIdeal.Frame.V (F := Ideal) m c Cert.KernelIdeal.main_v8 i = (1 : EReal) :=
  (congrFun (Cert.EntryValues.V_main_v8 (F := Ideal) m c) i).trans (Cert.HostPrefix.ones_apply i)

/-! The kernel's two result arrays, entry by entry, are the reference's two values of the same arguments. -/

theorem weights_entry (hpre : Cert.Pre_KernelIdeal m) (n : Fin 32768) (k : Fin 64) :
    (Cert.KernelIdeal.Frame.dats (F := Ideal) m 0 c).arrAt 8 Cert.KernelIdeal.cfg0.N (ix2 n k)
      = Cert.ReferenceIdeal.Read.val_main_v19 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) (ix2 n k) := by
  have hr := Cert.FiniteInputs.args_real m hpre c
  refine (Cert.FinalArrays.final_weights m c (ones_entry m c) n k).trans ?_
  exact Cert.RowBridge.weights_bridge _ _ _ _ _ _ _ _ _ _ _ _ n k
    (tokens_entry m c) (hidden_weights_entry m c) (hidden_bias_entry m c) (fused_weights_gate m c) (fused_weights_heads m c)
    (fused_bias_gate m c) (fused_bias_heads m c)
    hr.1 hr.2.1 hr.2.2.1 hr.2.2.2.1 hr.2.2.2.2.1 hr.2.2.2.2.2.1 hr.2.2.2.2.2.2

theorem mean_entry (hpre : Cert.Pre_KernelIdeal m) (n : Fin 32768) :
    (Cert.KernelIdeal.Frame.dats (F := Ideal) m 0 c).arrAt 7 Cert.KernelIdeal.cfg0.N (ix2 n (0 : Fin 1))
      = Cert.ReferenceIdeal.Read.val_main_v28 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) (ix2 n (0 : Fin 1)) := by
  have hr := Cert.FiniteInputs.args_real m hpre c
  refine (Cert.FinalArrays.final_mean m c (ones_entry m c) n).trans ?_
  exact Cert.RowBridge.mean_bridge _ _ _ _ _ _ _ _ _ _ _ _ n
    (tokens_entry m c) (hidden_weights_entry m c) (hidden_bias_entry m c) (fused_weights_gate m c) (fused_weights_heads m c)
    (fused_bias_gate m c) (fused_bias_heads m c)
    hr.1 hr.2.1 hr.2.2.1 hr.2.2.2.1 hr.2.2.2.2.1 hr.2.2.2.2.2.1 hr.2.2.2.2.2.2

end Rows

/-- From memories agreeing on the seven arguments, under the precondition: both programs run to the end, the kernel's
    weighted means and softmax weights equal the reference's entry by entry, and the arguments end unchanged. -/
theorem algebraic : Cert.algebraic_KernelIdeal_ReferenceIdeal := by
  intro m ρ m' ρ' hpre hagree
  refine ⟨fun c => (Cert.KernelIdeal.Frame.dats (F := Ideal) m 0 c).arrAt 7 Cert.KernelIdeal.cfg0.N,
    fun c => (Cert.KernelIdeal.Frame.dats (F := Ideal) m 0 c).arrAt 8 Cert.KernelIdeal.cfg0.N,
    Cert.KernelIdeal.Frame.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v28_eq, (hagree c).1, (hagree c).2.1, (hagree c).2.2.1, (hagree c).2.2.2.1,
      (hagree c).2.2.2.2.1, (hagree c).2.2.2.2.2.1, (hagree c).2.2.2.2.2.2]
    funext i
    obtain ⟨n, z, rfl⟩ : ∃ (n : Fin 32768) (z : Fin 1), i = ix2 n z := ⟨i 0, i 1, eq_ix2 i⟩
    obtain rfl : z = 0 := Subsingleton.elim _ _
    exact (mean_entry m c hpre n).symm
  · rw [Cert.ReferenceIdeal.Read.val_main_v19_eq, (hagree c).1, (hagree c).2.1, (hagree c).2.2.1, (hagree c).2.2.2.2.2.1,
      (hagree c).2.2.2.2.2.2]
    funext i
    obtain ⟨n, k, rfl⟩ : ∃ (n : Fin 32768) (k : Fin 64), i = ix2 n k := ⟨i 0, i 1, eq_ix2 i⟩
    exact (weights_entry m c hpre n k).symm

end Cert.Proof.Algebraic

end
-- ==== Proof.lean ====
/-
  The claim of this directory, five parts.

  The kernel computes, for each of 32768 token rows, a hidden layer z = max(x · Wₑ + bₑ, 0), 64 gate logits
  l = z · W_g + b_g and 64 head predictions p = z · W_hᵀ + b_h, and returns the softmax weights e^(l_k) / ∑ e^(l_j) and the
  weighted mean (∑ e^(l_j) p_j) / (∑ e^(l_j)). It forms the two row sums as products with an all-ones matrix, fuses the two
  output layers into one [768, 128] product, and subtracts no maximum before the exponential. The reference subtracts the
  row maximum first and sums weight times prediction.

  Frames. The kernel program is a line of host operations and one pipelined region whose first two windows read the
  same array; each of its two readings (word level and idealized) runs to the end, faults nowhere and leaves its seven
  arguments unchanged (`Cert.Kernel.Frame.frame`, `Cert.KernelIdeal.Frame.frame`). The reference is host operations only;
  its frame is its run with the results dropped.

  Preserves. The idealization rewrote nothing, so there is nothing to restate.

  Algebraic. For finite inputs every logit and prediction is a real number, e^(l - s) = e^l · e^(-s) with e^(-s) a positive
  real, and the factor cancels in both quotients; the sum of weight times prediction is then the quotient of the two
  sums by distributivity. With an infinite input these steps would fail, and the precondition is what excludes it.
-/
import proofs.«101113_g83665962926118_cont_9to1c4b_418_25_alg».proof.Defs
import proofs.«101113_g83665962926118_cont_9to1c4b_418_25_alg».proof.Proof.Gen.Kernel
import proofs.«101113_g83665962926118_cont_9to1c4b_418_25_alg».proof.Proof.Gen.KernelIdeal
import proofs.«101113_g83665962926118_cont_9to1c4b_418_25_alg».proof.Proof.Gen.ReferenceIdeal
import proofs.«101113_g83665962926118_cont_9to1c4b_418_25_alg».proof.Proof.Gen.Pre_finite_inputs
import proofs.«101113_g83665962926118_cont_9to1c4b_418_25_alg».proof.Proof.KernelRun
import proofs.«101113_g83665962926118_cont_9to1c4b_418_25_alg».proof.Proof.KernelIdealRun
import proofs.«101113_g83665962926118_cont_9to1c4b_418_25_alg».proof.Proof.RefRun
import proofs.«101113_g83665962926118_cont_9to1c4b_418_25_alg».proof.Proof.Algebraic
import Idealize.ShloMosaic.Adequacy
import Idealize.ShloMosaic.Init

noncomputable section

namespace Cert.Proof

open Idealize.ShloMosaic Idealize.SL.Sem

/-- The word-level kernel program runs and leaves its arguments unchanged. -/
theorem frame_kernel : @Cert.frame_Kernel Cert.Kernel.Gen.facts Cert.Pre_finite_inputs.Gen.facts :=
  fun m ρ _ => Cert.Kernel.Frame.frame m ρ

/-- So does its idealization. -/
theorem frame_kernel_ideal : @Cert.frame_KernelIdeal Cert.KernelIdeal.Gen.facts Cert.Pre_finite_inputs.Gen.facts :=
  fun m ρ _ => Cert.KernelIdeal.Frame.frame m ρ

/-- The reference's frame is its run with the two results dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, Cert.Proof.Algebraic.algebraic⟩

end Cert.Proof

end
